-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100 : Shape := ⟨2, ![16, 100]⟩
abbrev S16x2048x2048 : Shape := ⟨3, ![16, 2048, 2048]⟩
abbrev S16x2048x100 : Shape := ⟨3, ![16, 2048, 100]⟩
abbrev S_ : Shape := ⟨0, ![]⟩

class Facts : Prop where
  bcast_S_S16x100 : S_.BroadcastsInDim S16x100 (![] : Fin 0 → Fin S16x100.rank)
  reducesTo_S16x100_S_d0_1 : S16x100.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S16x2048x100 : S_.BroadcastsInDim S16x2048x100 (![] : Fin 0 → Fin S16x2048x100.rank)
  reducesTo_S16x2048x100_S_d0_1_2 : S16x2048x100.ReducesTo [0, 1, 2] S_

variable [Facts]

def fn_part2 {F : FTy → Type} [FloatOps F] (main_arg7 : FVec F S16x2048x100 .f32) (main_arg8 : FVec F S16x2048x100 .f32) (main_v33 : IVec S_ 1) : IVec S_ 1 :=
  let main_v34 : FVec F S16x2048x100 .f32 := Host.absf main_arg7
  let main_cst_12 : FVec F S_ .f32 := constant S_ .f32 0x7F800000#32
  let main_v35 : FVec F S16x2048x100 .f32 := broadcastInDim S16x2048x100 ![] bcast_S_S16x2048x100 main_cst_12
  let main_v36 : IVec S16x2048x100 1 := cmpf .olt main_v34 main_v35
  let main_c_13 : IVec S_ 1 := constantI S_ 1 1#1
  let main_v37 : IVec S_ 1 := (fun x v => Host.reduce IntOp.andi x v reducesTo_S16x2048x100_S_d0_1_2 h_S_) main_v36 main_c_13
  let main_v38 : IVec S_ 1 := andi main_v33 main_v37
  let main_v39 : FVec F S16x2048x100 .f32 := Host.absf main_arg8
  let main_cst_14 : FVec F S_ .f32 := constant S_ .f32 0x7F800000#32
  let main_v40 : FVec F S16x2048x100 .f32 := broadcastInDim S16x2048x100 ![] bcast_S_S16x2048x100 main_cst_14
  let main_v41 : IVec S16x2048x100 1 := cmpf .olt main_v39 main_v40
  let main_c_15 : IVec S_ 1 := constantI S_ 1 1#1
  let main_v42 : IVec S_ 1 := (fun x v => Host.reduce IntOp.andi x v reducesTo_S16x2048x100_S_d0_1_2 h_S_) main_v41 main_c_15
  let main_v43 : IVec S_ 1 := andi main_v38 main_v42
  main_v43

def fn_part1 {F : FTy → Type} [FloatOps F] (main_arg4 : FVec F S16x100 .f32) (main_arg5 : FVec F S16x2048x100 .f32) (main_arg6 : FVec F S16x2048x100 .f32) (main_arg7 : FVec F S16x2048x100 .f32) (main_arg8 : FVec F S16x2048x100 .f32) (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  let main_v19 : FVec F S16x100 .f32 := Host.absf main_arg4
  let main_cst_6 : FVec F S_ .f32 := constant S_ .f32 0x7F800000#32
  let main_v20 : FVec F S16x100 .f32 := broadcastInDim S16x100 ![] bcast_S_S16x100 main_cst_6
  let main_v21 : IVec S16x100 1 := cmpf .olt main_v19 main_v20
  let main_c_7 : IVec S_ 1 := constantI S_ 1 1#1
  let main_v22 : IVec S_ 1 := (fun x v => Host.reduce IntOp.andi x v reducesTo_S16x100_S_d0_1 h_S_) main_v21 main_c_7
  let main_v23 : IVec S_ 1 := andi main_v18 main_v22
  let main_v24 : FVec F S16x2048x100 .f32 := Host.absf main_arg5
  let main_cst_8 : FVec F S_ .f32 := constant S_ .f32 0x7F800000#32
  let main_v25 : FVec F S16x2048x100 .f32 := broadcastInDim S16x2048x100 ![] bcast_S_S16x2048x100 main_cst_8
  let main_v26 : IVec S16x2048x100 1 := cmpf .olt main_v24 main_v25
  let main_c_9 : IVec S_ 1 := constantI S_ 1 1#1
  let main_v27 : IVec S_ 1 := (fun x v => Host.reduce IntOp.andi x v reducesTo_S16x2048x100_S_d0_1_2 h_S_) main_v26 main_c_9
  let main_v28 : IVec S_ 1 := andi main_v23 main_v27
  let main_v29 : FVec F S16x2048x100 .f32 := Host.absf main_arg6
  let main_cst_10 : FVec F S_ .f32 := constant S_ .f32 0x7F800000#32
  let main_v30 : FVec F S16x2048x100 .f32 := broadcastInDim S16x2048x100 ![] bcast_S_S16x2048x100 main_cst_10
  let main_v31 : IVec S16x2048x100 1 := cmpf .olt main_v29 main_v30
  let main_c_11 : IVec S_ 1 := constantI S_ 1 1#1
  let main_v32 : IVec S_ 1 := (fun x v => Host.reduce IntOp.andi x v reducesTo_S16x2048x100_S_d0_1_2 h_S_) main_v31 main_c_11
  let main_v33 : IVec S_ 1 := andi main_v28 main_v32
  fn_part2 (F := F) main_arg7 main_arg8 main_v33

def fn {F : FTy → Type} [FloatOps F] (main_arg0 : FVec F S16x100 .f32) (main_arg1 : FVec F S16x100 .f32) (main_arg2 : FVec F S16x2048x2048 .f32) (main_arg3 : FVec F S16x2048x2048 .f32) (main_arg4 : FVec F S16x100 .f32) (main_arg5 : FVec F S16x2048x100 .f32) (main_arg6 : FVec F S16x2048x100 .f32) (main_arg7 : FVec F S16x2048x100 .f32) (main_arg8 : FVec F S16x2048x100 .f32) : IVec S_ 1 :=
  let main_v0 : FVec F S16x100 .f32 := Host.absf main_arg0
  let main_cst : FVec F S_ .f32 := constant S_ .f32 0x7F800000#32
  let main_v1 : FVec F S16x100 .f32 := broadcastInDim S16x100 ![] bcast_S_S16x100 main_cst
  let main_v2 : IVec S16x100 1 := cmpf .olt main_v0 main_v1
  let main_c : IVec S_ 1 := constantI S_ 1 1#1
  let main_v3 : IVec S_ 1 := (fun x v => Host.reduce IntOp.andi x v reducesTo_S16x100_S_d0_1 h_S_) main_v2 main_c
  let main_v4 : FVec F S16x100 .f32 := Host.absf main_arg1
  let main_cst_0 : FVec F S_ .f32 := constant S_ .f32 0x7F800000#32
  let main_v5 : FVec F S16x100 .f32 := broadcastInDim S16x100 ![] bcast_S_S16x100 main_cst_0
  let main_v6 : IVec S16x100 1 := cmpf .olt main_v4 main_v5
  let main_c_1 : IVec S_ 1 := constantI S_ 1 1#1
  let main_v7 : IVec S_ 1 := (fun x v => Host.reduce IntOp.andi x v reducesTo_S16x100_S_d0_1 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_arg4 main_arg5 main_arg6 main_arg7 main_arg8 main_v13 main_v16
-- ==== Kernel.lean ====
abbrev S16x100 : Shape := ⟨2, ![16, 100]⟩
abbrev S16x2048x2048 : Shape := ⟨3, ![16, 2048, 2048]⟩
abbrev S16x2048x100 : Shape := ⟨3, ![16, 2048, 100]⟩
abbrev S_ : Shape := ⟨0, ![]⟩
abbrev S16 : Shape := ⟨1, ![16]⟩
abbrev S16x1 : Shape := ⟨2, ![16, 1]⟩
abbrev S8x128x2048 : Shape := ⟨3, ![8, 128, 2048]⟩
abbrev S8x128x100 : Shape := ⟨3, ![8, 128, 100]⟩
abbrev S8x1 : Shape := ⟨2, ![8, 1]⟩
abbrev S8x100 : Shape := ⟨2, ![8, 100]⟩
abbrev S8x2048 : Shape := ⟨2, ![8, 2048]⟩
abbrev S8x128 : Shape := ⟨2, ![8, 128]⟩
abbrev S8x128x1 : Shape := ⟨3, ![8, 128, 1]⟩
abbrev S8 : Shape := ⟨1, ![8]⟩
abbrev S1 : Shape := ⟨1, ![1]⟩
abbrev S6 : Shape := ⟨1, ![6]⟩

abbrev nBuf : Space → Nat
  | .hbm => 119
  | .vmem => 27
  | .smem => 0
  | _ => 0

abbrev bufTy : (tb : Table) → Fin (tcTables nBuf tb) → BufTy
  | .hbm, ⟨0, _⟩ => ⟨S16x100, .f32⟩
  | .hbm, ⟨1, _⟩ => ⟨S16x100, .f32⟩
  | .hbm, ⟨2, _⟩ => ⟨S16x2048x2048, .f32⟩
  | .hbm, ⟨3, _⟩ => ⟨S16x2048x2048, .f32⟩
  | .hbm, ⟨4, _⟩ => ⟨S16x100, .f32⟩
  | .hbm, ⟨5, _⟩ => ⟨S16x2048x100, .f32⟩
  | .hbm, ⟨6, _⟩ => ⟨S16x2048x100, .f32⟩
  | .hbm, ⟨7, _⟩ => ⟨S16x2048x100, .f32⟩
  | .hbm, ⟨8, _⟩ => ⟨S16x2048x100, .f32⟩
  | .hbm, ⟨9, _⟩ => ⟨S_, .f32⟩
  | .hbm, ⟨10, _⟩ => ⟨S16, .f32⟩
  | .hbm, ⟨11, _⟩ => ⟨S16x1, .f32⟩
  | .hbm, ⟨12, _⟩ => ⟨S16x100, .f32⟩
  | .hbm, ⟨13, _⟩ => ⟨S16x100, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x100, .f32⟩
  | .hbm, ⟨18, _⟩ => ⟨S16x100, .f32⟩
  | .hbm, ⟨19, _⟩ => ⟨S_, .f32⟩
  | .hbm, ⟨20, _⟩ => ⟨S16x100, .f32⟩
  | .hbm, ⟨21, _⟩ => ⟨S16x100, .f32⟩
  | .hbm, ⟨22, _⟩ => ⟨S16x100, .f32⟩
  | .hbm, ⟨23, _⟩ => ⟨S16x100, .f32⟩
  | .hbm, ⟨24, _⟩ => ⟨S_, .f32⟩
  | .hbm, ⟨25, _⟩ => ⟨S16x100, .f32⟩
  | .hbm, ⟨26, _⟩ => ⟨S16x100, .f32⟩
  | .hbm, ⟨27, _⟩ => ⟨S16x100, .f32⟩
  | .hbm, ⟨28, _⟩ => ⟨S16x100, .f32⟩
  | .hbm, ⟨29, _⟩ => ⟨S16x100, .f32⟩
  | .hbm, ⟨30, _⟩ => ⟨S16x100, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16x100, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x100, .f32⟩
  | .hbm, ⟨42, _⟩ => ⟨S16x100, .f32⟩
  | .hbm, ⟨43, _⟩ => ⟨S_, .f32⟩
  | .hbm, ⟨44, _⟩ => ⟨S16x100, .f32⟩
  | .hbm, ⟨45, _⟩ => ⟨S16x100, .f32⟩
  | .hbm, ⟨46, _⟩ => ⟨S16x100, .f32⟩
  | .hbm, ⟨47, _⟩ => ⟨S16x100, .f32⟩
  | .hbm, ⟨48, _⟩ => ⟨S_, .f32⟩
  | .hbm, ⟨49, _⟩ => ⟨S16x100, .f32⟩
  | .hbm, ⟨50, _⟩ => ⟨S16x100, .f32⟩
  | .hbm, ⟨51, _⟩ => ⟨S16x100, .f32⟩
  | .hbm, ⟨52, _⟩ => ⟨S16x100, .f32⟩
  | .hbm, ⟨53, _⟩ => ⟨S16x100, .f32⟩
  | .hbm, ⟨54, _⟩ => ⟨S16x100, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16x1, .f32⟩
  | .hbm, ⟨61, _⟩ => ⟨S16x1, .f32⟩
  | .hbm, ⟨62, _⟩ => ⟨S16x100, .f32⟩
  | .hbm, ⟨63, _⟩ => ⟨S16x100, .f32⟩
  | .hbm, ⟨64, _⟩ => ⟨S16x1, .f32⟩
  | .hbm, ⟨65, _⟩ => ⟨S16, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S16x100, .f32⟩
  | .hbm, ⟨82, _⟩ => ⟨S16x100, .i1⟩
  | .hbm, ⟨83, _⟩ => ⟨S16x100, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S16x100, .f32⟩
  | .hbm, ⟨92, _⟩ => ⟨S16x100, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S1, .f32⟩
  | .hbm, ⟨113, _⟩ => ⟨S1, .f32⟩
  | .hbm, ⟨114, _⟩ => ⟨S1, .f32⟩
  | .hbm, ⟨115, _⟩ => ⟨S1, .f32⟩
  | .hbm, ⟨116, _⟩ => ⟨S1, .f32⟩
  | .hbm, ⟨117, _⟩ => ⟨S1, .f32⟩
  | .hbm, ⟨118, _⟩ => ⟨S6, .f32⟩
  | .local _ .vmem, ⟨0, _⟩ => ⟨S8x128x2048, .f32⟩
  | .local _ .vmem, ⟨1, _⟩ => ⟨S8x128x2048, .f32⟩
  | .local _ .vmem, ⟨2, _⟩ => ⟨S8x128x2048, .f32⟩
  | .local _ .vmem, ⟨3, _⟩ => ⟨S8x128x2048, .f32⟩
  | .local _ .vmem, ⟨4, _⟩ => ⟨S8x128x100, .f32⟩
  | .local _ .vmem, ⟨5, _⟩ => ⟨S8x128x100, .f32⟩
  | .local _ .vmem, ⟨6, _⟩ => ⟨S8x128x100, .f32⟩
  | .local _ .vmem, ⟨7, _⟩ => ⟨S8x128x100, .f32⟩
  | .local _ .vmem, ⟨8, _⟩ => ⟨S8x128x100, .f32⟩
  | .local _ .vmem, ⟨9, _⟩ => ⟨S8x128x100, .f32⟩
  | .local _ .vmem, ⟨10, _⟩ => ⟨S8x128x100, .f32⟩
  | .local _ .vmem, ⟨11, _⟩ => ⟨S8x128x100, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | .local _ .vmem, ⟨16, _⟩ => ⟨S8x100, .f32⟩
  | .local _ .vmem, ⟨17, _⟩ => ⟨S8x100, .f32⟩
  | .local _ .vmem, ⟨18, _⟩ => ⟨S8x100, .f32⟩
  | .local _ .vmem, ⟨19, _⟩ => ⟨S8x100, .f32⟩
  | .local _ .vmem, ⟨20, _⟩ => ⟨S8x1, .f32⟩
  | .local _ .vmem, ⟨21, _⟩ => ⟨S8x1, .f32⟩
  | .local _ .vmem, ⟨22, _⟩ => ⟨S8x2048, .f32⟩
  | .local _ .vmem, ⟨23, _⟩ => ⟨S8x2048, .f32⟩
  | .local _ .vmem, ⟨24, _⟩ => ⟨S8x100, .f32⟩
  | .local _ .vmem, ⟨25, _⟩ => ⟨S8x100, .f32⟩
  | .local _ .vmem, ⟨26, _⟩ => ⟨S8x1, .f32⟩
  | _, _ => ⟨S16x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_cst_6 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_8 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_9 : Ref sig .tc := ⟨.hbm, 55, rfl⟩
abbrev main_v26 : Ref sig .tc := ⟨.hbm, 56, rfl⟩
abbrev main_cst_10 : Ref sig .tc := ⟨.hbm, 57, rfl⟩
abbrev main_v27 : Ref sig .tc := ⟨.hbm, 58, rfl⟩
abbrev main_v28 : Ref sig .tc := ⟨.hbm, 59, rfl⟩
abbrev main_v29_0 : Ref sig .tc := ⟨.hbm, 60, rfl⟩
abbrev main_v29_1 : Ref sig .tc := ⟨.hbm, 61, rfl⟩
abbrev main_v29_2 : Ref sig .tc := ⟨.hbm, 62, rfl⟩
abbrev main_v29_3 : Ref sig .tc := ⟨.hbm, 63, rfl⟩
abbrev main_v29_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_11 : Ref sig .tc := ⟨.hbm, 68, rfl⟩
abbrev main_v33 : Ref sig .tc := ⟨.hbm, 69, rfl⟩
abbrev main_v34 : Ref sig .tc := ⟨.hbm, 70, rfl⟩
abbrev main_cst_12 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_13 : Ref sig .tc := ⟨.hbm, 76, rfl⟩
abbrev main_v39 : Ref sig .tc := ⟨.hbm, 77, rfl⟩
abbrev main_cst_14 : Ref sig .tc := ⟨.hbm, 78, rfl⟩
abbrev main_v40 : Ref sig .tc := ⟨.hbm, 79, rfl⟩
abbrev main_cst_15 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c : Ref sig .tc := ⟨.hbm, 84, rfl⟩
abbrev main_v44 : Ref sig .tc := ⟨.hbm, 85, rfl⟩
abbrev main_c_16 : Ref sig .tc := ⟨.hbm, 86, rfl⟩
abbrev main_v45 : Ref sig .tc := ⟨.hbm, 87, rfl⟩
abbrev main_v46 : Ref sig .tc := ⟨.hbm, 88, rfl⟩
abbrev main_cst_17 : Ref sig .tc := ⟨.hbm, 89, rfl⟩
abbrev main_call2_v0 : Ref sig .tc := ⟨.hbm, 90, rfl⟩
abbrev main_call2_v1 : Ref sig .tc := ⟨.hbm, 91, rfl⟩
abbrev main_v47 : Ref sig .tc := ⟨.hbm, 92, rfl⟩
abbrev main_cst_18 : Ref sig .tc := ⟨.hbm, 93, rfl⟩
abbrev main_v48 : Ref sig .tc := ⟨.hbm, 94, rfl⟩
abbrev main_v49 : Ref sig .tc := ⟨.hbm, 95, rfl⟩
abbrev main_cst_19 : Ref sig .tc := ⟨.hbm, 96, rfl⟩
abbrev main_v50 : Ref sig .tc := ⟨.hbm, 97, rfl⟩
abbrev main_cst_20 : Ref sig .tc := ⟨.hbm, 98, rfl⟩
abbrev main_v51 : Ref sig .tc := ⟨.hbm, 99, rfl⟩
abbrev main_cst_21 : Ref sig .tc := ⟨.hbm, 100, rfl⟩
abbrev main_v52 : Ref sig .tc := ⟨.hbm, 101, rfl⟩
abbrev main_v53 : Ref sig .tc := ⟨.hbm, 102, rfl⟩
abbrev main_cst_22 : Ref sig .tc := ⟨.hbm, 103, rfl⟩
abbrev main_v54 : Ref sig .tc := ⟨.hbm, 104, rfl⟩
abbrev main_v55 : Ref sig .tc := ⟨.hbm, 105, rfl⟩
abbrev main_cst_23 : Ref sig .tc := ⟨.hbm, 106, rfl⟩
abbrev main_v56 : Ref sig .tc := ⟨.hbm, 107, rfl⟩
abbrev main_v57 : Ref sig .tc := ⟨.hbm, 108, rfl⟩
abbrev main_cst_24 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_44 : BitVec 32 := 0#32
  let v51 : BitVec 1 := Scalar.cmpi .ne v50 c0_i32_44
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x100 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  reducesTo_S16x100_S16_d1 : S16x100.ReducesTo [1] S16
  h_S_ : 0 < S_.numel
  bcast_S16_S16x1_0 : S16.BroadcastsInDim S16x1 (![0] : Fin 1 → Fin S16x1.rank)
  bcast_S16x1_S16x100_0_1 : S16x1.BroadcastsInDim S16x100 (![0, 1] : Fin 2 → Fin S16x100.rank)
  bcast_S_S16x100 : S_.BroadcastsInDim S16x100 (![] : Fin 0 → Fin S16x100.rank)
  reducesTo_S16x100_S_d0_1 : S16x100.ReducesTo [0, 1] S_
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x100_S8x100_0_0 : ∀ a, (![0, 0] : Fin 2 → Nat) a + S8x100.size a ≤ S8x100.size a
  h_S8x100 : 0 < S8x100.numel
  shapeCasts_S8x100_S8x100 : S8x100.ShapeCasts S8x100
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x128x2048_S8x128x2048_0_0_0 : ∀ a, (![0, 0, 0] : Fin 3 → Nat) a + S8x128x2048.size a ≤ S8x128x2048.size a
  h_S8x128x2048 : 0 < S8x128x2048.numel
  reduces_S8x128x2048_S8x2048 : S8x128x2048.Reduces [1] S8x2048
  inb_S8x128x100_S8x128x100_0_0_0 : ∀ a, (![0, 0, 0] : Fin 3 → Nat) a + S8x128x100.size a ≤ S8x128x100.size a
  h_S8x128x100 : 0 < S8x128x100.numel
  natLt_1_32 : 1 < 32
  reduces_S8x128x100_S8x100 : S8x128x100.Reduces [1] S8x100
  reduces_S8x128x100_S8x128 : S8x128x100.Reduces [2] S8x128
  shapeCasts_S8x128_S8x128x1 : S8x128.ShapeCasts S8x128x1
  reduces_S8x128x1_S8x1 : S8x128x1.Reduces [1] S8x1
  reduces_S8x2048_S8 : S8x2048.Reduces [1] S8
  shapeCasts_S8_S8x1 : S8.ShapeCasts S8x1
  shapeCasts_S16x1_S16 : S16x1.ShapeCasts S16
  bcast_S_S16 : S_.BroadcastsInDim S16 (![] : Fin 0 → Fin S16.rank)
  reducesTo_S16_S_d0 : S16.ReducesTo [0] S_
  bcast_S_S1 : S_.BroadcastsInDim S1 (![] : Fin 0 → Fin S1.rank)
  concatenates_S1_S1_S1_S1_S1_S1_S6_d0 : Shape.Concatenates [S1, S1, S1, S1, S1, S1] S6 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S16x2048x2048.size a
  hwx0_0 : ∀ i : grid0.Coords, EltTy.bits .f32 = 32 ∨ (Rect.block (s := S16x2048x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2048.size a ≤ S16x2048x2048.size a
  hwx0_1 : ∀ i : grid0.Coords, EltTy.bits .f32 = 32 ∨ (Rect.block (s := S16x2048x2048) S8x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x100.size a ≤ S16x2048x100.size a
  hwx0_2 : ∀ i : grid0.Coords, EltTy.bits .f32 = 32 ∨ (Rect.block (s := S16x2048x100) S8x128x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x100.size a ≤ S16x2048x100.size a
  hwx0_3 : ∀ i : grid0.Coords, EltTy.bits .f32 = 32 ∨ (Rect.block (s := S16x2048x100) S8x128x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x100.size a ≤ S16x2048x100.size a
  hwx0_4 : ∀ i : grid0.Coords, EltTy.bits .f32 = 32 ∨ (Rect.block (s := S16x2048x100) S8x128x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x100.size a ≤ S16x2048x100.size a
  hwx0_5 : ∀ i : grid0.Coords, EltTy.bits .f32 = 32 ∨ (Rect.block (s := S16x2048x100) S8x128x100.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S16x1.size a
  hwx0_6 : ∀ i : grid0.Coords, EltTy.bits .f32 = 32 ∨ (Rect.block (s := S16x1) S8x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S16x1.size a
  hwx0_7 : ∀ i : grid0.Coords, EltTy.bits .f32 = 32 ∨ (Rect.block (s := S16x1) S8x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x100.size a ≤ S16x100.size a
  hwx0_8 : ∀ i : grid0.Coords, EltTy.bits .f32 = 32 ∨ (Rect.block (s := S16x100) S8x100.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x100.size a ≤ S16x100.size a
  hwx0_9 : ∀ i : grid0.Coords, EltTy.bits .f32 = 32 ∨ (Rect.block (s := S16x100) S8x100.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1.size a ≤ S16x1.size a
  hwx0_10 : ∀ i : grid0.Coords, EltTy.bits .f32 = 32 ∨ (Rect.block (s := S16x1) S8x1.size (cc0_transform_10 i) (hinb0_10 i)).WholeWords (EltTy.packing .f32)

variable [Facts₀]

abbrev win0_0 : Pipeline.Window sig grid0 :=
  Pipeline.Window.ofSpec (Memref.whole main_arg2) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S8x128x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S8x128x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S8x128x100.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S8x128x100.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S8x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S8x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_2) S8x100.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_3) S8x100.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_4) S8x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S16x100 : Shape := ⟨2, ![16, 100]⟩
abbrev S16x2048x2048 : Shape := ⟨3, ![16, 2048, 2048]⟩
abbrev S16x2048x100 : Shape := ⟨3, ![16, 2048, 100]⟩
abbrev S_ : Shape := ⟨0, ![]⟩
abbrev S16 : Shape := ⟨1, ![16]⟩
abbrev S16x1 : Shape := ⟨2, ![16, 1]⟩
abbrev S16x2048 : Shape := ⟨2, ![16, 2048]⟩
abbrev S1 : Shape := ⟨1, ![1]⟩
abbrev S6 : Shape := ⟨1, ![6]⟩

abbrev nBuf : Space → Nat
  | .hbm => 142
  | .vmem => 0
  | .smem => 0
  | _ => 0

abbrev hbmTy0_0 (i : Nat) : BufTy := match i % 128 with
  | 0 => ⟨S16x100, .f32⟩
  | 1 => ⟨S16x100, .f32⟩
  | 2 => ⟨S16x2048x2048, .f32⟩
  | 3 => ⟨S16x2048x2048, .f32⟩
  | 4 => ⟨S16x100, .f32⟩
  | 5 => ⟨S16x2048x100, .f32⟩
  | 6 => ⟨S16x2048x100, .f32⟩
  | 7 => ⟨S16x2048x100, .f32⟩
  | 8 => ⟨S16x2048x100, .f32⟩
  | 9 => ⟨S_, .f32⟩
  | 10 => ⟨S16, .f32⟩
  | 11 => ⟨S16x1, .f32⟩
  | 12 => ⟨S16x100, .f32⟩
  | 13 => ⟨S16x100, .f32⟩
  | 14 => ⟨S_, .f32⟩
  | 15 => ⟨S_, .f32⟩
  | 16 => ⟨S_, .f32⟩
  | 17 => ⟨S16x100, .f32⟩
  | 18 => ⟨S16x100, .f32⟩
  | 19 => ⟨S_, .f32⟩
  | 20 => ⟨S16x100, .f32⟩
  | 21 => ⟨S16x100, .f32⟩
  | 22 => ⟨S16x100, .f32⟩
  | 23 => ⟨S16x100, .f32⟩
  | 24 => ⟨S_, .f32⟩
  | 25 => ⟨S16x100, .f32⟩
  | 26 => ⟨S16x100, .f32⟩
  | 27 => ⟨S16x100, .f32⟩
  | 28 => ⟨S16x100, .f32⟩
  | 29 => ⟨S16x100, .f32⟩
  | 30 => ⟨S16x100, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S16x100, .f32⟩
  | 38 => ⟨S_, .f32⟩
  | 39 => ⟨S_, .f32⟩
  | 40 => ⟨S_, .f32⟩
  | 41 => ⟨S16x100, .f32⟩
  | 42 => ⟨S16x100, .f32⟩
  | 43 => ⟨S_, .f32⟩
  | 44 => ⟨S16x100, .f32⟩
  | 45 => ⟨S16x100, .f32⟩
  | 46 => ⟨S16x100, .f32⟩
  | 47 => ⟨S16x100, .f32⟩
  | 48 => ⟨S_, .f32⟩
  | 49 => ⟨S16x100, .f32⟩
  | 50 => ⟨S16x100, .f32⟩
  | 51 => ⟨S16x100, .f32⟩
  | 52 => ⟨S16x100, .f32⟩
  | 53 => ⟨S16x100, .f32⟩
  | 54 => ⟨S16x100, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S16x2048, .f32⟩
  | 62 => ⟨S_, .f32⟩
  | 63 => ⟨S16x2048, .f32⟩
  | 64 => ⟨S16x2048, .f32⟩
  | 65 => ⟨S16x2048, .f32⟩
  | 66 => ⟨S_, .f32⟩
  | 67 => ⟨S16, .f32⟩
  | 68 => ⟨S16, .f32⟩
  | 69 => ⟨S_, .f32⟩
  | 70 => ⟨S16x2048, .f32⟩
  | 71 => ⟨S_, .f32⟩
  | 72 => ⟨S16x2048, .f32⟩
  | 73 => ⟨S16x2048, .f32⟩
  | 74 => ⟨S16x2048, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S16, .f32⟩
  | 86 => ⟨S_, .f32⟩
  | 87 => ⟨S_, .f32⟩
  | 88 => ⟨S_, .f32⟩
  | 89 => ⟨S_, .f32⟩
  | 90 => ⟨S_, .f32⟩
  | 91 => ⟨S16x2048x100, .f32⟩
  | 92 => ⟨S16x2048x100, .i1⟩
  | 93 => ⟨S16x2048x100, .f32⟩
  | 94 => ⟨S16x2048x100, .f32⟩
  | 95 => ⟨S16x2048x100, .f32⟩
  | 96 => ⟨S_, .f32⟩
  | 97 => ⟨S16x100, .f32⟩
  | 98 => ⟨S16x100, .f32⟩
  | 99 => ⟨S_, .f32⟩
  | 100 => ⟨S16x100, .f32⟩
  | 101 => ⟨S_, .f32⟩
  | 102 => ⟨S16x100, .f32⟩
  | 103 => ⟨S16x100, .i1⟩
  | 104 => ⟨S16x100, .i32⟩
  | 105 => ⟨S_, .i32⟩
  | 106 => ⟨S_, .i32⟩
  | 107 => ⟨S_, .i32⟩
  | 108 => ⟨S_, .i32⟩
  | 109 => ⟨S_, .f32⟩
  | 110 => ⟨S_, .f32⟩
  | 111 => ⟨S_, .f32⟩
  | 112 => ⟨S16x100, .f32⟩
  | 113 => ⟨S16x100, .f32⟩
  | 114 => ⟨S_, .f32⟩
  | 115 => ⟨S_, .f32⟩
  | 116 => ⟨S_, .f32⟩
  | 117 => ⟨S16x2048x100, .f32⟩
  | 118 => ⟨S16x2048x100, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x100, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S1, .f32⟩
  | 11 => ⟨S1, .f32⟩
  | 12 => ⟨S1, .f32⟩
  | 13 => ⟨S6, .f32⟩
  | _ => ⟨S16x100, .f32⟩

abbrev hbmTy (i : Nat) : BufTy := match i / 128 with
  | 0 => hbmTy0_0 i
  | 1 => hbmTy0_1 i
  | _ => ⟨S16x100, .f32⟩

abbrev bufTy : (tb : Table) → Fin (tcTables nBuf tb) → BufTy
  | .hbm, ⟨i, _⟩ => hbmTy i
  | _, _ => ⟨S16x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_cst_6 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_8 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_9 : Ref sig .tc := ⟨.hbm, 55, rfl⟩
abbrev main_v26 : Ref sig .tc := ⟨.hbm, 56, rfl⟩
abbrev main_cst_10 : Ref sig .tc := ⟨.hbm, 57, rfl⟩
abbrev main_v27 : Ref sig .tc := ⟨.hbm, 58, rfl⟩
abbrev main_v28 : Ref sig .tc := ⟨.hbm, 59, rfl⟩
abbrev main_cst_11 : Ref sig .tc := ⟨.hbm, 60, rfl⟩
abbrev main_v29 : Ref sig .tc := ⟨.hbm, 61, rfl⟩
abbrev main_cst_12 : Ref sig .tc := ⟨.hbm, 62, rfl⟩
abbrev main_v30 : Ref sig .tc := ⟨.hbm, 63, rfl⟩
abbrev main_v31 : Ref sig .tc := ⟨.hbm, 64, rfl⟩
abbrev main_call2_v0 : Ref sig .tc := ⟨.hbm, 65, rfl⟩
abbrev main_call2_cst : Ref sig .tc := ⟨.hbm, 66, rfl⟩
abbrev main_call2_v1 : Ref sig .tc := ⟨.hbm, 67, rfl⟩
abbrev main_v32 : Ref sig .tc := ⟨.hbm, 68, rfl⟩
abbrev main_cst_13 : Ref sig .tc := ⟨.hbm, 69, rfl⟩
abbrev main_v33 : Ref sig .tc := ⟨.hbm, 70, rfl⟩
abbrev main_cst_14 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_call3_cst : Ref sig .tc := ⟨.hbm, 75, rfl⟩
abbrev main_call3_v1 : Ref sig .tc := ⟨.hbm, 76, rfl⟩
abbrev main_v36 : Ref sig .tc := ⟨.hbm, 77, rfl⟩
abbrev main_cst_15 : Ref sig .tc := ⟨.hbm, 78, rfl⟩
abbrev main_v37 : Ref sig .tc := ⟨.hbm, 79, rfl⟩
abbrev main_v38 : Ref sig .tc := ⟨.hbm, 80, rfl⟩
abbrev main_cst_16 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_17 : Ref sig .tc := ⟨.hbm, 86, rfl⟩
abbrev main_v43 : Ref sig .tc := ⟨.hbm, 87, rfl⟩
abbrev main_cst_18 : Ref sig .tc := ⟨.hbm, 88, rfl⟩
abbrev main_v44 : Ref sig .tc := ⟨.hbm, 89, rfl⟩
abbrev main_cst_19 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_call4_v0 : Ref sig .tc := ⟨.hbm, 95, rfl⟩
abbrev main_call4_cst : Ref sig .tc := ⟨.hbm, 96, rfl⟩
abbrev main_call4_v1 : Ref sig .tc := ⟨.hbm, 97, rfl⟩
abbrev main_v49 : Ref sig .tc := ⟨.hbm, 98, rfl⟩
abbrev main_cst_20 : Ref sig .tc := ⟨.hbm, 99, rfl⟩
abbrev main_v50 : Ref sig .tc := ⟨.hbm, 100, rfl⟩
abbrev main_cst_21 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c : Ref sig .tc := ⟨.hbm, 105, rfl⟩
abbrev main_v54 : Ref sig .tc := ⟨.hbm, 106, rfl⟩
abbrev main_c_22 : Ref sig .tc := ⟨.hbm, 107, rfl⟩
abbrev main_v55 : Ref sig .tc := ⟨.hbm, 108, rfl⟩
abbrev main_v56 : Ref sig .tc := ⟨.hbm, 109, rfl⟩
abbrev main_cst_23 : Ref sig .tc := ⟨.hbm, 110, rfl⟩
abbrev main_call5_v0 : Ref sig .tc := ⟨.hbm, 111, rfl⟩
abbrev main_call5_v1 : Ref sig .tc := ⟨.hbm, 112, rfl⟩
abbrev main_v57 : Ref sig .tc := ⟨.hbm, 113, rfl⟩
abbrev main_cst_24 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_25 : Ref sig .tc := ⟨.hbm, 119, rfl⟩
abbrev main_v62 : Ref sig .tc := ⟨.hbm, 120, rfl⟩
abbrev main_cst_26 : Ref sig .tc := ⟨.hbm, 121, rfl⟩
abbrev main_v63 : Ref sig .tc := ⟨.hbm, 122, rfl⟩
abbrev main_cst_27 : Ref sig .tc := ⟨.hbm, 123, rfl⟩
abbrev main_v64 : Ref sig .tc := ⟨.hbm, 124, rfl⟩
abbrev main_v65 : Ref sig .tc := ⟨.hbm, 125, rfl⟩
abbrev main_cst_28 : Ref sig .tc := ⟨.hbm, 126, rfl⟩
abbrev main_v66 : Ref sig .tc := ⟨.hbm, 127, rfl⟩
abbrev main_v67 : Ref sig .tc := ⟨.hbm, 128, rfl⟩
abbrev main_cst_29 : Ref sig .tc := ⟨.hbm, 129, rfl⟩
abbrev main_v68 : Ref sig .tc := ⟨.hbm, 130, rfl⟩
abbrev main_v69 : Ref sig .tc := ⟨.hbm, 131, rfl⟩
abbrev main_cst_30 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩

abbrev nD : Nat := 1
abbrev τ : Topo := Topo.v7x

variable {F : FTy → Type} [FloatOps F]

class Facts₀ : Prop where
  reducesTo_S16x100_S16_d1 : S16x100.ReducesTo [1] S16
  h_S_ : 0 < S_.numel
  bcast_S16_S16x1_0 : S16.BroadcastsInDim S16x1 (![0] : Fin 1 → Fin S16x1.rank)
  bcast_S16x1_S16x100_0_1 : S16x1.BroadcastsInDim S16x100 (![0, 1] : Fin 2 → Fin S16x100.rank)
  bcast_S_S16x100 : S_.BroadcastsInDim S16x100 (![] : Fin 0 → Fin S16x100.rank)
  reducesTo_S16x100_S_d0_1 : S16x100.ReducesTo [0, 1] S_
  reducesTo_S16x2048x2048_S16x2048_d1 : S16x2048x2048.ReducesTo [1] S16x2048
  bcast_S_S16x2048 : S_.BroadcastsInDim S16x2048 (![] : Fin 0 → Fin S16x2048.rank)
  reducesTo_S16x2048_S16_d1 : S16x2048.ReducesTo [1] S16
  bcast_S_S16 : S_.BroadcastsInDim S16 (![] : Fin 0 → Fin S16.rank)
  reducesTo_S16_S_d0 : S16.ReducesTo [0] S_
  bcast_S_S16x2048x100 : S_.BroadcastsInDim S16x2048x100 (![] : Fin 0 → Fin S16x2048x100.rank)
  reducesTo_S16x2048x100_S16x100_d1 : S16x2048x100.ReducesTo [1] S16x100
  natLt_1_32 : 1 < 32
  reducesTo_S16x2048x100_S_d0_1_2 : S16x2048x100.ReducesTo [0, 1, 2] S_
  bcast_S_S1 : S_.BroadcastsInDim S1 (![] : Fin 0 → Fin S1.rank)
  concatenates_S1_S1_S1_S1_S1_S1_S6_d0 : Shape.Concatenates [S1, S1, S1, S1, S1, S1] S6 0

variable [Facts₀]

class Facts : Prop extends Facts₀ where

variable [Facts]
-- ==== Proof.KbBase.lean ====
/-
  The launch of the fused reduction kernel, shared by every case of its body.

  The grid has 2 × 16 points, point t = 16·i + j working on batch tile i and time tile j. Six input windows
  (two feature stacks and four class stacks) are fetched at every point; five output windows (two norm columns,
  a norm block, a mask block, a partial-sum column) are stored only at the last time tile of a batch tile
  (j = 15) and written back there; five scratch accumulators are reset at the first time tile (j = 0) and carried
  from point to point. This module states what the host program does before and after the region, the two
  conditions of the body in closed form over the grid, where the output windows are idle, and the names of the
  staging and scratch buffers.
-/
import proofs.«140918_j52716428591263_2_alg».proof.Proof.Gen.Kernel.Launch
import proofs.«140918_j52716428591263_2_alg».proof.Proof.Gen.Kernel.Skeleton
import proofs.«140918_j52716428591263_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- What every buffer of core `c` holds when the region is entered: the launch memory after the host operations
    that come before it (the two cross-entropy terms). -/
abbrev V0 (c : Dev nD) : Valuation τ sig (Elt F) :=
  StableHlo.after (List.flatten [hostOps0, hostOps0_1, hostOps0_2, hostOps0_3, hostOps0_4]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem pre_fresh : ([hostOps0, hostOps0_1, hostOps0_2, hostOps0_3, hostOps0_4] : List (List (HloOp τ sig (Elt F)))).Forall
    fun ops => ops.Forall fun op => op.fresh = ∅ :=
  ⟨hostOps0_fresh, hostOps0_1_fresh, hostOps0_2_fresh, hostOps0_3_fresh, hostOps0_4_fresh⟩

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- The host program is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4] [hostOps1, hostOps1_1, hostOps1_2]
    ⟨hostOps0_sub, hostOps0_1_sub, hostOps0_2_sub, hostOps0_3_sub, hostOps0_4_sub⟩ pre_fresh main_chain

/-- The operations after the region touch only unscoped buffers. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 8000000 in
theorem hostOps1_keeps : (hostOps1 : List (HloOp τ sig (Elt F))).Forall fun op => ∀ w, Proc.devRef .tc (Pipeline.arrRef spec0 w) ∉ op.writes := by
  refine ⟨?_, ?_, ?_, ?_, ?_, ?_, ?_, ?_, ?_, ?_, ?_, ?_, ?_, ?_, ?_, ?_, ?_, ?_, ?_, ?_, ?_, ?_, ?_, ?_, ?_⟩ <;> intro w <;> fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
set_option maxHeartbeats 8000000 in
theorem hostOps1_1_keeps : (hostOps1_1 : List (HloOp τ sig (Elt F))).Forall fun op => ∀ w, Proc.devRef .tc (Pipeline.arrRef spec0 w) ∉ op.writes := by
  refine ⟨?_, ?_, ?_⟩ <;> intro w <;> fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
set_option maxHeartbeats 8000000 in
theorem hostOps1_2_keeps : (hostOps1_2 : List (HloOp τ sig (Elt F))).Forall fun op => ∀ w, Proc.devRef .tc (Pipeline.arrRef spec0 w) ∉ op.writes := by
  refine ⟨?_, ?_, ?_, ?_, ?_, ?_, ?_, ?_, ?_, ?_, ?_, ?_, ?_, ?_, ?_, ?_, ?_, ?_, ?_, ?_, ?_, ?_, ?_, ?_, ?_, ?_⟩ <;> intro w <;> fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
/-- Each operation after the region writes only its own result buffer, which is none of the eleven arrays of the region. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The first condition of the body: the time tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second condition: the time tile is the last one. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output window 6 is stored, and written back, exactly at the last time tile. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Output window 7 is stored, and written back, exactly at the last time tile. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Output window 8 is stored, and written back, exactly at the last time tile. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Output window 9 is stored, and written back, exactly at the last time tile. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Output window 10 is stored, and written back, exactly at the last time tile. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## The staging and scratch buffers -/

abbrev ms0_0 (t : Fin cfg0.N) : Memref sig .tc .vmem S8x128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128x100 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x100 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x100 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x100 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1 .f32 := win0_10.stage (cfg0.slots t 10)
abbrev hs0_10 (t : Fin cfg0.N) : (ms0_10 t).IsWhole := hstage0_10 ((cfg0.slots t 10).cast nbuf0_10)
abbrev scM0_0 : Memref sig .tc .vmem S8x2048 .f32 := Memref.whole cc0_scratch0
abbrev scM0_1 : Memref sig .tc .vmem S8x2048 .f32 := Memref.whole cc0_scratch1
abbrev scM0_2 : Memref sig .tc .vmem S8x100 .f32 := Memref.whole cc0_scratch2
abbrev scM0_3 : Memref sig .tc .vmem S8x100 .f32 := Memref.whole cc0_scratch3
abbrev scM0_4 : Memref sig .tc .vmem S8x1 .f32 := Memref.whole cc0_scratch4

/-- The region's invariant hands the body its five scratch buffers, each at some contents, and the core's random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KbRunA.lean ====
/-
  The kernel body run at the first time tile of a batch tile (the accumulators are reset, then added to; nothing is stored into the outputs).

  On whole staging buffers holding the six input blocks, the five output buffers at contents that are handed back untouched
  and the five accumulators at any contents, the body runs to its end without a fault, leaves the
  inputs as they were and each buffer it stored into with a list of stored pieces written over it. The lists are
  found by running the body symbolically; what they hold is read off them later.
-/
import proofs.«140918_j52716428591263_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) :
    Σ' (LS0 : List (View.Piece (Elt F) S8x2048 .f32)) (LS1 : List (View.Piece (Elt F) S8x2048 .f32)) (LS2 : List (View.Piece (Elt F) S8x100 .f32)) (LS3 : List (View.Piece (Elt F) S8x100 .f32)), { LS4 : List (View.Piece (Elt F) S8x1 .f32) //
      ∀ (xi6 : Vec F S8x1 .f32) (xi7 : Vec F S8x1 .f32) (xi8 : Vec F S8x100 .f32) (xi9 : Vec F S8x100 .f32) (xi10 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun xi6 xi7 xi8 xi9 xi10 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.KbRunB.lean ====
/-
  The kernel body run at a middle time tile (the accumulators are added to; nothing is stored into the outputs).

  On whole staging buffers holding the six input blocks, the five output buffers at contents that are handed back untouched
  and the five accumulators at the contents the point before left, the body runs to its end without a fault, leaves the
  inputs as they were and each buffer it stored into with a list of stored pieces written over it. The lists are
  found by running the body symbolically; what they hold is read off them later.
-/
import proofs.«140918_j52716428591263_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    Σ' (LS0 : List (View.Piece (Elt F) S8x2048 .f32)) (LS1 : List (View.Piece (Elt F) S8x2048 .f32)) (LS2 : List (View.Piece (Elt F) S8x100 .f32)) (LS3 : List (View.Piece (Elt F) S8x100 .f32)), { LS4 : List (View.Piece (Elt F) S8x1 .f32) //
      ∀ (xi6 : Vec F S8x1 .f32) (xi7 : Vec F S8x1 .f32) (xi8 : Vec F S8x100 .f32) (xi9 : Vec F S8x100 .f32) (xi10 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun xi6 xi7 xi8 xi9 xi10 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1; obtain rfl := harg15.eq_unread hfs2; obtain rfl := harg16.eq_unread hfs3; obtain rfl := harg17.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.KbRunC.lean ====
/-
  The kernel body run at the last time tile of a batch tile (the accumulators are added to, then turned into the five outputs).

  On whole staging buffers holding the six input blocks, the five output buffers at any contents
  and the five accumulators at the contents the point before left, the body runs to its end without a fault, leaves the
  inputs as they were and each buffer it stored into with a list of stored pieces written over it. The lists are
  found by running the body symbolically; what they hold is read off them later.
-/
import proofs.«140918_j52716428591263_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    Σ' (L6 : List (View.Piece (Elt F) S8x1 .f32)) (L7 : List (View.Piece (Elt F) S8x1 .f32)) (L8 : List (View.Piece (Elt F) S8x100 .f32)) (L9 : List (View.Piece (Elt F) S8x100 .f32)) (L10 : List (View.Piece (Elt F) S8x1 .f32)) (LS0 : List (View.Piece (Elt F) S8x2048 .f32)) (LS1 : List (View.Piece (Elt F) S8x2048 .f32)) (LS2 : List (View.Piece (Elt F) S8x100 .f32)) (LS3 : List (View.Piece (Elt F) S8x100 .f32)), { LS4 : List (View.Piece (Elt F) S8x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs0; obtain rfl := harg14.eq_unread hfs1; obtain rfl := harg15.eq_unread hfs2; obtain rfl := harg16.eq_unread hfs3; obtain rfl := harg17.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.KbData.lean ====
/-
  The fused reduction kernel's frame: definitions. What each case of the body leaves in the buffers it stores into (read back
  from the stored pieces, which cover each buffer), the contents of the five accumulators and the five output buffers
  after each grid point by recursion on the point, the region's invariant carrying the accumulators from point to
  point, the proof data, and the body's pre- and postcondition at a point.
-/
import proofs.«140918_j52716428591263_2_alg».proof.Proof.KbRunA
import proofs.«140918_j52716428591263_2_alg».proof.Proof.KbRunB
import proofs.«140918_j52716428591263_2_alg».proof.Proof.KbRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The views through which contents are stated -/

abbrev VS0_0 : View sig .tc .vmem S8x2048 .f32 := scM0_0.view
abbrev VS0_1 : View sig .tc .vmem S8x2048 .f32 := scM0_1.view
abbrev VS0_2 : View sig .tc .vmem S8x100 .f32 := scM0_2.view
abbrev VS0_3 : View sig .tc .vmem S8x100 .f32 := scM0_3.view
abbrev VS0_4 : View sig .tc .vmem S8x1 .f32 := scM0_4.view
abbrev VO0_6 : View sig .tc .vmem S8x1 .f32 := (Memref.whole cc0_stg6_0 : Memref sig .tc .vmem S8x1 .f32).view
abbrev VO0_7 : View sig .tc .vmem S8x1 .f32 := (Memref.whole cc0_stg7_0 : Memref sig .tc .vmem S8x1 .f32).view
abbrev VO0_8 : View sig .tc .vmem S8x100 .f32 := (Memref.whole cc0_stg8_0 : Memref sig .tc .vmem S8x100 .f32).view
abbrev VO0_9 : View sig .tc .vmem S8x100 .f32 := (Memref.whole cc0_stg9_0 : Memref sig .tc .vmem S8x100 .f32).view
abbrev VO0_10 : View sig .tc .vmem S8x1 .f32 := (Memref.whole cc0_stg10_0 : Memref sig .tc .vmem S8x1 .f32).view

/-! ## What each case leaves: the stored pieces cover each buffer, and are read back -/

theorem scover0_A_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1 S8x2048.size (by sl_kernel_rfl) y

/-- What case A leaves in accumulator 0. -/
def sout0_A_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1)

theorem scover0_A_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1 S8x2048.size (by sl_kernel_rfl) y

/-- What case A leaves in accumulator 1. -/
def sout0_A_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1)

theorem scover0_A_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x100.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1 S8x100.size (by sl_kernel_rfl) y

/-- What case A leaves in accumulator 2. -/
def sout0_A_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x100 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1)

theorem scover0_A_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x100.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1 S8x100.size (by sl_kernel_rfl) y

/-- What case A leaves in accumulator 3. -/
def sout0_A_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x100 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1)

theorem scover0_A_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1 S8x1.size (by sl_kernel_rfl) y

/-- What case A leaves in accumulator 4. -/
def sout0_A_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1)

theorem scover0_B_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1 S8x2048.size (by sl_kernel_rfl) y

/-- What case B leaves in accumulator 0. -/
def sout0_B_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1)

theorem scover0_B_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1 S8x2048.size (by sl_kernel_rfl) y

/-- What case B leaves in accumulator 1. -/
def sout0_B_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1)

theorem scover0_B_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1 S8x100.size (by sl_kernel_rfl) y

/-- What case B leaves in accumulator 2. -/
def sout0_B_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1)

theorem scover0_B_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1 S8x100.size (by sl_kernel_rfl) y

/-- What case B leaves in accumulator 3. -/
def sout0_B_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1)

theorem scover0_B_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1 S8x1.size (by sl_kernel_rfl) y

/-- What case B leaves in accumulator 4. -/
def sout0_B_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1)

theorem scover0_C_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.1 S8x2048.size (by sl_kernel_rfl) y

/-- What case C leaves in accumulator 0. -/
def sout0_C_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.1)

theorem scover0_C_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.1 S8x2048.size (by sl_kernel_rfl) y

/-- What case C leaves in accumulator 1. -/
def sout0_C_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.1)

theorem scover0_C_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.1 S8x100.size (by sl_kernel_rfl) y

/-- What case C leaves in accumulator 2. -/
def sout0_C_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.1)

theorem scover0_C_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.1 S8x100.size (by sl_kernel_rfl) y

/-- What case C leaves in accumulator 3. -/
def sout0_C_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.1)

theorem scover0_C_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.2.1 S8x1.size (by sl_kernel_rfl) y

/-- What case C leaves in accumulator 4. -/
def sout0_C_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.2.1)

theorem cover0_C_6 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1 S8x1.size (by sl_kernel_rfl) y

/-- What the last time tile leaves in output buffer 6. -/
def out0_C_6 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1)

theorem cover0_C_7 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1 S8x1.size (by sl_kernel_rfl) y

/-- What the last time tile leaves in output buffer 7. -/
def out0_C_7 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1)

theorem cover0_C_8 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1 S8x100.size (by sl_kernel_rfl) y

/-- What the last time tile leaves in output buffer 8. -/
def out0_C_8 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1)

theorem cover0_C_9 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1 S8x100.size (by sl_kernel_rfl) y

/-- What the last time tile leaves in output buffer 9. -/
def out0_C_9 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1)

theorem cover0_C_10 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1 S8x1.size (by sl_kernel_rfl) y

/-- What the last time tile leaves in output buffer 10. -/
def out0_C_10 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1)

/-! ## The contents after each grid point -/

/-- The five output buffers and the five accumulators. -/
structure St (F : FTy → Type) where
  o6 : Vec F S8x1 .f32
  o7 : Vec F S8x1 .f32
  o8 : Vec F S8x100 .f32
  o9 : Vec F S8x100 .f32
  o10 : Vec F S8x1 .f32
  s0 : Vec F S8x2048 .f32
  s1 : Vec F S8x2048 .f32
  s2 : Vec F S8x100 .f32
  s3 : Vec F S8x100 .f32
  s4 : Vec F S8x1 .f32

/-- The contents after the body at point `n`, by recursion on the point: at a first time tile the accumulators start
    afresh; otherwise they continue from the point before; at a last time tile the outputs are stored (elsewhere the output
    buffers are not touched, and nothing consults them). -/
def outsAt0 (c : Dev nD) : (n : ℕ) → n < cfg0.N → St F
  | 0, hn => { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s1 := sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s2 := sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s3 := sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s4 := sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) }
  | n + 1, hn =>
    if h0 : (n + 1) % 16 = 0 then
      if h1 : (n + 1) % 16 = 15 then
        False.elim (by omega)
      else
        { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s1 := sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s2 := sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s3 := sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s4 := sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) }
    else
      if h1 : (n + 1) % 16 = 15 then
        { o6 := out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o7 := out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o8 := out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o9 := out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o10 := out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s0 := sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s1 := sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s2 := sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s3 := sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s4 := sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 }
      else
        { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s1 := sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s2 := sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s3 := sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s4 := sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 }

theorem outsAt0_A (c : Dev nD) (t : Fin cfg0.N) (h0 : t.val % 16 = 0) (h1 : ¬t.val % 16 = 15) :
    outsAt0 m c t.val t.isLt = { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) } := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = { o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: the scratch buffers at anything. Afterwards: each accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.Kernel.Hand

end
-- ==== Proof.KbBodyA.lean ====
/-
  The body obligation at the first time tile of a batch tile: the accumulators are reset and then added to; the output
  buffers are handed back untouched. At the very first grid point the scratch buffers hold anything; at the first
  tile of the second batch tile they hold what the point before left, which is forgotten.
-/
import proofs.«140918_j52716428591263_2_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
theorem sound_body_A0 (c : Dev nD) (t : Fin cfg0.N) (h0 : t.val % 16 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have h1 : ¬t.val % 16 = 15 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [outsAt0_A m c t h0 h1]
  unfold sout0_A_0 sout0_A_1 sout0_A_2 sout0_A_3 sout0_A_4; (try dsimp only)
  rw [PhiS_castSucc m c t, PhiS_zero m c _ _ hz, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_A_1 c _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_A_2 c _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_A_4 c _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

set_option maxHeartbeats 16000000 in
theorem sound_body_A1 (c : Dev nD) (t : Fin cfg0.N) (h0 : t.val % 16 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have h1 : ¬t.val % 16 = 15 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [outsAt0_A m c t h0 h1]
  unfold sout0_A_0 sout0_A_1 sout0_A_2 sout0_A_3 sout0_A_4; (try dsimp only)
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_A_1 c _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_A_2 c _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_A_4 c _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

end Cert.Kernel.Hand

end
-- ==== Proof.KbBodyB.lean ====
/-
  The body obligation at a middle time tile: the accumulators continue from the point before; the output buffers are
  handed back untouched.
-/
import proofs.«140918_j52716428591263_2_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have hz : t.val ≠ 0 := by intro h; rw [h] at h0; exact h0 (Nat.zero_mod _)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [outsAt0_B m c t h0 h1]
  unfold sout0_B_0 sout0_B_1 sout0_B_2 sout0_B_3 sout0_B_4; (try dsimp only)
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

end Cert.Kernel.Hand

end
-- ==== Proof.KbBodyC.lean ====
/-
  The body obligation at the last time tile of a batch tile: the accumulators continue from the point before and the five
  outputs are stored.
-/
import proofs.«140918_j52716428591263_2_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have hz : t.val ≠ 0 := by intro h; rw [h] at h0; exact h0 (Nat.zero_mod _)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t ((hcond0_1 t).mpr h1)], after0_6]
  rw [show (dats m 0 c).leavesExact 7 t = owns (c : Thread nD τ) (ms0_7 t) fullShare ((dats m 0 c).after 7 t) from by
    unfold Dat.leavesExact; rw [liveAt0_7 t ((hcond0_1 t).mpr h1)], after0_7]
  rw [show (dats m 0 c).leavesExact 8 t = owns (c : Thread nD τ) (ms0_8 t) fullShare ((dats m 0 c).after 8 t) from by
    unfold Dat.leavesExact; rw [liveAt0_8 t ((hcond0_1 t).mpr h1)], after0_8]
  rw [show (dats m 0 c).leavesExact 9 t = owns (c : Thread nD τ) (ms0_9 t) fullShare ((dats m 0 c).after 9 t) from by
    unfold Dat.leavesExact; rw [liveAt0_9 t ((hcond0_1 t).mpr h1)], after0_9]
  rw [show (dats m 0 c).leavesExact 10 t = owns (c : Thread nD τ) (ms0_10 t) fullShare ((dats m 0 c).after 10 t) from by
    unfold Dat.leavesExact; rw [liveAt0_10 t ((hcond0_1 t).mpr h1)], after0_10]
  rw [PhiS_castSucc m c t, PhiS_pos m c _ _ hz]
  rw [outsAt0_C m c t h0 h1]
  unfold sout0_C_0 sout0_C_1 sout0_C_2 sout0_C_3 sout0_C_4 out0_C_6 out0_C_7 out0_C_8 out0_C_9 out0_C_10; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%e7, H7⟩, ⟨%e8, H8⟩, ⟨%e9, H9⟩, ⟨%e10, H10⟩, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _)

end Cert.Kernel.Hand

end
-- ==== Proof.KbFrame.lean ====
/-
  The frame of the fused reduction kernel: with the proof data, the body meets its obligation at every grid point (by the
  case the point is in), the invariant is what the launch hands over and gives back, and so every weakly fair execution of
  the host program terminates, with every array of the region at what the proof data computes.
-/
import proofs.«140918_j52716428591263_2_alg».proof.Proof.KbBodyA
import proofs.«140918_j52716428591263_2_alg».proof.Proof.KbBodyB
import proofs.«140918_j52716428591263_2_alg».proof.Proof.KbBodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body at any point: the closed forms of the two conditions say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases hz : t.val = 0
    · exact sound_body_A0 m c t h0 hz
    · exact sound_body_A1 m c t h0 hz
  · by_cases h1 : t.val % 16 = 15
    · exact sound_body_C m c t h0 h1
    · exact sound_body_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitr [Hg]
  swap; · iexact Hg
  isplitl [HS0]; · iexists _; iexact HS0
  isplitl [HS1]; · iexists _; iexact HS1
  isplitl [HS2]; · iexists _; iexact HS2
  isplitl [HS3]; · iexists _; iexact HS3
  iexists _; iexact HS4

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 8000000 in
set_option backward.isDefEq.respectTransparency.types false in
/-- Every weakly fair execution of the host program terminates; every array of the region ends at what the proof data
    computes, and every other buffer at what the operations after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

end Cert.Kernel.Hand

end
-- ==== Proof.KbArgs.lean ====
/-
  The argument arrays around the region.

  No host operation before the region writes an argument array, so the region finds each as launched; and no
  host operation after the region writes one either, so the three arguments the region does not stage (the two
  score matrices and the label matrix) end as launched.
-/
import proofs.«140918_j52716428591263_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation after the region writes argument 0, which no window stages: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 8000000 in
/-- No host operation after the region writes argument 1, which no window stages: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 8000000 in
/-- No host operation after the region writes argument 4, which no window stages: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The frame claim's post from the frame run's -/

set_option maxHeartbeats 4000000 in
/-- From a run after which every array of the region holds what the proof data computes and every other buffer what the
    operations after the region leave, the nine argument arrays end unchanged: a staged input is found as the region
    found it, which is as launched; an unstaged one is touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      (((h c).2 main_arg4 (Pipeline.mem_restRefs_of main_arg4 (by decide) (by decide))).trans (W_main_arg4 m dats c)),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c))),
      ((h c).1 5).trans (((dats 0 c).arrAt_in 5 rfl _).trans ((hA c 5).trans (V_main_arg8 m c)))⟩) h

end Cert.Kernel.Hand

end
-- ==== Proof.KbClaim.lean ====
/-
  The frame of the kernel program: its host program runs to the end without a fault and leaves its nine argument
  arrays unchanged, for floats of any kind.
-/
import proofs.«140918_j52716428591263_2_alg».proof.Proof.KbFrame
import proofs.«140918_j52716428591263_2_alg».proof.Proof.KbArgs

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KiBase.lean ====
/-
  The launch of the fused reduction kernel, shared by every case of its body.

  The grid has 2 × 16 points, point t = 16·i + j working on batch tile i and time tile j. Six input windows
  (two feature stacks and four class stacks) are fetched at every point; five output windows (two norm columns,
  a norm block, a mask block, a partial-sum column) are stored only at the last time tile of a batch tile
  (j = 15) and written back there; five scratch accumulators are reset at the first time tile (j = 0) and carried
  from point to point. This module states what the host program does before and after the region, the two
  conditions of the body in closed form over the grid, where the output windows are idle, and the names of the
  staging and scratch buffers.
-/
import proofs.«140918_j52716428591263_2_alg».proof.Proof.Gen.KernelIdeal.Launch
import proofs.«140918_j52716428591263_2_alg».proof.Proof.Gen.KernelIdeal.Skeleton
import proofs.«140918_j52716428591263_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- What every buffer of core `c` holds when the region is entered: the launch memory after the host operations
    that come before it (the two cross-entropy terms). -/
abbrev V0 (c : Dev nD) : Valuation τ sig (Elt F) :=
  StableHlo.after (List.flatten [hostOps0, hostOps0_1, hostOps0_2, hostOps0_3, hostOps0_4]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem pre_fresh : ([hostOps0, hostOps0_1, hostOps0_2, hostOps0_3, hostOps0_4] : List (List (HloOp τ sig (Elt F)))).Forall
    fun ops => ops.Forall fun op => op.fresh = ∅ :=
  ⟨hostOps0_fresh, hostOps0_1_fresh, hostOps0_2_fresh, hostOps0_3_fresh, hostOps0_4_fresh⟩

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- The host program is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4] [hostOps1, hostOps1_1, hostOps1_2]
    ⟨hostOps0_sub, hostOps0_1_sub, hostOps0_2_sub, hostOps0_3_sub, hostOps0_4_sub⟩ pre_fresh main_chain

/-- The operations after the region touch only unscoped buffers. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 8000000 in
theorem hostOps1_keeps : (hostOps1 : List (HloOp τ sig (Elt F))).Forall fun op => ∀ w, Proc.devRef .tc (Pipeline.arrRef spec0 w) ∉ op.writes := by
  refine ⟨?_, ?_, ?_, ?_, ?_, ?_, ?_, ?_, ?_, ?_, ?_, ?_, ?_, ?_, ?_, ?_, ?_, ?_, ?_, ?_, ?_, ?_, ?_, ?_, ?_⟩ <;> intro w <;> fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
set_option maxHeartbeats 8000000 in
theorem hostOps1_1_keeps : (hostOps1_1 : List (HloOp τ sig (Elt F))).Forall fun op => ∀ w, Proc.devRef .tc (Pipeline.arrRef spec0 w) ∉ op.writes := by
  refine ⟨?_, ?_, ?_⟩ <;> intro w <;> fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
set_option maxHeartbeats 8000000 in
theorem hostOps1_2_keeps : (hostOps1_2 : List (HloOp τ sig (Elt F))).Forall fun op => ∀ w, Proc.devRef .tc (Pipeline.arrRef spec0 w) ∉ op.writes := by
  refine ⟨?_, ?_, ?_, ?_, ?_, ?_, ?_, ?_, ?_, ?_, ?_, ?_, ?_, ?_, ?_, ?_, ?_, ?_, ?_, ?_, ?_, ?_, ?_, ?_, ?_, ?_⟩ <;> intro w <;> fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
/-- Each operation after the region writes only its own result buffer, which is none of the eleven arrays of the region. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The first condition of the body: the time tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second condition: the time tile is the last one. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output window 6 is stored, and written back, exactly at the last time tile. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Output window 7 is stored, and written back, exactly at the last time tile. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Output window 8 is stored, and written back, exactly at the last time tile. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Output window 9 is stored, and written back, exactly at the last time tile. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Output window 10 is stored, and written back, exactly at the last time tile. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## The staging and scratch buffers -/

abbrev ms0_0 (t : Fin cfg0.N) : Memref sig .tc .vmem S8x128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128x100 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x100 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x100 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x100 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1 .f32 := win0_10.stage (cfg0.slots t 10)
abbrev hs0_10 (t : Fin cfg0.N) : (ms0_10 t).IsWhole := hstage0_10 ((cfg0.slots t 10).cast nbuf0_10)
abbrev scM0_0 : Memref sig .tc .vmem S8x2048 .f32 := Memref.whole cc0_scratch0
abbrev scM0_1 : Memref sig .tc .vmem S8x2048 .f32 := Memref.whole cc0_scratch1
abbrev scM0_2 : Memref sig .tc .vmem S8x100 .f32 := Memref.whole cc0_scratch2
abbrev scM0_3 : Memref sig .tc .vmem S8x100 .f32 := Memref.whole cc0_scratch3
abbrev scM0_4 : Memref sig .tc .vmem S8x1 .f32 := Memref.whole cc0_scratch4

/-- The region's invariant hands the body its five scratch buffers, each at some contents, and the core's random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KiRunA.lean ====
/-
  The kernel body run at the first time tile of a batch tile (the accumulators are reset, then added to; nothing is stored into the outputs).

  On whole staging buffers holding the six input blocks, the five output buffers at contents that are handed back untouched
  and the five accumulators at any contents, the body runs to its end without a fault, leaves the
  inputs as they were and each buffer it stored into with a list of stored pieces written over it. The lists are
  found by running the body symbolically; what they hold is read off them later.
-/
import proofs.«140918_j52716428591263_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) :
    Σ' (LS0 : List (View.Piece (Elt F) S8x2048 .f32)) (LS1 : List (View.Piece (Elt F) S8x2048 .f32)) (LS2 : List (View.Piece (Elt F) S8x100 .f32)) (LS3 : List (View.Piece (Elt F) S8x100 .f32)), { LS4 : List (View.Piece (Elt F) S8x1 .f32) //
      ∀ (xi6 : Vec F S8x1 .f32) (xi7 : Vec F S8x1 .f32) (xi8 : Vec F S8x100 .f32) (xi9 : Vec F S8x100 .f32) (xi10 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun xi6 xi7 xi8 xi9 xi10 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KiRunB.lean ====
/-
  The kernel body run at a middle time tile (the accumulators are added to; nothing is stored into the outputs).

  On whole staging buffers holding the six input blocks, the five output buffers at contents that are handed back untouched
  and the five accumulators at the contents the point before left, the body runs to its end without a fault, leaves the
  inputs as they were and each buffer it stored into with a list of stored pieces written over it. The lists are
  found by running the body symbolically; what they hold is read off them later.
-/
import proofs.«140918_j52716428591263_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    Σ' (LS0 : List (View.Piece (Elt F) S8x2048 .f32)) (LS1 : List (View.Piece (Elt F) S8x2048 .f32)) (LS2 : List (View.Piece (Elt F) S8x100 .f32)) (LS3 : List (View.Piece (Elt F) S8x100 .f32)), { LS4 : List (View.Piece (Elt F) S8x1 .f32) //
      ∀ (xi6 : Vec F S8x1 .f32) (xi7 : Vec F S8x1 .f32) (xi8 : Vec F S8x100 .f32) (xi9 : Vec F S8x100 .f32) (xi10 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun xi6 xi7 xi8 xi9 xi10 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1; obtain rfl := harg15.eq_unread hfs2; obtain rfl := harg16.eq_unread hfs3; obtain rfl := harg17.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KiRunC.lean ====
/-
  The kernel body run at the last time tile of a batch tile (the accumulators are added to, then turned into the five outputs).

  On whole staging buffers holding the six input blocks, the five output buffers at any contents
  and the five accumulators at the contents the point before left, the body runs to its end without a fault, leaves the
  inputs as they were and each buffer it stored into with a list of stored pieces written over it. The lists are
  found by running the body symbolically; what they hold is read off them later.
-/
import proofs.«140918_j52716428591263_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    Σ' (L6 : List (View.Piece (Elt F) S8x1 .f32)) (L7 : List (View.Piece (Elt F) S8x1 .f32)) (L8 : List (View.Piece (Elt F) S8x100 .f32)) (L9 : List (View.Piece (Elt F) S8x100 .f32)) (L10 : List (View.Piece (Elt F) S8x1 .f32)) (LS0 : List (View.Piece (Elt F) S8x2048 .f32)) (LS1 : List (View.Piece (Elt F) S8x2048 .f32)) (LS2 : List (View.Piece (Elt F) S8x100 .f32)) (LS3 : List (View.Piece (Elt F) S8x100 .f32)), { LS4 : List (View.Piece (Elt F) S8x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs0; obtain rfl := harg14.eq_unread hfs1; obtain rfl := harg15.eq_unread hfs2; obtain rfl := harg16.eq_unread hfs3; obtain rfl := harg17.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KiData.lean ====
/-
  The fused reduction kernel's frame: definitions. What each case of the body leaves in the buffers it stores into (read back
  from the stored pieces, which cover each buffer), the contents of the five accumulators and the five output buffers
  after each grid point by recursion on the point, the region's invariant carrying the accumulators from point to
  point, the proof data, and the body's pre- and postcondition at a point.
-/
import proofs.«140918_j52716428591263_2_alg».proof.Proof.KiRunA
import proofs.«140918_j52716428591263_2_alg».proof.Proof.KiRunB
import proofs.«140918_j52716428591263_2_alg».proof.Proof.KiRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The views through which contents are stated -/

abbrev VS0_0 : View sig .tc .vmem S8x2048 .f32 := scM0_0.view
abbrev VS0_1 : View sig .tc .vmem S8x2048 .f32 := scM0_1.view
abbrev VS0_2 : View sig .tc .vmem S8x100 .f32 := scM0_2.view
abbrev VS0_3 : View sig .tc .vmem S8x100 .f32 := scM0_3.view
abbrev VS0_4 : View sig .tc .vmem S8x1 .f32 := scM0_4.view
abbrev VO0_6 : View sig .tc .vmem S8x1 .f32 := (Memref.whole cc0_stg6_0 : Memref sig .tc .vmem S8x1 .f32).view
abbrev VO0_7 : View sig .tc .vmem S8x1 .f32 := (Memref.whole cc0_stg7_0 : Memref sig .tc .vmem S8x1 .f32).view
abbrev VO0_8 : View sig .tc .vmem S8x100 .f32 := (Memref.whole cc0_stg8_0 : Memref sig .tc .vmem S8x100 .f32).view
abbrev VO0_9 : View sig .tc .vmem S8x100 .f32 := (Memref.whole cc0_stg9_0 : Memref sig .tc .vmem S8x100 .f32).view
abbrev VO0_10 : View sig .tc .vmem S8x1 .f32 := (Memref.whole cc0_stg10_0 : Memref sig .tc .vmem S8x1 .f32).view

/-! ## What each case leaves: the stored pieces cover each buffer, and are read back -/

theorem scover0_A_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1 S8x2048.size (by sl_kernel_rfl) y

/-- What case A leaves in accumulator 0. -/
def sout0_A_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1)

theorem scover0_A_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1 S8x2048.size (by sl_kernel_rfl) y

/-- What case A leaves in accumulator 1. -/
def sout0_A_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1)

theorem scover0_A_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x100.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1 S8x100.size (by sl_kernel_rfl) y

/-- What case A leaves in accumulator 2. -/
def sout0_A_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x100 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1)

theorem scover0_A_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x100.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1 S8x100.size (by sl_kernel_rfl) y

/-- What case A leaves in accumulator 3. -/
def sout0_A_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x100 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1)

theorem scover0_A_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (y : S8x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1 S8x1.size (by sl_kernel_rfl) y

/-- What case A leaves in accumulator 4. -/
def sout0_A_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) : Vec F S8x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1)

theorem scover0_B_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1 S8x2048.size (by sl_kernel_rfl) y

/-- What case B leaves in accumulator 0. -/
def sout0_B_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1)

theorem scover0_B_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1 S8x2048.size (by sl_kernel_rfl) y

/-- What case B leaves in accumulator 1. -/
def sout0_B_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1)

theorem scover0_B_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1 S8x100.size (by sl_kernel_rfl) y

/-- What case B leaves in accumulator 2. -/
def sout0_B_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1)

theorem scover0_B_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1 S8x100.size (by sl_kernel_rfl) y

/-- What case B leaves in accumulator 3. -/
def sout0_B_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1)

theorem scover0_B_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1 S8x1.size (by sl_kernel_rfl) y

/-- What case B leaves in accumulator 4. -/
def sout0_B_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1)

theorem scover0_C_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.1 S8x2048.size (by sl_kernel_rfl) y

/-- What case C leaves in accumulator 0. -/
def sout0_C_0 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.1)

theorem scover0_C_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.1 S8x2048.size (by sl_kernel_rfl) y

/-- What case C leaves in accumulator 1. -/
def sout0_C_1 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.1)

theorem scover0_C_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.1 S8x100.size (by sl_kernel_rfl) y

/-- What case C leaves in accumulator 2. -/
def sout0_C_2 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.1)

theorem scover0_C_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.1 S8x100.size (by sl_kernel_rfl) y

/-- What case C leaves in accumulator 3. -/
def sout0_C_3 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.1)

theorem scover0_C_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.2.1 S8x1.size (by sl_kernel_rfl) y

/-- What case C leaves in accumulator 4. -/
def sout0_C_4 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.2.2.2.2.2.1)

theorem cover0_C_6 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1 S8x1.size (by sl_kernel_rfl) y

/-- What the last time tile leaves in output buffer 6. -/
def out0_C_6 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).1)

theorem cover0_C_7 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1 S8x1.size (by sl_kernel_rfl) y

/-- What the last time tile leaves in output buffer 7. -/
def out0_C_7 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.1)

theorem cover0_C_8 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1 S8x100.size (by sl_kernel_rfl) y

/-- What the last time tile leaves in output buffer 8. -/
def out0_C_8 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.1)

theorem cover0_C_9 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x100.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1 S8x100.size (by sl_kernel_rfl) y

/-- What the last time tile leaves in output buffer 9. -/
def out0_C_9 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x100 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.1)

theorem cover0_C_10 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) (y : S8x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1 S8x1.size (by sl_kernel_rfl) y

/-- What the last time tile leaves in output buffer 10. -/
def out0_C_10 (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i)
    (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) : Vec F S8x1 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4).2.2.2.2.1)

/-! ## The contents after each grid point -/

/-- The five output buffers and the five accumulators. -/
structure St (F : FTy → Type) where
  o6 : Vec F S8x1 .f32
  o7 : Vec F S8x1 .f32
  o8 : Vec F S8x100 .f32
  o9 : Vec F S8x100 .f32
  o10 : Vec F S8x1 .f32
  s0 : Vec F S8x2048 .f32
  s1 : Vec F S8x2048 .f32
  s2 : Vec F S8x100 .f32
  s3 : Vec F S8x100 .f32
  s4 : Vec F S8x1 .f32

/-- The contents after the body at point `n`, by recursion on the point: at a first time tile the accumulators start
    afresh; otherwise they continue from the point before; at a last time tile the outputs are stored (elsewhere the output
    buffers are not touched, and nothing consults them). -/
def outsAt0 (c : Dev nD) : (n : ℕ) → n < cfg0.N → St F
  | 0, hn => { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s1 := sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s2 := sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s3 := sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), s4 := sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) }
  | n + 1, hn =>
    if h0 : (n + 1) % 16 = 0 then
      if h1 : (n + 1) % 16 = 15 then
        False.elim (by omega)
      else
        { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s1 := sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s2 := sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s3 := sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), s4 := sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) }
    else
      if h1 : (n + 1) % 16 = 15 then
        { o6 := out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o7 := out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o8 := out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o9 := out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, o10 := out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s0 := sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s1 := sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s2 := sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s3 := sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s4 := sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 }
      else
        { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s1 := sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s2 := sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s3 := sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4, s4 := sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 }

theorem outsAt0_A (c : Dev nD) (t : Fin cfg0.N) (h0 : t.val % 16 = 0) (h1 : ¬t.val % 16 = 15) :
    outsAt0 m c t.val t.isLt = { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t), s4 := sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) } := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = { o6 := VO0_6.read (Elt F) VO0_6.junk, o7 := VO0_7.read (Elt F) VO0_7.junk, o8 := VO0_8.read (Elt F) VO0_8.junk, o9 := VO0_9.read (Elt F) VO0_9.junk, o10 := VO0_10.read (Elt F) VO0_10.junk, s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s4 := sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = { o6 := out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o7 := out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o8 := out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o9 := out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4, s4 := sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 } := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: the scratch buffers at anything. Afterwards: each accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.KernelIdeal.Hand

end
-- ==== Proof.KiBodyA.lean ====
/-
  The body obligation at the first time tile of a batch tile: the accumulators are reset and then added to; the output
  buffers are handed back untouched. At the very first grid point the scratch buffers hold anything; at the first
  tile of the second batch tile they hold what the point before left, which is forgotten.
-/
import proofs.«140918_j52716428591263_2_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
theorem sound_body_A0 (c : Dev nD) (t : Fin cfg0.N) (h0 : t.val % 16 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have h1 : ¬t.val % 16 = 15 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [outsAt0_A m c t h0 h1]
  unfold sout0_A_0 sout0_A_1 sout0_A_2 sout0_A_3 sout0_A_4; (try dsimp only)
  rw [PhiS_castSucc m c t, PhiS_zero m c _ _ hz, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_A_1 c _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_A_2 c _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_A_4 c _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

set_option maxHeartbeats 16000000 in
theorem sound_body_A1 (c : Dev nD) (t : Fin cfg0.N) (h0 : t.val % 16 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have h1 : ¬t.val % 16 = 15 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [outsAt0_A m c t h0 h1]
  unfold sout0_A_0 sout0_A_1 sout0_A_2 sout0_A_3 sout0_A_4; (try dsimp only)
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexists _; iexact HS0
  isplitl [HS1]; · iexists _; iexact HS1
  isplitl [HS2]; · iexists _; iexact HS2
  isplitl [HS3]; · iexists _; iexact HS3
  isplitl [HS4]; · iexists _; iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_A_1 c _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_A_2 c _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_A_3 c _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_A_4 c _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

end Cert.KernelIdeal.Hand

end
-- ==== Proof.KiBodyB.lean ====
/-
  The body obligation at a middle time tile: the accumulators continue from the point before; the output buffers are
  handed back untouched.
-/
import proofs.«140918_j52716428591263_2_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have hz : t.val ≠ 0 := by intro h; rw [h] at h0; exact h0 (Nat.zero_mod _)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [outsAt0_B m c t h0 h1]
  unfold sout0_B_0 sout0_B_1 sout0_B_2 sout0_B_3 sout0_B_4; (try dsimp only)
  rw [PhiS_castSucc m c t, PhiS_pos m c _ _ hz]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iexists _; iexact H10

end Cert.KernelIdeal.Hand

end
-- ==== Proof.KiBodyC.lean ====
/-
  The body obligation at the last time tile of a batch tile: the accumulators continue from the point before and the five
  outputs are stored.
-/
import proofs.«140918_j52716428591263_2_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  have hz : t.val ≠ 0 := by intro h; rw [h] at h0; exact h0 (Nat.zero_mod _)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t ((hcond0_1 t).mpr h1)], after0_6]
  rw [show (dats m 0 c).leavesExact 7 t = owns (c : Thread nD τ) (ms0_7 t) fullShare ((dats m 0 c).after 7 t) from by
    unfold Dat.leavesExact; rw [liveAt0_7 t ((hcond0_1 t).mpr h1)], after0_7]
  rw [show (dats m 0 c).leavesExact 8 t = owns (c : Thread nD τ) (ms0_8 t) fullShare ((dats m 0 c).after 8 t) from by
    unfold Dat.leavesExact; rw [liveAt0_8 t ((hcond0_1 t).mpr h1)], after0_8]
  rw [show (dats m 0 c).leavesExact 9 t = owns (c : Thread nD τ) (ms0_9 t) fullShare ((dats m 0 c).after 9 t) from by
    unfold Dat.leavesExact; rw [liveAt0_9 t ((hcond0_1 t).mpr h1)], after0_9]
  rw [show (dats m 0 c).leavesExact 10 t = owns (c : Thread nD τ) (ms0_10 t) fullShare ((dats m 0 c).after 10 t) from by
    unfold Dat.leavesExact; rw [liveAt0_10 t ((hcond0_1 t).mpr h1)], after0_10]
  rw [PhiS_castSucc m c t, PhiS_pos m c _ _ hz]
  rw [outsAt0_C m c t h0 h1]
  unfold sout0_C_0 sout0_C_1 sout0_C_2 sout0_C_3 sout0_C_4 out0_C_6 out0_C_7 out0_C_8 out0_C_9 out0_C_10; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%e7, H7⟩, ⟨%e8, H8⟩, ⟨%e9, H9⟩, ⟨%e10, H10⟩, ⟨%es0, HS0⟩, ⟨%es1, HS1⟩, ⟨%es2, HS2⟩, ⟨%es3, HS3⟩, ⟨%es4, HS4⟩⟩
  isplitl [HS0 HS1 HS2 HS3 HS4 Hg]
  · isplitr [Hg]
    swap; · iexact Hg
    isplitl [HS0]
    · unfold owns; iexists _; isplitr
      swap; · iexact HS0
      ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _)
    isplitl [HS2]
    · unfold owns; iexists _; isplitr
      swap; · iexact HS2
      ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _)
    isplitl [HS3]
    · unfold owns; iexists _; isplitr
      swap; · iexact HS3
      ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _)
    unfold owns; iexists _; isplitr
    swap; · iexact HS4
    ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _)

end Cert.KernelIdeal.Hand

end
-- ==== Proof.KiFrame.lean ====
/-
  The frame of the fused reduction kernel: with the proof data, the body meets its obligation at every grid point (by the
  case the point is in), the invariant is what the launch hands over and gives back, and so every weakly fair execution of
  the host program terminates, with every array of the region at what the proof data computes.
-/
import proofs.«140918_j52716428591263_2_alg».proof.Proof.KiBodyA
import proofs.«140918_j52716428591263_2_alg».proof.Proof.KiBodyB
import proofs.«140918_j52716428591263_2_alg».proof.Proof.KiBodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body at any point: the closed forms of the two conditions say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases hz : t.val = 0
    · exact sound_body_A0 m c t h0 hz
    · exact sound_body_A1 m c t h0 hz
  · by_cases h1 : t.val % 16 = 15
    · exact sound_body_C m c t h0 h1
    · exact sound_body_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitr [Hg]
  swap; · iexact Hg
  isplitl [HS0]; · iexists _; iexact HS0
  isplitl [HS1]; · iexists _; iexact HS1
  isplitl [HS2]; · iexists _; iexact HS2
  isplitl [HS3]; · iexists _; iexact HS3
  iexists _; iexact HS4

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 8000000 in
set_option backward.isDefEq.respectTransparency.types false in
/-- Every weakly fair execution of the host program terminates; every array of the region ends at what the proof data
    computes, and every other buffer at what the operations after the region leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

end Cert.KernelIdeal.Hand

end
-- ==== Proof.KiArgs.lean ====
/-
  The argument arrays around the region.

  No host operation before the region writes an argument array, so the region finds each as launched; and no
  host operation after the region writes one either, so the three arguments the region does not stage (the two
  score matrices and the label matrix) end as launched.
-/
import proofs.«140918_j52716428591263_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 8000000 in
/-- No host operation after the region writes argument 0, which no window stages: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 8000000 in
/-- No host operation after the region writes argument 1, which no window stages: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 8000000 in
/-- No host operation after the region writes argument 4, which no window stages: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The frame claim's post from the frame run's -/

set_option maxHeartbeats 4000000 in
/-- From a run after which every array of the region holds what the proof data computes and every other buffer what the
    operations after the region leave, the nine argument arrays end unchanged: a staged input is found as the region
    found it, which is as launched; an unstaged one is touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      (((h c).2 main_arg4 (Pipeline.mem_restRefs_of main_arg4 (by decide) (by decide))).trans (W_main_arg4 m dats c)),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c))),
      ((h c).1 5).trans (((dats 0 c).arrAt_in 5 rfl _).trans ((hA c 5).trans (V_main_arg8 m c)))⟩) h

end Cert.KernelIdeal.Hand

end
-- ==== Proof.KiClaim.lean ====
/-
  The frame of the kernel program: its host program runs to the end without a fault and leaves its nine argument
  arrays unchanged, for floats of any kind.
-/
import proofs.«140918_j52716428591263_2_alg».proof.Proof.KiFrame
import proofs.«140918_j52716428591263_2_alg».proof.Proof.KiArgs

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.KiResult.lean ====
/-
  The run of the kernel program with its result named: every weakly fair execution terminates; the result buffer holds
  what the host operations after the region compute from the five output arrays the region leaves (and from the two
  scalars computed before it), and the nine argument arrays are unchanged.
-/
import proofs.«140918_j52716428591263_2_alg».proof.Proof.KiFrame
import proofs.«140918_j52716428591263_2_alg».proof.Proof.KiArgs

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

set_option maxHeartbeats 4000000 in
theorem run_result : θ_run defs (onTc (τ := τ) (main (F := F))) ⟨m, fun _ => 0, ρ⟩ (fun r => ∀ c : Dev nD,
      r.2.mem ((c.tc : Thread nD τ).loc main_v66) = Pipeline.afterTail₀ cfgs (dats m) 0 (V0 m) [hostOps1, hostOps1_1, hostOps1_2] c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v66 (Pipeline.mem_restRefs_of main_v66 (by decide) (by decide))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c)))⟩) (run_main m ρ)

end Cert.KernelIdeal.Hand

end
-- ==== Proof.KiPieces.lean ====
/-
  What the stored pieces hold.

  Every store of the body writes a whole buffer. What a case of the body leaves in a buffer is therefore the value of
  the last store into it, and a load of a whole buffer reads either the contents the buffer held on entry or, after a
  store, the value stored. Read this way, at the first time tile each accumulator holds its update applied to the zero
  array; at every later tile it holds its update applied to the contents carried over; and at the last tile each output
  buffer holds its output function applied to the accumulator as just updated.
-/
import proofs.«140918_j52716428591263_2_alg».proof.Proof.KiData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole two-axis buffer are all zero. -/
theorem hz2 : (![0, 0] : Fin 2 → Nat) = fun _ => 0 := funext fun a => by fin_cases a <;> rfl
/-- The offsets of a whole three-axis buffer are all zero. -/
theorem hz3 : (![0, 0, 0] : Fin 3 → Nat) = fun _ => 0 := funext fun a => by fin_cases a <;> rfl

/-- At the first time tile, accumulator 0 holds its update applied to the zero array. -/
theorem sout0_A_0_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = k0_pay13 (k0_pay8 (F := F)) x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)]
  unfold kernelRun0_A
  dsimp only
  sl_unfold_words
  rw [View.canon_cons_unit_zero (S := S8x2048) hz2, View.readCov_unit_zero (S := S8x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the first time tile, accumulator 1 holds its update applied to the zero array. -/
theorem sout0_A_1_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = k0_pay14 (k0_pay9 (F := F)) x1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)]
  unfold kernelRun0_A
  dsimp only
  sl_unfold_words
  rw [View.canon_cons_unit_zero (S := S8x2048) hz2, View.readCov_unit_zero (S := S8x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the first time tile, accumulator 2 holds its update applied to the zero array. -/
theorem sout0_A_2_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = k0_pay1 (k0_pay10 (F := F)) (k0_pay16 x2 x3) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)]
  unfold kernelRun0_A
  dsimp only
  sl_unfold_words
  rw [View.canon_cons_unit_zero (S := S8x100) hz2, View.readCov_unit_zero (S := S8x100) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the first time tile, accumulator 3 holds its update applied to the zero array. -/
theorem sout0_A_3_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = k0_pay2 (k0_pay15 x2) (k0_pay11 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)]
  unfold kernelRun0_A
  dsimp only
  sl_unfold_words
  rw [View.canon_cons_unit_zero (S := S8x100) hz2, View.readCov_unit_zero (S := S8x100) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the first time tile, accumulator 4 holds its update applied to the zero array. -/
theorem sout0_A_4_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = k0_pay3 x4 x5 (k0_pay12 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a middle time tile, accumulator 0 holds its update applied to the contents carried over. -/
theorem sout0_B_0_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay13 xs0 x0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_B
  dsimp only
  sl_unfold_words
  rw [View.canon_unit_zero (S := S8x2048) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a middle time tile, accumulator 1 holds its update applied to the contents carried over. -/
theorem sout0_B_1_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay14 xs1 x1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_B
  dsimp only
  sl_unfold_words
  rw [View.canon_unit_zero (S := S8x2048) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a middle time tile, accumulator 2 holds its update applied to the contents carried over. -/
theorem sout0_B_2_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay1 xs2 (k0_pay16 x2 x3) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_B
  dsimp only
  sl_unfold_words
  rw [View.canon_unit_zero (S := S8x100) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a middle time tile, accumulator 3 holds its update applied to the contents carried over. -/
theorem sout0_B_3_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay2 (k0_pay15 x2) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_B
  dsimp only
  sl_unfold_words
  rw [View.canon_unit_zero (S := S8x100) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a middle time tile, accumulator 4 holds its update applied to the contents carried over. -/
theorem sout0_B_4_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : ¬cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay3 x4 x5 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_B
  dsimp only
  sl_unfold_words
  rw [View.canon_unit_zero (S := S8x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a last time tile, accumulator 0 holds its update applied to the contents carried over. -/
theorem sout0_C_0_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay13 xs0 x0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x2048) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a last time tile, accumulator 1 holds its update applied to the contents carried over. -/
theorem sout0_C_1_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay14 xs1 x1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x2048) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a last time tile, accumulator 2 holds its update applied to the contents carried over. -/
theorem sout0_C_2_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay1 xs2 (k0_pay16 x2 x3) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x100) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a last time tile, accumulator 3 holds its update applied to the contents carried over. -/
theorem sout0_C_3_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay2 (k0_pay15 x2) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x100) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At a last time tile, accumulator 4 holds its update applied to the contents carried over. -/
theorem sout0_C_4_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay3 x4 x5 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the last time tile, output buffer 6 holds its output function of the updated accumulator. -/
theorem out0_C_6_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay4 (k0_pay13 xs0 x0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x1) hz2, View.readCov_unit_zero (S := S8x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the last time tile, output buffer 7 holds its output function of the updated accumulator. -/
theorem out0_C_7_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay5 (k0_pay14 xs1 x1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x1) hz2, View.readCov_unit_zero (S := S8x2048) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the last time tile, output buffer 8 holds its output function of the updated accumulator. -/
theorem out0_C_8_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay6 (k0_pay1 xs2 (k0_pay16 x2 x3)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x100) hz2, View.readCov_unit_zero (S := S8x100) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the last time tile, output buffer 9 holds its output function of the updated accumulator. -/
theorem out0_C_9_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay7 (k0_pay2 (k0_pay15 x2) xs3) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x100) hz2, View.readCov_unit_zero (S := S8x100) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

/-- At the last time tile, output buffer 10 holds its output function of the updated accumulator. -/
theorem out0_C_10_eq (c : Dev nD) (i : grid0.Coords) (arg2 : Memref sig .tc .vmem S8x128x2048 .f32) (harg2 : arg2.IsWhole) (arg3 : Memref sig .tc .vmem S8x128x2048 .f32) (harg3 : arg3.IsWhole) (arg4 : Memref sig .tc .vmem S8x128x100 .f32) (harg4 : arg4.IsWhole) (arg5 : Memref sig .tc .vmem S8x128x100 .f32) (harg5 : arg5.IsWhole) (arg6 : Memref sig .tc .vmem S8x128x100 .f32) (harg6 : arg6.IsWhole) (arg7 : Memref sig .tc .vmem S8x128x100 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x100 .f32) (harg10 : arg10.IsWhole) (arg11 : Memref sig .tc .vmem S8x100 .f32) (harg11 : arg11.IsWhole) (arg12 : Memref sig .tc .vmem S8x1 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S8x100 .f32) (harg15 : arg15.IsWhole) (arg16 : Memref sig .tc .vmem S8x100 .f32) (harg16 : arg16.IsWhole) (arg17 : Memref sig .tc .vmem S8x1 .f32) (harg17 : arg17.IsWhole) (hc0 : ¬cond0_0 i) (hc1 : cond0_1 i) (x0 : Vec F S8x128x2048 .f32) (x1 : Vec F S8x128x2048 .f32) (x2 : Vec F S8x128x100 .f32) (x3 : Vec F S8x128x100 .f32) (x4 : Vec F S8x128x100 .f32) (x5 : Vec F S8x128x100 .f32) (xs0 : Vec F S8x2048 .f32) (xs1 : Vec F S8x2048 .f32) (xs2 : Vec F S8x100 .f32) (xs3 : Vec F S8x100 .f32) (xs4 : Vec F S8x1 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4 = k0_pay3 x4 x5 xs4 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 xs3 xs4)]
  unfold kernelRun0_C
  dsimp only
  sl_unfold_words
  rw [View.canon_unit_zero (S := S8x1) hz2, View.readCov_unit_zero (S := S8x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S8x2048) hz2, View.ld_unit_zero (S := S8x100) hz2, View.ld_unit_zero (S := S8x1) hz2, View.ld_unit_zero (S := S8x128x2048) hz3, View.ld_unit_zero (S := S8x128x100) hz3]

end Cert.KernelIdeal.Hand

end
-- ==== Proof.LibStack.lean ====
/-
  A three-axis stack [a,b,c] met by matrices: a matrix [a,b] given a trailing unit axis and stretched along it, one
  entry of a matrix or of a vector picked out as a scalar (a 1×1 or 1-long slab read at its only position), and the
  stack summed along its first or its last axis — each read at an index written by coordinates.
-/
import Idealize.ShloMosaic.Lib.Pipeline.Value
import Idealize.ShloMosaic.Lib.ValueIdx
import Idealize.ShloMosaic.Lib.ValueLayout
import Idealize.ShloMosaic.PureOps.Ideal.Laws

namespace Cert.LibStack

open Idealize.ShloMosaic Idealize.ShloMosaic.ValueIdx

variable {α : Type}

/-- [a,b] viewed [a,b,1]: at (i, j, u) the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,b,1] stretched to [a,b,c]: at (i, j, k) the column at (i, j, 0). -/
theorem broadcastTo_ab1_abc_apply {a b c : ℕ} (U : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ U h (ix3 i j k) = U (ix3 i j (0 : Fin 1)) := by
  refine broadcastTo_apply U h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The 1×1 slab of a matrix at offset (p, q), read at its only position: the matrix at (p, q). -/
theorem pick2 {n0 n1 : ℕ} (p q : ℕ) (X : (⟨2, ![n0, n1]⟩ : Shape).Idx → α)
    (h : (⟨2, ![n0, n1]⟩ : Shape).Slices ![p, q] ⟨2, ![1, 1]⟩)
    (h' : ∀ a, (![0, 0] : Fin 2 → ℕ) a < (⟨2, ![1, 1]⟩ : Shape).size a) :
    extractAt ![0, 0] (extractStridedSlice ⟨2, ![1, 1]⟩ ![p, q] X h) h'
      = X (ix2 ⟨p, Nat.lt_of_lt_of_le (Nat.lt_succ_self p) (h.2 0)⟩ ⟨q, Nat.lt_of_lt_of_le (Nat.lt_succ_self q) (h.2 1)⟩) := by
  show X _ = X _
  refine congrArg X (funext fun a => Fin.ext ?_)
  match a with
  | ⟨0, _⟩ => exact Nat.add_zero p
  | ⟨1, _⟩ => exact Nat.add_zero q

/-- The 1-long slab of a vector at offset p, read at its only position: the vector at p. -/
theorem pick1 {n0 : ℕ} (p : ℕ) (X : (⟨1, ![n0]⟩ : Shape).Idx → α)
    (h : (⟨1, ![n0]⟩ : Shape).Slices ![p] ⟨1, ![1]⟩)
    (h' : ∀ a, (![0] : Fin 1 → ℕ) a < (⟨1, ![1]⟩ : Shape).size a) :
    extractAt ![0] (extractStridedSlice ⟨1, ![1]⟩ ![p] X h) h'
      = X (ix1 ⟨p, Nat.lt_of_lt_of_le (Nat.lt_succ_self p) (h.2 0)⟩) := by
  show X _ = X _
  refine congrArg X (funext fun a => Fin.ext ?_)
  match a with
  | ⟨0, _⟩ => exact Nat.add_zero p

/-- The stack summed along its LAST axis, from the additive neutral: at (i, j) the sum over k of the entries (i, j, k). -/
theorem sum_last_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) := by
  rw [Ideal.multiReduction_add_single]
  refine Finset.sum_congr rfl fun k _ => ?_
  exact congrArg src (funext fun ax => Fin.ext (by match ax with | ⟨0, _⟩ => rfl | ⟨1, _⟩ => rfl | ⟨2, _⟩ => rfl))

/-- The stack summed along its FIRST axis, from the additive neutral: at (j, k) the sum over i of the entries (i, j, k). -/
theorem sum_first_apply {a b c : ℕ} (src : FVec Ideal ⟨3, ![a, b, c]⟩ .f32) (acc : BitVec FTy.f32.bits)
    (h : (⟨3, ![a, b, c]⟩ : Shape).Reduces [0] ⟨2, ![b, c]⟩) (hφ : FKind.Formats .f32)
    (hacc : acc = FKind.add.neutral .f32 hφ) (j : Fin b) (k : Fin c) :
    multiReduction .add [0] ⟨2, ![b, c]⟩ src acc h hφ hacc (ix2 j k) = ∑ i : Fin a, src (ix3 i j k) := by
  rw [Ideal.multiReduction_add_single]
  refine Finset.sum_congr rfl fun i _ => ?_
  exact congrArg src (funext fun ax => Fin.ext (by match ax with | ⟨0, _⟩ => rfl | ⟨1, _⟩ => rfl | ⟨2, _⟩ => rfl))

end Cert.LibStack
-- ==== Proof.LibRowStack.lean ====
/-
  A three-axis stack [a,b,c] met by rows and by flat matrices, each operation read at an index written by
  coordinates: a matrix [a,c] given a middle unit axis (and back) and stretched along it to [a,b,c]; a vector [c]
  and a one-row matrix [1,c] given two leading unit axes and stretched to [a,b,c]; a one-entry vector viewed
  [1,1] and stretched to a matrix [a,b]; the row-major re-bracketing [a,b,c] ↔ [n,c] with n = a·b (row
  i·b + j of the flat matrix is position (i, j) of the stack); a block of consecutive rows cut out of a matrix;
  and the stack summed along its MIDDLE axis.
-/
import Idealize.ShloMosaic.Lib.Pipeline.Value
import Idealize.ShloMosaic.Lib.ValueIdx
import Idealize.ShloMosaic.PureOps.Ideal.Laws

namespace Cert.LibRowStack

open Idealize.ShloMosaic Idealize.ShloMosaic.ValueIdx

variable {α : Type}

/-- [a,1,c] viewed [a,c]: at (i, k) the stack at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- [a,c] viewed [a,1,c]: at (i, u, k) the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- [a,1,c] stretched to [a,b,c]: at (i, j, k) the slab at (i, 0, k). -/
theorem broadcastTo_a1c_abc_apply {a b c : ℕ} (U : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ U h (ix3 i j k) = U (ix3 i (0 : Fin 1) k) := by
  refine broadcastTo_apply U h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- [c] viewed [1,1,c]: at (u, v, k) the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- [1,c] viewed [1,1,c]: at (u, v, k) the row's entry k. -/
theorem shapeCast_1c_11c_apply {c : ℕ} (x : (⟨2, ![1, c]⟩ : Shape).Idx → α)
    (h : (⟨2, ![1, c]⟩ : Shape).ShapeCasts ⟨3, ![1, 1, c]⟩) (u v : Fin 1) (k : Fin c) :
    shapeCast ⟨3, ![1, 1, c]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show 0 * c + k.val = (u.val * 1 + v.val) * c + k.val
    rw [hu, hv])

/-- [1,1,c] stretched to [a,b,c]: at (i, j, k) the row's entry k. -/
theorem broadcastTo_11c_abc_apply {a b c : ℕ} (U : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ U h (ix3 i j k) = U (ix3 (0 : Fin 1) (0 : Fin 1) k) := by
  refine broadcastTo_apply U h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- [1] viewed [1,1]: the one entry. -/
theorem shapeCast_1_11_apply (x : (⟨1, ![1]⟩ : Shape).Idx → α)
    (h : (⟨1, ![1]⟩ : Shape).ShapeCasts ⟨2, ![1, 1]⟩) (u v : Fin 1) :
    shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    rw [hu, hv])

/-- [1,1] stretched to [a,b]: the one entry everywhere. -/
theorem broadcastTo_11_ab_apply {a b : ℕ} (U : (⟨2, ![1, 1]⟩ : Shape).Idx → α)
    (h : (⟨2, ![1, 1]⟩ : Shape).Broadcasts ⟨2, ![a, b]⟩) (i : Fin a) (j : Fin b) :
    broadcastTo ⟨2, ![a, b]⟩ U h (ix2 i j) = U (ix2 (0 : Fin 1) (0 : Fin 1)) := by
  refine broadcastTo_apply U h (ix2 i j) (ix2 (0 : Fin 1) (0 : Fin 1)) fun ax => ?_
  match ax with
  | ⟨0, _⟩ => rfl
  | ⟨1, _⟩ => rfl

/-- [a,b,c] flattened to [n,c], n = a·b: row i·b + j of the flat matrix is position (i, j) of the stack. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- [n,c] re-bracketed to [a,b,c], n = a·b: position (i, j) of the stack is row i·b + j of the flat matrix. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A block of `r` consecutive rows starting at row `o` cut out of an [n,c] matrix: at (i, k) the matrix at (o + i, k). -/
theorem slice_rows_apply {n r c : ℕ} (o : ℕ) (x : (⟨2, ![n, c]⟩ : Shape).Idx → α)
    (h : (⟨2, ![n, c]⟩ : Shape).Slices ![o, 0] ⟨2, ![r, c]⟩) (i : Fin r) (k : Fin c) (p : Fin n)
    (hp : p.val = o + i.val) :
    extractStridedSlice ⟨2, ![r, c]⟩ ![o, 0] x h (ix2 i k) = x (ix2 p k) := by
  refine extractStridedSlice_apply ![o, 0] x h (ix2 i k) (ix2 p k) fun ax => ?_
  match ax with
  | ⟨0, _⟩ => exact hp
  | ⟨1, _⟩ => exact (Nat.zero_add k.val).symm

/-- The stack summed along its MIDDLE axis, from the additive neutral: at (i, k) the sum over j of the entries (i, j, k). -/
theorem sum_mid_apply {a b c : ℕ} (src : FVec Ideal ⟨3, ![a, b, c]⟩ .f32) (acc : BitVec FTy.f32.bits)
    (h : (⟨3, ![a, b, c]⟩ : Shape).Reduces [1] ⟨2, ![a, c]⟩) (hφ : FKind.Formats .f32)
    (hacc : acc = FKind.add.neutral .f32 hφ) (i : Fin a) (k : Fin c) :
    multiReduction .add [1] ⟨2, ![a, c]⟩ src acc h hφ hacc (ix2 i k) = ∑ j : Fin b, src (ix3 i j k) := by
  rw [Ideal.multiReduction_add_single]
  refine Finset.sum_congr rfl fun j _ => ?_
  exact congrArg src (funext fun ax => Fin.ext (by match ax with | ⟨0, _⟩ => rfl | ⟨1, _⟩ => rfl | ⟨2, _⟩ => rfl))

end Cert.LibRowStack
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.PayAt.lean ====
/-
  The kernel's sixteen pure payloads, each read at one index on the extended reals: the five constant payloads are
  the zero array; the others are, entry by entry, a sum of two entries, an accumulator plus a sum along the middle
  axis of a three-axis stack, an accumulator plus a double sum of squared differences, the square root of a row's
  sum of squares of scaled entries, a square root, and the indicator of "greater than a threshold".
-/
import proofs.«140918_j52716428591263_2_alg».proof.Proof.Gen.KernelIdeal.Skeleton
import proofs.«140918_j52716428591263_2_alg».proof.Proof.LibStack
import proofs.«140918_j52716428591263_2_alg».proof.Proof.LibRowStack
import proofs.«140918_j52716428591263_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Idealize.ShloMosaic Idealize.ShloMosaic.ValueIdx Cert.KernelIdeal Cert.KernelIdeal.Gen

/-- The zero word is the number 0. -/
theorem Z_eq : Ideal.ofBits .f32 0x00000000#32 = (0 : EReal) := Ideal.ofBits_zero_f32

/-- A one-bit truth value, widened to 32 bits, read as a signed integer and then as a number, is the indicator 1 / 0. -/
theorem indicator_eq (p : Prop) [Decidable p] :
    ((((BitVec.ofBool (decide p)).setWidth 32).toInt : ℝ) : EReal) = if p then (1 : EReal) else 0 := by
  by_cases h : p
  · simp [h]
  · simp [h]

/-- A broadcast of the zero word, recast to its own shape, is the zero array. -/
theorem pay8_eq : (k0_pay8 (F := Ideal)) = fun _ => (0 : EReal) := by
  unfold k0_pay8
  dsimp only
  rw [shapeCast_self]
  funext i
  exact Z_eq

theorem pay9_eq : (k0_pay9 (F := Ideal)) = fun _ => (0 : EReal) := by
  unfold k0_pay9
  dsimp only
  rw [shapeCast_self]
  funext i
  exact Z_eq

theorem pay10_eq : (k0_pay10 (F := Ideal)) = fun _ => (0 : EReal) := by
  unfold k0_pay10
  dsimp only
  rw [shapeCast_self]
  funext i
  exact Z_eq

theorem pay11_eq : (k0_pay11 (F := Ideal)) = fun _ => (0 : EReal) := by
  unfold k0_pay11
  dsimp only
  rw [shapeCast_self]
  funext i
  exact Z_eq

theorem pay12_eq : (k0_pay12 (F := Ideal)) = fun _ => (0 : EReal) := by
  unfold k0_pay12
  dsimp only
  rw [shapeCast_self]
  funext i
  exact Z_eq

/-- Two arrays added, entry by entry. -/
theorem pay1_at (v24 v26 : FVec Ideal S8x100 .f32) (i : S8x100.Idx) :
    k0_pay1 (F := Ideal) v24 v26 i = v24 i + v26 i := by
  unfold k0_pay1
  rw [shapeCast_self]
  rfl

/-- The square root, entry by entry. -/
theorem pay6_at (v68 : FVec Ideal S8x100 .f32) (i : S8x100.Idx) :
    k0_pay6 (F := Ideal) v68 i = Ideal.sqrt (v68 i) := rfl

/-- "Greater than one half" as a number: 1 where the entry exceeds the threshold, 0 elsewhere. -/
theorem pay15_at (v17 : FVec Ideal S8x128x100 .f32) (i : S8x128x100.Idx) :
    k0_pay15 (F := Ideal) v17 i = if Ideal.ofBits .f32 0x3F000000#32 < v17 i then (1 : EReal) else 0 :=
  indicator_eq _

/-- "Positive" as a number: 1 where the entry exceeds 0, 0 elsewhere. -/
theorem pay7_at (v71 : FVec Ideal S8x100 .f32) (i : S8x100.Idx) :
    k0_pay7 (F := Ideal) v71 i = if (0 : EReal) < v71 i then (1 : EReal) else 0 := by
  refine (indicator_eq (Ideal.ofBits .f32 0x00000000#32 < v71 i)).trans ?_
  rw [Z_eq]

/-- A stack summed over its middle axis and added to an accumulator, entry by entry. -/
theorem pay13_at (v3 : FVec Ideal S8x2048 .f32) (v4 : FVec Ideal S8x128x2048 .f32) (b : Fin 8) (d : Fin 2048) :
    k0_pay13 (F := Ideal) v3 v4 (ix2 b d) = v3 (ix2 b d) + ∑ j : Fin 128, v4 (ix3 b j d) := by
  unfold k0_pay13
  rw [shapeCast_self, addf_apply]
  exact congrArg (v3 (ix2 b d) + ·) (LibRowStack.sum_mid_apply v4 _ _ _ _ b d)

theorem pay14_at (v10 : FVec Ideal S8x2048 .f32) (v11 : FVec Ideal S8x128x2048 .f32) (b : Fin 8) (d : Fin 2048) :
    k0_pay14 (F := Ideal) v10 v11 (ix2 b d) = v10 (ix2 b d) + ∑ j : Fin 128, v11 (ix3 b j d) := by
  unfold k0_pay14
  rw [shapeCast_self, addf_apply]
  exact congrArg (v10 (ix2 b d) + ·) (LibRowStack.sum_mid_apply v11 _ _ _ _ b d)

theorem pay2_at (v21 : FVec Ideal S8x128x100 .f32) (v31 : FVec Ideal S8x100 .f32) (b : Fin 8) (c : Fin 100) :
    k0_pay2 (F := Ideal) v21 v31 (ix2 b c) = v31 (ix2 b c) + ∑ j : Fin 128, v21 (ix3 b j c) := by
  unfold k0_pay2
  rw [shapeCast_self, addf_apply]
  exact congrArg (v31 (ix2 b c) + ·) (LibRowStack.sum_mid_apply v21 _ _ _ _ b c)

/-- The squared differences summed over the middle axis. -/
theorem pay16_at (v17 v22 : FVec Ideal S8x128x100 .f32) (b : Fin 8) (c : Fin 100) :
    k0_pay16 (F := Ideal) v17 v22 (ix2 b c)
      = ∑ j : Fin 128, (v22 (ix3 b j c) - k0_pay15 (F := Ideal) v17 (ix3 b j c))
          * (v22 (ix3 b j c) - k0_pay15 (F := Ideal) v17 (ix3 b j c)) := by
  unfold k0_pay16
  exact LibRowStack.sum_mid_apply _ _ _ _ _ b c

/-- The squared differences summed over the last axis, then over the middle axis, added to an accumulator column. -/
theorem pay3_at (v37 v38 : FVec Ideal S8x128x100 .f32) (v43 : FVec Ideal S8x1 .f32) (b : Fin 8) :
    k0_pay3 (F := Ideal) v37 v38 v43 (ix2 b (0 : Fin 1))
      = v43 (ix2 b (0 : Fin 1)) + ∑ j : Fin 128, ∑ c : Fin 100,
          (v37 (ix3 b j c) - v38 (ix3 b j c)) * (v37 (ix3 b j c) - v38 (ix3 b j c)) := by
  unfold k0_pay3
  rw [shapeCast_self, addf_apply]
  refine congrArg (v43 (ix2 b (0 : Fin 1)) + ·) ?_
  refine (LibRowStack.sum_mid_apply _ _ _ _ _ b (0 : Fin 1)).trans ?_
  refine Finset.sum_congr rfl fun j _ => ?_
  refine (LibStack.shapeCast_ab_ab1_apply _ _ b j (0 : Fin 1)).trans ?_
  exact LibStack.sum_last_apply _ _ _ _ _ b j

/-- The root of a row's sum of squares of the scaled entries. -/
theorem pay4_at (v52 : FVec Ideal S8x2048 .f32) (b : Fin 8) :
    k0_pay4 (F := Ideal) v52 (ix2 b (0 : Fin 1))
      = Ideal.sqrt (∑ d : Fin 2048, (v52 (ix2 b d) * Ideal.ofBits .f32 0x3A000000#32)
          * (v52 (ix2 b d) * Ideal.ofBits .f32 0x3A000000#32)) := by
  unfold k0_pay4
  show Ideal.sqrt _ = _
  refine congrArg Ideal.sqrt ?_
  refine (shapeCast_a_a1_apply _ _ b (0 : Fin 1)).trans ?_
  exact multiReduction_add_rows_apply _ _ _ _ _ b

theorem pay5_at (v55 : FVec Ideal S8x2048 .f32) (b : Fin 8) :
    k0_pay5 (F := Ideal) v55 (ix2 b (0 : Fin 1))
      = Ideal.sqrt (∑ d : Fin 2048, (v55 (ix2 b d) * Ideal.ofBits .f32 0x3A000000#32)
          * (v55 (ix2 b d) * Ideal.ofBits .f32 0x3A000000#32)) := by
  unfold k0_pay5
  show Ideal.sqrt _ = _
  refine congrArg Ideal.sqrt ?_
  refine (shapeCast_a_a1_apply _ _ b (0 : Fin 1)).trans ?_
  exact multiReduction_add_rows_apply _ _ _ _ _ b

end Cert.KernelIdeal.PayAt

end
-- ==== Proof.Accum.lean ====
/-
  The accumulators over the sixteen time tiles, and the outputs computed from them.

  A batch tile is processed in sixteen time tiles of 128 times each. Each of the five accumulators starts from the
  zero array at the first tile and adds, at every tile, that tile's sum over its 128 times. After tile j an
  accumulator is therefore the sum of the tiles 0 … j, and after the last tile it is the sum over all 2048 times of
  the whole array (time 128·j + k is time k of tile j). The outputs — the root of a row's sum of squared means, the
  root of a sum of squared differences, the indicator of a positive count, and a double sum of squared differences —
  are then read off. Sums of extended reals are only re-bracketed, so no finiteness is needed. Two facts about the
  constants: multiplying by 1/2048 is dividing by 2048, and one half lies below an indicator exactly when the
  indicated proposition holds.
-/
import proofs.«140918_j52716428591263_2_alg».proof.Proof.PayAt

noncomputable section

open scoped BigOperators

namespace Cert.KernelIdeal.Accum

open Idealize.ShloMosaic Idealize.ShloMosaic.ValueIdx Cert.KernelIdeal Cert.KernelIdeal.Gen Cert.KernelIdeal.PayAt

/-- The word 0x3A000000 is the number 1/2048. -/
theorem ofBits_inv2048 : Ideal.ofBits .f32 0x3A000000#32 = ((1 / 2048 : ℝ) : EReal) := by
  simp [Ideal.ofBits, Ideal.ieee, -EReal.coe_mul]; norm_num

/-- The word 0x45000000 is the number 2048. -/
theorem ofBits_2048 : Ideal.ofBits .f32 0x45000000#32 = ((2048 : ℝ) : EReal) := by
  simp [Ideal.ofBits, Ideal.ieee, -EReal.coe_mul]; norm_num

/-- The word 0x3F000000 is the number 1/2. -/
theorem ofBits_half : Ideal.ofBits .f32 0x3F000000#32 = ((1 / 2 : ℝ) : EReal) := by
  simp [Ideal.ofBits, Ideal.ieee, -EReal.coe_mul]; norm_num

/-- Multiplying by 1/2048 is dividing by 2048, on every extended real. -/
theorem mul_inv_eq_div (x : EReal) :
    x * Ideal.ofBits .f32 0x3A000000#32 = Ideal.div x (Ideal.ofBits .f32 0x45000000#32) := by
  rw [ofBits_inv2048, ofBits_2048, Ideal.div_coe (by norm_num)]

/-- One half lies below an indicator exactly when the indicated proposition holds. -/
theorem half_lt_ind (p : Prop) [Decidable p] :
    (Ideal.ofBits .f32 0x3F000000#32 < (if p then (1 : EReal) else 0)) ↔ p := by
  rw [ofBits_half]
  by_cases h : p
  · simp only [h, if_true, iff_true]
    exact_mod_cast (by norm_num : ((1 / 2 : ℝ)) < 1)
  · simp only [h, if_false, iff_false, not_lt]
    exact_mod_cast (by norm_num : ((0 : ℝ)) ≤ 1 / 2)

/-- Row b of batch tile i, among the 16 rows. -/
def row (i : Fin 2) (b : Fin 8) : Fin 16 := ⟨8 * i.val + b.val, by omega⟩

/-- Time k of time tile j, among the 2048 times. -/
def tm (j : Fin 16) (k : Fin 128) : Fin 2048 := ⟨128 * j.val + k.val, by omega⟩

/-- The indicator of "greater than one half". -/
def msk (x : EReal) : EReal := if Ideal.ofBits .f32 0x3F000000#32 < x then 1 else 0

/-- Every time is time k of exactly one time tile j: k the remainder and j the quotient by 128. -/
def tmEquiv : Fin 16 × Fin 128 ≃ Fin 2048 where
  toFun x := tm x.1 x.2
  invFun t := (⟨t.val / 128, by omega⟩, ⟨t.val % 128, by omega⟩)
  left_inv := by
    rintro ⟨j, k⟩
    refine Prod.ext (Fin.ext ?_) (Fin.ext ?_)
    · show (128 * j.val + k.val) / 128 = j.val
      omega
    · show (128 * j.val + k.val) % 128 = k.val
      omega
  right_inv := by
    intro t
    refine Fin.ext ?_
    show 128 * (t.val / 128) + t.val % 128 = t.val
    omega

/-- A sum over all 2048 times is the sum over the 16 time tiles of each tile's 128 terms. -/
theorem sum_tm {M : Type*} [AddCommMonoid M] (G : Fin 2048 → M) :
    ∑ t : Fin 2048, G t = ∑ j : Fin 16, ∑ k : Fin 128, G (tm j k) := by
  rw [← Equiv.sum_comp tmEquiv G, Fintype.sum_prod_type]
  rfl

/-- Sixteen consecutive tiles of 128 terms, the tiles numbered by naturals, add up to the sum over all 2048 times. -/
theorem blocks_to_whole {M : Type*} [AddCommMonoid M] (g : ℕ → Fin 128 → M) (G : Fin 2048 → M)
    (h : ∀ (j : Fin 16) (k : Fin 128), g j.val k = G (tm j k)) :
    ∑ j' ∈ Finset.range 16, ∑ k : Fin 128, g j' k = ∑ t : Fin 2048, G t := by
  rw [Finset.sum_range, sum_tm]
  exact Finset.sum_congr rfl fun j _ => Finset.sum_congr rfl fun k _ => h j k

theorem pay8_at (i : S8x2048.Idx) : k0_pay8 (F := Ideal) i = 0 := congrFun pay8_eq i
theorem pay9_at (i : S8x2048.Idx) : k0_pay9 (F := Ideal) i = 0 := congrFun pay9_eq i
theorem pay10_at (i : S8x100.Idx) : k0_pay10 (F := Ideal) i = 0 := congrFun pay10_eq i
theorem pay11_at (i : S8x100.Idx) : k0_pay11 (F := Ideal) i = 0 := congrFun pay11_eq i
theorem pay12_at (i : S8x1.Idx) : k0_pay12 (F := Ideal) i = 0 := congrFun pay12_eq i

/-- The thresholded entry is the indicator `msk`. -/
theorem pay15_msk (v17 : FVec Ideal S8x128x100 .f32) (i : S8x128x100.Idx) : k0_pay15 (F := Ideal) v17 i = msk (v17 i) :=
  pay15_at v17 i

/-- One tile's squared differences against the indicator, summed over the tile's 128 times. -/
theorem pay16_msk (v17 v22 : FVec Ideal S8x128x100 .f32) (b : Fin 8) (c : Fin 100) :
    k0_pay16 (F := Ideal) v17 v22 (ix2 b c)
      = ∑ k : Fin 128, (v22 (ix3 b k c) - msk (v17 (ix3 b k c))) * (v22 (ix3 b k c) - msk (v17 (ix3 b k c))) :=
  (pay16_at v17 v22 b c).trans (Finset.sum_congr rfl fun k _ => by rw [pay15_msk])

/-- The five accumulators after time tile j: each starts from the zero array at tile 0 and takes its update at every tile. -/
def accS (X0 X1 : ℕ → FVec Ideal S8x128x2048 .f32) (X2 X3 X4 X5 : ℕ → FVec Ideal S8x128x100 .f32) :
    ℕ → FVec Ideal S8x2048 .f32 × FVec Ideal S8x2048 .f32 × FVec Ideal S8x100 .f32 × FVec Ideal S8x100 .f32
      × FVec Ideal S8x1 .f32
  | 0 => (k0_pay13 (F := Ideal) (k0_pay8 (F := Ideal)) (X0 0), k0_pay14 (F := Ideal) (k0_pay9 (F := Ideal)) (X1 0),
      k0_pay1 (F := Ideal) (k0_pay10 (F := Ideal)) (k0_pay16 (X2 0) (X3 0)), k0_pay2 (F := Ideal) (k0_pay15 (X2 0)) (k0_pay11 (F := Ideal)),
      k0_pay3 (F := Ideal) (X4 0) (X5 0) (k0_pay12 (F := Ideal)))
  | j + 1 => (k0_pay13 (F := Ideal) (accS X0 X1 X2 X3 X4 X5 j).1 (X0 (j + 1)),
      k0_pay14 (F := Ideal) (accS X0 X1 X2 X3 X4 X5 j).2.1 (X1 (j + 1)),
      k0_pay1 (F := Ideal) (accS X0 X1 X2 X3 X4 X5 j).2.2.1 (k0_pay16 (X2 (j + 1)) (X3 (j + 1))),
      k0_pay2 (F := Ideal) (k0_pay15 (X2 (j + 1))) (accS X0 X1 X2 X3 X4 X5 j).2.2.2.1,
      k0_pay3 (F := Ideal) (X4 (j + 1)) (X5 (j + 1)) (accS X0 X1 X2 X3 X4 X5 j).2.2.2.2)

section
variable (X0 X1 : ℕ → FVec Ideal S8x128x2048 .f32) (X2 X3 X4 X5 : ℕ → FVec Ideal S8x128x100 .f32)

/-! ### Each accumulator after tile j is the sum of the tiles 0 … j -/

theorem acc1_closed (j : ℕ) (b : Fin 8) (d : Fin 2048) :
    (accS X0 X1 X2 X3 X4 X5 j).1 (ix2 b d) = ∑ j' ∈ Finset.range (j + 1), ∑ k : Fin 128, X0 j' (ix3 b k d) := by
  induction j with
  | zero =>
    show k0_pay13 (F := Ideal) (k0_pay8 (F := Ideal)) (X0 0) (ix2 b d) = _
    rw [pay13_at, pay8_at, zero_add]
    exact (Finset.sum_range_one (fun j' => ∑ k : Fin 128, X0 j' (ix3 b k d))).symm
  | succ j ih =>
    show k0_pay13 (F := Ideal) (accS X0 X1 X2 X3 X4 X5 j).1 (X0 (j + 1)) (ix2 b d) = _
    rw [pay13_at, ih]
    exact (Finset.sum_range_succ (fun j' => ∑ k : Fin 128, X0 j' (ix3 b k d)) (j + 1)).symm

theorem acc2_closed (j : ℕ) (b : Fin 8) (d : Fin 2048) :
    (accS X0 X1 X2 X3 X4 X5 j).2.1 (ix2 b d) = ∑ j' ∈ Finset.range (j + 1), ∑ k : Fin 128, X1 j' (ix3 b k d) := by
  induction j with
  | zero =>
    show k0_pay14 (F := Ideal) (k0_pay9 (F := Ideal)) (X1 0) (ix2 b d) = _
    rw [pay14_at, pay9_at, zero_add]
    exact (Finset.sum_range_one (fun j' => ∑ k : Fin 128, X1 j' (ix3 b k d))).symm
  | succ j ih =>
    show k0_pay14 (F := Ideal) (accS X0 X1 X2 X3 X4 X5 j).2.1 (X1 (j + 1)) (ix2 b d) = _
    rw [pay14_at, ih]
    exact (Finset.sum_range_succ (fun j' => ∑ k : Fin 128, X1 j' (ix3 b k d)) (j + 1)).symm

theorem acc3_closed (j : ℕ) (b : Fin 8) (c : Fin 100) :
    (accS X0 X1 X2 X3 X4 X5 j).2.2.1 (ix2 b c)
      = ∑ j' ∈ Finset.range (j + 1), ∑ k : Fin 128,
          (X3 j' (ix3 b k c) - msk (X2 j' (ix3 b k c))) * (X3 j' (ix3 b k c) - msk (X2 j' (ix3 b k c))) := by
  induction j with
  | zero =>
    show k0_pay1 (F := Ideal) (k0_pay10 (F := Ideal)) (k0_pay16 (X2 0) (X3 0)) (ix2 b c) = _
    rw [pay1_at, pay10_at, zero_add, pay16_msk]
    exact (Finset.sum_range_one (fun j' => ∑ k : Fin 128,
      (X3 j' (ix3 b k c) - msk (X2 j' (ix3 b k c))) * (X3 j' (ix3 b k c) - msk (X2 j' (ix3 b k c))))).symm
  | succ j ih =>
    show k0_pay1 (F := Ideal) (accS X0 X1 X2 X3 X4 X5 j).2.2.1 (k0_pay16 (X2 (j + 1)) (X3 (j + 1))) (ix2 b c) = _
    rw [pay1_at, ih, pay16_msk]
    exact (Finset.sum_range_succ (fun j' => ∑ k : Fin 128,
      (X3 j' (ix3 b k c) - msk (X2 j' (ix3 b k c))) * (X3 j' (ix3 b k c) - msk (X2 j' (ix3 b k c)))) (j + 1)).symm

theorem acc4_closed (j : ℕ) (b : Fin 8) (c : Fin 100) :
    (accS X0 X1 X2 X3 X4 X5 j).2.2.2.1 (ix2 b c)
      = ∑ j' ∈ Finset.range (j + 1), ∑ k : Fin 128, msk (X2 j' (ix3 b k c)) := by
  have one (v17 : FVec Ideal S8x128x100 .f32) :
      ∑ k : Fin 128, k0_pay15 (F := Ideal) v17 (ix3 b k c) = ∑ k : Fin 128, msk (v17 (ix3 b k c)) :=
    Finset.sum_congr rfl fun k _ => pay15_msk v17 _
  induction j with
  | zero =>
    show k0_pay2 (F := Ideal) (k0_pay15 (X2 0)) (k0_pay11 (F := Ideal)) (ix2 b c) = _
    rw [pay2_at, pay11_at, zero_add, one]
    exact (Finset.sum_range_one (fun j' => ∑ k : Fin 128, msk (X2 j' (ix3 b k c)))).symm
  | succ j ih =>
    show k0_pay2 (F := Ideal) (k0_pay15 (X2 (j + 1))) (accS X0 X1 X2 X3 X4 X5 j).2.2.2.1 (ix2 b c) = _
    rw [pay2_at, ih, one]
    exact (Finset.sum_range_succ (fun j' => ∑ k : Fin 128, msk (X2 j' (ix3 b k c))) (j + 1)).symm

theorem acc5_closed (j : ℕ) (b : Fin 8) :
    (accS X0 X1 X2 X3 X4 X5 j).2.2.2.2 (ix2 b (0 : Fin 1))
      = ∑ j' ∈ Finset.range (j + 1), ∑ k : Fin 128, ∑ c : Fin 100,
          (X4 j' (ix3 b k c) - X5 j' (ix3 b k c)) * (X4 j' (ix3 b k c) - X5 j' (ix3 b k c)) := by
  induction j with
  | zero =>
    show k0_pay3 (F := Ideal) (X4 0) (X5 0) (k0_pay12 (F := Ideal)) (ix2 b (0 : Fin 1)) = _
    rw [pay3_at, pay12_at, zero_add]
    exact (Finset.sum_range_one (fun j' => ∑ k : Fin 128, ∑ c : Fin 100,
      (X4 j' (ix3 b k c) - X5 j' (ix3 b k c)) * (X4 j' (ix3 b k c) - X5 j' (ix3 b k c)))).symm
  | succ j ih =>
    show k0_pay3 (F := Ideal) (X4 (j + 1)) (X5 (j + 1)) (accS X0 X1 X2 X3 X4 X5 j).2.2.2.2 (ix2 b (0 : Fin 1)) = _
    rw [pay3_at, ih]
    exact (Finset.sum_range_succ (fun j' => ∑ k : Fin 128, ∑ c : Fin 100,
      (X4 j' (ix3 b k c) - X5 j' (ix3 b k c)) * (X4 j' (ix3 b k c) - X5 j' (ix3 b k c))) (j + 1)).symm

/-! ### After the last tile each accumulator is the sum over all 2048 times of the whole arrays -/

variable (i : Fin 2)

theorem acc1_whole (A2 : FVec Ideal S16x2048x2048 .f32)
    (hX0 : ∀ (j : Fin 16) (b : Fin 8) (k : Fin 128) (d : Fin 2048),
      X0 j.val (ix3 b k d) = A2 (ix3 (row i b) (tm j k) d)) (b : Fin 8) (d : Fin 2048) :
    (accS X0 X1 X2 X3 X4 X5 15).1 (ix2 b d) = ∑ t : Fin 2048, A2 (ix3 (row i b) t d) :=
  (acc1_closed X0 X1 X2 X3 X4 X5 15 b d).trans
    (blocks_to_whole (fun j' k => X0 j' (ix3 b k d)) (fun t => A2 (ix3 (row i b) t d)) fun j k => hX0 j b k d)

theorem acc2_whole (A3 : FVec Ideal S16x2048x2048 .f32)
    (hX1 : ∀ (j : Fin 16) (b : Fin 8) (k : Fin 128) (d : Fin 2048),
      X1 j.val (ix3 b k d) = A3 (ix3 (row i b) (tm j k) d)) (b : Fin 8) (d : Fin 2048) :
    (accS X0 X1 X2 X3 X4 X5 15).2.1 (ix2 b d) = ∑ t : Fin 2048, A3 (ix3 (row i b) t d) :=
  (acc2_closed X0 X1 X2 X3 X4 X5 15 b d).trans
    (blocks_to_whole (fun j' k => X1 j' (ix3 b k d)) (fun t => A3 (ix3 (row i b) t d)) fun j k => hX1 j b k d)

theorem acc3_whole (A5 A6 : FVec Ideal S16x2048x100 .f32)
    (hX2 : ∀ (j : Fin 16) (b : Fin 8) (k : Fin 128) (c : Fin 100),
      X2 j.val (ix3 b k c) = A5 (ix3 (row i b) (tm j k) c))
    (hX3 : ∀ (j : Fin 16) (b : Fin 8) (k : Fin 128) (c : Fin 100),
      X3 j.val (ix3 b k c) = A6 (ix3 (row i b) (tm j k) c)) (b : Fin 8) (c : Fin 100) :
    (accS X0 X1 X2 X3 X4 X5 15).2.2.1 (ix2 b c)
      = ∑ t : Fin 2048, (A6 (ix3 (row i b) t c) - msk (A5 (ix3 (row i b) t c)))
          * (A6 (ix3 (row i b) t c) - msk (A5 (ix3 (row i b) t c))) :=
  (acc3_closed X0 X1 X2 X3 X4 X5 15 b c).trans
    (blocks_to_whole
      (fun j' k => (X3 j' (ix3 b k c) - msk (X2 j' (ix3 b k c))) * (X3 j' (ix3 b k c) - msk (X2 j' (ix3 b k c))))
      (fun t => (A6 (ix3 (row i b) t c) - msk (A5 (ix3 (row i b) t c)))
          * (A6 (ix3 (row i b) t c) - msk (A5 (ix3 (row i b) t c))))
      fun j k => by rw [hX2 j b k c, hX3 j b k c])

theorem acc4_whole (A5 : FVec Ideal S16x2048x100 .f32)
    (hX2 : ∀ (j : Fin 16) (b : Fin 8) (k : Fin 128) (c : Fin 100),
      X2 j.val (ix3 b k c) = A5 (ix3 (row i b) (tm j k) c)) (b : Fin 8) (c : Fin 100) :
    (accS X0 X1 X2 X3 X4 X5 15).2.2.2.1 (ix2 b c) = ∑ t : Fin 2048, msk (A5 (ix3 (row i b) t c)) :=
  (acc4_closed X0 X1 X2 X3 X4 X5 15 b c).trans
    (blocks_to_whole (fun j' k => msk (X2 j' (ix3 b k c))) (fun t => msk (A5 (ix3 (row i b) t c)))
      fun j k => by rw [hX2 j b k c])

/-! ### The outputs computed from the accumulators after the last tile -/

theorem fin_act (A2 : FVec Ideal S16x2048x2048 .f32)
    (hX0 : ∀ (j : Fin 16) (b : Fin 8) (k : Fin 128) (d : Fin 2048),
      X0 j.val (ix3 b k d) = A2 (ix3 (row i b) (tm j k) d)) (b : Fin 8) :
    k0_pay4 (F := Ideal) (accS X0 X1 X2 X3 X4 X5 15).1 (ix2 b (0 : Fin 1))
      = Ideal.sqrt (∑ d : Fin 2048,
          Ideal.div (∑ t : Fin 2048, A2 (ix3 (row i b) t d)) (Ideal.ofBits .f32 0x45000000#32)
            * Ideal.div (∑ t : Fin 2048, A2 (ix3 (row i b) t d)) (Ideal.ofBits .f32 0x45000000#32)) := by
  rw [pay4_at]
  refine congrArg Ideal.sqrt (Finset.sum_congr rfl fun d _ => ?_)
  rw [mul_inv_eq_div, acc1_whole X0 X1 X2 X3 X4 X5 i A2 hX0 b d]

theorem fin_bkg (A3 : FVec Ideal S16x2048x2048 .f32)
    (hX1 : ∀ (j : Fin 16) (b : Fin 8) (k : Fin 128) (d : Fin 2048),
      X1 j.val (ix3 b k d) = A3 (ix3 (row i b) (tm j k) d)) (b : Fin 8) :
    k0_pay5 (F := Ideal) (accS X0 X1 X2 X3 X4 X5 15).2.1 (ix2 b (0 : Fin 1))
      = Ideal.sqrt (∑ d : Fin 2048,
          Ideal.div (∑ t : Fin 2048, A3 (ix3 (row i b) t d)) (Ideal.ofBits .f32 0x45000000#32)
            * Ideal.div (∑ t : Fin 2048, A3 (ix3 (row i b) t d)) (Ideal.ofBits .f32 0x45000000#32)) := by
  rw [pay5_at]
  refine congrArg Ideal.sqrt (Finset.sum_congr rfl fun d _ => ?_)
  rw [mul_inv_eq_div, acc2_whole X0 X1 X2 X3 X4 X5 i A3 hX1 b d]

theorem fin_norm (A5 A6 : FVec Ideal S16x2048x100 .f32)
    (hX2 : ∀ (j : Fin 16) (b : Fin 8) (k : Fin 128) (c : Fin 100),
      X2 j.val (ix3 b k c) = A5 (ix3 (row i b) (tm j k) c))
    (hX3 : ∀ (j : Fin 16) (b : Fin 8) (k : Fin 128) (c : Fin 100),
      X3 j.val (ix3 b k c) = A6 (ix3 (row i b) (tm j k) c)) (b : Fin 8) (c : Fin 100) :
    k0_pay6 (F := Ideal) (accS X0 X1 X2 X3 X4 X5 15).2.2.1 (ix2 b c)
      = Ideal.sqrt (∑ t : Fin 2048, (A6 (ix3 (row i b) t c) - msk (A5 (ix3 (row i b) t c)))
          * (A6 (ix3 (row i b) t c) - msk (A5 (ix3 (row i b) t c)))) := by
  rw [pay6_at, acc3_whole X0 X1 X2 X3 X4 X5 i A5 A6 hX2 hX3 b c]

theorem fin_valid (A5 : FVec Ideal S16x2048x100 .f32)
    (hX2 : ∀ (j : Fin 16) (b : Fin 8) (k : Fin 128) (c : Fin 100),
      X2 j.val (ix3 b k c) = A5 (ix3 (row i b) (tm j k) c)) (b : Fin 8) (c : Fin 100) :
    k0_pay7 (F := Ideal) (accS X0 X1 X2 X3 X4 X5 15).2.2.2.1 (ix2 b c)
      = if (0 : EReal) < ∑ t : Fin 2048, msk (A5 (ix3 (row i b) t c)) then (1 : EReal) else 0 := by
  rw [pay7_at, acc4_whole X0 X1 X2 X3 X4 X5 i A5 hX2 b c]

theorem fin_cas (A7 A8 : FVec Ideal S16x2048x100 .f32)
    (hX4 : ∀ (j : Fin 16) (b : Fin 8) (k : Fin 128) (c : Fin 100),
      X4 j.val (ix3 b k c) = A7 (ix3 (row i b) (tm j k) c))
    (hX5 : ∀ (j : Fin 16) (b : Fin 8) (k : Fin 128) (c : Fin 100),
      X5 j.val (ix3 b k c) = A8 (ix3 (row i b) (tm j k) c)) (b : Fin 8) :
    (accS X0 X1 X2 X3 X4 X5 15).2.2.2.2 (ix2 b (0 : Fin 1))
      = ∑ t : Fin 2048, ∑ c : Fin 100, (A7 (ix3 (row i b) t c) - A8 (ix3 (row i b) t c))
          * (A7 (ix3 (row i b) t c) - A8 (ix3 (row i b) t c)) :=
  (acc5_closed X0 X1 X2 X3 X4 X5 15 b).trans
    (blocks_to_whole
      (fun j' k => ∑ c : Fin 100, (X4 j' (ix3 b k c) - X5 j' (ix3 b k c)) * (X4 j' (ix3 b k c) - X5 j' (ix3 b k c)))
      (fun t => ∑ c : Fin 100, (A7 (ix3 (row i b) t c) - A8 (ix3 (row i b) t c))
          * (A7 (ix3 (row i b) t c) - A8 (ix3 (row i b) t c)))
      fun j k => Finset.sum_congr rfl fun c _ => by rw [hX4 j b k c, hX5 j b k c])

end

end Cert.KernelIdeal.Accum

end
-- ==== Proof.KiValue.lean ====
/-
  The five output arrays after the run.

  The grid has 32 points: point 16·i + j is time tile j (of 16) of batch tile i (of 2). An input window's block at a
  point holds the rows 8i … 8i+7 of its array at the times 128j … 128j+127. By induction on j the five accumulators
  after point 16·i + j are the j-th accumulated state of batch tile i's blocks; at j = 15 the outputs are computed
  from them, so each output block written back there is, entry by entry, the whole-array expression (a sum over all
  2048 times) at the rows of batch tile i. The two write-backs cover each output array, which therefore ends holding
  that expression at every index.
-/
import proofs.«140918_j52716428591263_2_alg».proof.Proof.KiPieces
import proofs.«140918_j52716428591263_2_alg».proof.Proof.Accum
import proofs.«140918_j52716428591263_2_alg».proof.Proof.KiArgs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## Where an input window's block sits in its array -/

section BlockReads

variable {F : FTy → Type} [FloatOps F]
variable (m : (ℓ : Loc nD τ sig) → Buf (Elt F) ℓ)

/-- Where window 0's block sits at point t: block ⌊t/16⌋ of the rows, block t mod 16 of the times, all of the last axis. -/
theorem idx_facts0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

/-- Window 0's block at point t, entry (b, k, d): the array's entry at row 8·⌊t/16⌋ + b, time 128·(t mod 16) + k. -/
theorem iblk0_at (c : Dev nD) (t : Fin cfg0.N) (b : Fin 8) (k : Fin 128) (d : Fin 2048) (r : Fin 16) (s : Fin 2048)
    (hr : r.val = 8 * (t.val / 16) + b.val) (hs : s.val = 128 * (t.val % 16) + k.val) :
    iblk m c 0 t (ix3 b k d) = V m c main_arg2 (ix3 r s d) := by
  obtain ⟨e0, e1, e2⟩ := idx_facts0 t
  unfold iblk
  rw [View.read_apply]
  show V m c main_arg2 (((cfg0.win 0).blk t).view.emb (ix3 b k d)) = V m c main_arg2 (ix3 r s d)
  refine congrArg _ (funext fun a => Fin.ext ?_)
  match a with
  | ⟨0, _⟩ => show win0_0.index t (0 : Fin 3) * 8 + 1 * b.val = r.val; omega
  | ⟨1, _⟩ => show win0_0.index t (1 : Fin 3) * 128 + 1 * k.val = s.val; omega
  | ⟨2, _⟩ => show win0_0.index t (2 : Fin 3) * 2048 + 1 * d.val = d.val; omega

/-- Where window 1's block sits at point t: block ⌊t/16⌋ of the rows, block t mod 16 of the times, all of the last axis. -/
theorem idx_facts1 : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)

/-- Window 1's block at point t, entry (b, k, d): the array's entry at row 8·⌊t/16⌋ + b, time 128·(t mod 16) + k. -/
theorem iblk1_at (c : Dev nD) (t : Fin cfg0.N) (b : Fin 8) (k : Fin 128) (d : Fin 2048) (r : Fin 16) (s : Fin 2048)
    (hr : r.val = 8 * (t.val / 16) + b.val) (hs : s.val = 128 * (t.val % 16) + k.val) :
    iblk m c 1 t (ix3 b k d) = V m c main_arg3 (ix3 r s d) := by
  obtain ⟨e0, e1, e2⟩ := idx_facts1 t
  unfold iblk
  rw [View.read_apply]
  show V m c main_arg3 (((cfg0.win 1).blk t).view.emb (ix3 b k d)) = V m c main_arg3 (ix3 r s d)
  refine congrArg _ (funext fun a => Fin.ext ?_)
  match a with
  | ⟨0, _⟩ => show win0_1.index t (0 : Fin 3) * 8 + 1 * b.val = r.val; omega
  | ⟨1, _⟩ => show win0_1.index t (1 : Fin 3) * 128 + 1 * k.val = s.val; omega
  | ⟨2, _⟩ => show win0_1.index t (2 : Fin 3) * 2048 + 1 * d.val = d.val; omega

/-- Where window 2's block sits at point t: block ⌊t/16⌋ of the rows, block t mod 16 of the times, all of the last axis. -/
theorem idx_facts2 : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, _)

/-- Window 2's block at point t, entry (b, k, d): the array's entry at row 8·⌊t/16⌋ + b, time 128·(t mod 16) + k. -/
theorem iblk2_at (c : Dev nD) (t : Fin cfg0.N) (b : Fin 8) (k : Fin 128) (d : Fin 100) (r : Fin 16) (s : Fin 2048)
    (hr : r.val = 8 * (t.val / 16) + b.val) (hs : s.val = 128 * (t.val % 16) + k.val) :
    iblk m c 2 t (ix3 b k d) = V m c main_arg5 (ix3 r s d) := by
  obtain ⟨e0, e1, e2⟩ := idx_facts2 t
  unfold iblk
  rw [View.read_apply]
  show V m c main_arg5 (((cfg0.win 2).blk t).view.emb (ix3 b k d)) = V m c main_arg5 (ix3 r s d)
  refine congrArg _ (funext fun a => Fin.ext ?_)
  match a with
  | ⟨0, _⟩ => show win0_2.index t (0 : Fin 3) * 8 + 1 * b.val = r.val; omega
  | ⟨1, _⟩ => show win0_2.index t (1 : Fin 3) * 128 + 1 * k.val = s.val; omega
  | ⟨2, _⟩ => show win0_2.index t (2 : Fin 3) * 100 + 1 * d.val = d.val; omega

/-- Where window 3's block sits at point t: block ⌊t/16⌋ of the rows, block t mod 16 of the times, all of the last axis. -/
theorem idx_facts3 : ∀ t : Fin cfg0.N, win0_3.index t (0 : Fin 3) = t.val / 16 ∧ win0_3.index t (1 : Fin 3) = t.val % 16
    ∧ win0_3.index t (2 : Fin 3) = 0 :=
  (by decide +kernel : ∀ t : Fin grid0.N, _)

/-- Window 3's block at point t, entry (b, k, d): the array's entry at row 8·⌊t/16⌋ + b, time 128·(t mod 16) + k. -/
theorem iblk3_at (c : Dev nD) (t : Fin cfg0.N) (b : Fin 8) (k : Fin 128) (d : Fin 100) (r : Fin 16) (s : Fin 2048)
    (hr : r.val = 8 * (t.val / 16) + b.val) (hs : s.val = 128 * (t.val % 16) + k.val) :
    iblk m c 3 t (ix3 b k d) = V m c main_arg6 (ix3 r s d) := by
  obtain ⟨e0, e1, e2⟩ := idx_facts3 t
  unfold iblk
  rw [View.read_apply]
  show V m c main_arg6 (((cfg0.win 3).blk t).view.emb (ix3 b k d)) = V m c main_arg6 (ix3 r s d)
  refine congrArg _ (funext fun a => Fin.ext ?_)
  match a with
  | ⟨0, _⟩ => show win0_3.index t (0 : Fin 3) * 8 + 1 * b.val = r.val; omega
  | ⟨1, _⟩ => show win0_3.index t (1 : Fin 3) * 128 + 1 * k.val = s.val; omega
  | ⟨2, _⟩ => show win0_3.index t (2 : Fin 3) * 100 + 1 * d.val = d.val; omega

/-- Where window 4's block sits at point t: block ⌊t/16⌋ of the rows, block t mod 16 of the times, all of the last axis. -/
theorem idx_facts4 : ∀ t : Fin cfg0.N, win0_4.index t (0 : Fin 3) = t.val / 16 ∧ win0_4.index t (1 : Fin 3) = t.val % 16
    ∧ win0_4.index t (2 : Fin 3) = 0 :=
  (by decide +kernel : ∀ t : Fin grid0.N, _)

/-- Window 4's block at point t, entry (b, k, d): the array's entry at row 8·⌊t/16⌋ + b, time 128·(t mod 16) + k. -/
theorem iblk4_at (c : Dev nD) (t : Fin cfg0.N) (b : Fin 8) (k : Fin 128) (d : Fin 100) (r : Fin 16) (s : Fin 2048)
    (hr : r.val = 8 * (t.val / 16) + b.val) (hs : s.val = 128 * (t.val % 16) + k.val) :
    iblk m c 4 t (ix3 b k d) = V m c main_arg7 (ix3 r s d) := by
  obtain ⟨e0, e1, e2⟩ := idx_facts4 t
  unfold iblk
  rw [View.read_apply]
  show V m c main_arg7 (((cfg0.win 4).blk t).view.emb (ix3 b k d)) = V m c main_arg7 (ix3 r s d)
  refine congrArg _ (funext fun a => Fin.ext ?_)
  match a with
  | ⟨0, _⟩ => show win0_4.index t (0 : Fin 3) * 8 + 1 * b.val = r.val; omega
  | ⟨1, _⟩ => show win0_4.index t (1 : Fin 3) * 128 + 1 * k.val = s.val; omega
  | ⟨2, _⟩ => show win0_4.index t (2 : Fin 3) * 100 + 1 * d.val = d.val; omega

/-- Where window 5's block sits at point t: block ⌊t/16⌋ of the rows, block t mod 16 of the times, all of the last axis. -/
theorem idx_facts5 : ∀ t : Fin cfg0.N, win0_5.index t (0 : Fin 3) = t.val / 16 ∧ win0_5.index t (1 : Fin 3) = t.val % 16
    ∧ win0_5.index t (2 : Fin 3) = 0 :=
  (by decide +kernel : ∀ t : Fin grid0.N, _)

/-- Window 5's block at point t, entry (b, k, d): the array's entry at row 8·⌊t/16⌋ + b, time 128·(t mod 16) + k. -/
theorem iblk5_at (c : Dev nD) (t : Fin cfg0.N) (b : Fin 8) (k : Fin 128) (d : Fin 100) (r : Fin 16) (s : Fin 2048)
    (hr : r.val = 8 * (t.val / 16) + b.val) (hs : s.val = 128 * (t.val % 16) + k.val) :
    iblk m c 5 t (ix3 b k d) = V m c main_arg8 (ix3 r s d) := by
  obtain ⟨e0, e1, e2⟩ := idx_facts5 t
  unfold iblk
  rw [View.read_apply]
  show V m c main_arg8 (((cfg0.win 5).blk t).view.emb (ix3 b k d)) = V m c main_arg8 (ix3 r s d)
  refine congrArg _ (funext fun a => Fin.ext ?_)
  match a with
  | ⟨0, _⟩ => show win0_5.index t (0 : Fin 3) * 8 + 1 * b.val = r.val; omega
  | ⟨1, _⟩ => show win0_5.index t (1 : Fin 3) * 128 + 1 * k.val = s.val; omega
  | ⟨2, _⟩ => show win0_5.index t (2 : Fin 3) * 100 + 1 * d.val = d.val; omega

end BlockReads

/-! ## The accumulators along a batch tile -/

variable (m : (ℓ : Loc nD τ sig) → Buf (Elt Ideal) ℓ)

/-- The five accumulators of a state, as one tuple. -/
def accOf (s : St Ideal) : FVec Ideal S8x2048 .f32 × FVec Ideal S8x2048 .f32 × FVec Ideal S8x100 .f32 × FVec Ideal S8x100 .f32 × FVec Ideal S8x1 .f32 :=
  (s.s0, s.s1, s.s2, s.s3, s.s4)

/-- One time tile's update of the five accumulators from the tile's six input blocks. -/
def stepS (a : FVec Ideal S8x2048 .f32 × FVec Ideal S8x2048 .f32 × FVec Ideal S8x100 .f32 × FVec Ideal S8x100 .f32 × FVec Ideal S8x1 .f32)
    (x0 x1 : FVec Ideal S8x128x2048 .f32) (x2 x3 x4 x5 : FVec Ideal S8x128x100 .f32) : FVec Ideal S8x2048 .f32 × FVec Ideal S8x2048 .f32 × FVec Ideal S8x100 .f32 × FVec Ideal S8x100 .f32 × FVec Ideal S8x1 .f32 :=
  (k0_pay13 (F := Ideal) a.1 x0, k0_pay14 (F := Ideal) a.2.1 x1, k0_pay1 (F := Ideal) a.2.2.1 (k0_pay16 x2 x3),
    k0_pay2 (F := Ideal) (k0_pay15 x2) a.2.2.2.1, k0_pay3 (F := Ideal) x4 x5 a.2.2.2.2)

/-- The first tile's update starts from the zero arrays. -/
def zeroS : FVec Ideal S8x2048 .f32 × FVec Ideal S8x2048 .f32 × FVec Ideal S8x100 .f32 × FVec Ideal S8x100 .f32 × FVec Ideal S8x1 .f32 :=
  (k0_pay8 (F := Ideal), k0_pay9 (F := Ideal), k0_pay10 (F := Ideal), k0_pay11 (F := Ideal), k0_pay12 (F := Ideal))

theorem tuple5_ext {α β γ δ ε : Type} {a a' : α} {b b' : β} {c c' : γ} {d d' : δ} {e e' : ε}
    (ha : a = a') (hb : b = b') (hc : c = c') (hd : d = d') (he : e = e') :
    (a, b, c, d, e) = (a', b', c', d', e') := by
  subst ha hb hc hd he; rfl

theorem accS_zero (X0 X1 : ℕ → FVec Ideal S8x128x2048 .f32) (X2 X3 X4 X5 : ℕ → FVec Ideal S8x128x100 .f32) :
    Accum.accS X0 X1 X2 X3 X4 X5 0 = stepS zeroS (X0 0) (X1 0) (X2 0) (X3 0) (X4 0) (X5 0) := rfl

theorem accS_succ (X0 X1 : ℕ → FVec Ideal S8x128x2048 .f32) (X2 X3 X4 X5 : ℕ → FVec Ideal S8x128x100 .f32) (j : ℕ) :
    Accum.accS X0 X1 X2 X3 X4 X5 (j + 1)
      = stepS (Accum.accS X0 X1 X2 X3 X4 X5 j) (X0 (j + 1)) (X1 (j + 1)) (X2 (j + 1)) (X3 (j + 1)) (X4 (j + 1)) (X5 (j + 1)) := rfl

/-- At a first time tile the accumulators are the update of the zero arrays by the point's blocks. -/
theorem accOf_A (c : Dev nD) (t : Fin cfg0.N) (h0 : t.val % 16 = 0) (h1 : ¬t.val % 16 = 15) :
    accOf (outsAt0 m c t.val t.isLt) = stepS zeroS (iblk m c 0 t) (iblk m c 1 t) (iblk m c 2 t) (iblk m c 3 t) (iblk m c 4 t) (iblk m c 5 t) := by
  have e := outsAt0_A m c t h0 h1
  have es0 := congrArg St.s0 e
  have es1 := congrArg St.s1 e
  have es2 := congrArg St.s2 e
  have es3 := congrArg St.s3 e
  have es4 := congrArg St.s4 e
  dsimp only at es0 es1 es2 es3 es4
  rw [sout0_A_0_eq] at es0
  rw [sout0_A_1_eq] at es1
  rw [sout0_A_2_eq] at es2
  rw [sout0_A_3_eq] at es3
  rw [sout0_A_4_eq] at es4
  exact tuple5_ext es0 es1 es2 es3 es4

/-- At a middle time tile they are the update of what the point before left. -/
theorem accOf_B (c : Dev nD) (t : Fin cfg0.N) (h0 : ¬t.val % 16 = 0) (h1 : ¬t.val % 16 = 15) :
    accOf (outsAt0 m c t.val t.isLt) = stepS (accOf (outsAt0 m c (t.val - 1) (Nat.lt_of_le_of_lt (Nat.sub_le _ _) t.isLt))) (iblk m c 0 t) (iblk m c 1 t) (iblk m c 2 t) (iblk m c 3 t) (iblk m c 4 t) (iblk m c 5 t) := by
  have e := outsAt0_B m c t h0 h1
  have es0 := congrArg St.s0 e
  have es1 := congrArg St.s1 e
  have es2 := congrArg St.s2 e
  have es3 := congrArg St.s3 e
  have es4 := congrArg St.s4 e
  dsimp only at es0 es1 es2 es3 es4
  rw [sout0_B_0_eq] at es0
  rw [sout0_B_1_eq] at es1
  rw [sout0_B_2_eq] at es2
  rw [sout0_B_3_eq] at es3
  rw [sout0_B_4_eq] at es4
  exact tuple5_ext es0 es1 es2 es3 es4

/-- At a last time tile likewise … -/
theorem accOf_C (c : Dev nD) (t : Fin cfg0.N) (h0 : ¬t.val % 16 = 0) (h1 : t.val % 16 = 15) :
    accOf (outsAt0 m c t.val t.isLt) = stepS (accOf (outsAt0 m c (t.val - 1) (Nat.lt_of_le_of_lt (Nat.sub_le _ _) t.isLt))) (iblk m c 0 t) (iblk m c 1 t) (iblk m c 2 t) (iblk m c 3 t) (iblk m c 4 t) (iblk m c 5 t) := by
  have e := outsAt0_C m c t h0 h1
  have es0 := congrArg St.s0 e
  have es1 := congrArg St.s1 e
  have es2 := congrArg St.s2 e
  have es3 := congrArg St.s3 e
  have es4 := congrArg St.s4 e
  dsimp only at es0 es1 es2 es3 es4
  rw [sout0_C_0_eq] at es0
  rw [sout0_C_1_eq] at es1
  rw [sout0_C_2_eq] at es2
  rw [sout0_C_3_eq] at es3
  rw [sout0_C_4_eq] at es4
  exact tuple5_ext es0 es1 es2 es3 es4

/-- … and each output buffer holds its output function of the accumulator as just updated. -/
theorem outs_C (c : Dev nD) (t : Fin cfg0.N) (h0 : ¬t.val % 16 = 0) (h1 : t.val % 16 = 15) :
    (outsAt0 m c t.val t.isLt).o6 = k0_pay4 (F := Ideal) (outsAt0 m c t.val t.isLt).s0
      ∧ (outsAt0 m c t.val t.isLt).o7 = k0_pay5 (F := Ideal) (outsAt0 m c t.val t.isLt).s1
      ∧ (outsAt0 m c t.val t.isLt).o8 = k0_pay6 (F := Ideal) (outsAt0 m c t.val t.isLt).s2
      ∧ (outsAt0 m c t.val t.isLt).o9 = k0_pay7 (F := Ideal) (outsAt0 m c t.val t.isLt).s3
      ∧ (outsAt0 m c t.val t.isLt).o10 = (outsAt0 m c t.val t.isLt).s4 := by
  have e := outsAt0_C m c t h0 h1
  have es0 := congrArg St.s0 e
  have es1 := congrArg St.s1 e
  have es2 := congrArg St.s2 e
  have es3 := congrArg St.s3 e
  have es4 := congrArg St.s4 e
  have eo6 := congrArg St.o6 e
  have eo7 := congrArg St.o7 e
  have eo8 := congrArg St.o8 e
  have eo9 := congrArg St.o9 e
  have eo10 := congrArg St.o10 e
  dsimp only at es0 es1 es2 es3 es4 eo6 eo7 eo8 eo9 eo10
  rw [sout0_C_0_eq] at es0
  rw [sout0_C_1_eq] at es1
  rw [sout0_C_2_eq] at es2
  rw [sout0_C_3_eq] at es3
  rw [sout0_C_4_eq] at es4
  rw [out0_C_6_eq] at eo6
  rw [out0_C_7_eq] at eo7
  rw [out0_C_8_eq] at eo8
  rw [out0_C_9_eq] at eo9
  rw [out0_C_10_eq] at eo10
  exact ⟨eo6.trans (congrArg (k0_pay4 (F := Ideal)) es0.symm), eo7.trans (congrArg (k0_pay5 (F := Ideal)) es1.symm),
    eo8.trans (congrArg (k0_pay6 (F := Ideal)) es2.symm), eo9.trans (congrArg (k0_pay7 (F := Ideal)) es3.symm), eo10.trans es4.symm⟩

/-- The grid point with number n (taken modulo the 32 points). -/
def pt (n : ℕ) : Fin cfg0.N := ⟨n % 32, lt_of_lt_of_eq (Nat.mod_lt _ (by decide)) N_0.symm⟩

theorem pt_val {n : ℕ} (h : n < 32) : (pt n).val = n := Nat.mod_eq_of_lt h

/-- The six input blocks of batch tile i at time tile j. -/
def X0 (c : Dev nD) (i : Fin 2) (j : ℕ) : FVec Ideal S8x128x2048 .f32 := iblk m c 0 (pt (16 * i.val + j))
def X1 (c : Dev nD) (i : Fin 2) (j : ℕ) : FVec Ideal S8x128x2048 .f32 := iblk m c 1 (pt (16 * i.val + j))
def X2 (c : Dev nD) (i : Fin 2) (j : ℕ) : FVec Ideal S8x128x100 .f32 := iblk m c 2 (pt (16 * i.val + j))
def X3 (c : Dev nD) (i : Fin 2) (j : ℕ) : FVec Ideal S8x128x100 .f32 := iblk m c 3 (pt (16 * i.val + j))
def X4 (c : Dev nD) (i : Fin 2) (j : ℕ) : FVec Ideal S8x128x100 .f32 := iblk m c 4 (pt (16 * i.val + j))
def X5 (c : Dev nD) (i : Fin 2) (j : ℕ) : FVec Ideal S8x128x100 .f32 := iblk m c 5 (pt (16 * i.val + j))

/-- THE INVARIANT: after time tile j of batch tile i the accumulators are the j-th accumulated state of that batch
    tile's blocks. -/
theorem acc_inv (c : Dev nD) (i : Fin 2) : ∀ (j : ℕ), j < 16 → ∀ t : Fin cfg0.N, t.val = 16 * i.val + j →
    accOf (outsAt0 m c t.val t.isLt) = Accum.accS (X0 m c i) (X1 m c i) (X2 m c i) (X3 m c i) (X4 m c i) (X5 m c i) j
  | 0, _, t, ht => by
    have hi := i.isLt
    have et : t = pt (16 * i.val + 0) := Fin.ext (by rw [pt_val (by omega)]; exact ht)
    rw [accOf_A m c t (by omega) (by omega), accS_zero, et]
    rfl
  | j + 1, hj, t, ht => by
    have hi := i.isLt
    have et : t = pt (16 * i.val + (j + 1)) := Fin.ext (by rw [pt_val (by omega)]; exact ht)
    have ih : accOf (outsAt0 m c (t.val - 1) (Nat.lt_of_le_of_lt (Nat.sub_le _ _) t.isLt)) = Accum.accS (X0 m c i) (X1 m c i) (X2 m c i) (X3 m c i) (X4 m c i) (X5 m c i) j :=
      acc_inv c i j (by omega) ⟨t.val - 1, Nat.lt_of_le_of_lt (Nat.sub_le _ _) t.isLt⟩ (by show t.val - 1 = _; omega)
    have hstep : accOf (outsAt0 m c t.val t.isLt) = stepS (accOf (outsAt0 m c (t.val - 1) (Nat.lt_of_le_of_lt (Nat.sub_le _ _) t.isLt))) (iblk m c 0 t) (iblk m c 1 t) (iblk m c 2 t) (iblk m c 3 t) (iblk m c 4 t) (iblk m c 5 t) := by
      by_cases h1 : t.val % 16 = 15
      · exact accOf_C m c t (by omega) h1
      · exact accOf_B m c t (by omega) h1
    rw [hstep, ih, accS_succ, et]
    rfl

/-- The six staged argument arrays as the region finds them, as arrays of extended reals. -/
abbrev arr2 (c : Dev nD) : FVec Ideal S16x2048x2048 .f32 := V m c main_arg2
abbrev arr3 (c : Dev nD) : FVec Ideal S16x2048x2048 .f32 := V m c main_arg3
abbrev arr5 (c : Dev nD) : FVec Ideal S16x2048x100 .f32 := V m c main_arg5
abbrev arr6 (c : Dev nD) : FVec Ideal S16x2048x100 .f32 := V m c main_arg6
abbrev arr7 (c : Dev nD) : FVec Ideal S16x2048x100 .f32 := V m c main_arg7
abbrev arr8 (c : Dev nD) : FVec Ideal S16x2048x100 .f32 := V m c main_arg8

/-! ## From the blocks to the arrays -/

/-- Batch tile i's block 0 at time tile j holds the array's rows 8i … 8i+7 at the times 128j … 128j+127. -/
theorem hX0 (c : Dev nD) (i : Fin 2) : ∀ (j : Fin 16) (b : Fin 8) (k : Fin 128) (d : Fin 2048),
    X0 m c i j.val (ix3 b k d) = V m c main_arg2 (ix3 (Accum.row i b) (Accum.tm j k) d) := fun j b k d => by
  have hi := i.isLt
  have hj := j.isLt
  have hv : (pt (16 * i.val + j.val)).val = 16 * i.val + j.val := pt_val (by omega)
  exact iblk0_at m c (pt (16 * i.val + j.val)) b k d (Accum.row i b) (Accum.tm j k)
    (by rw [hv]; show 8 * i.val + b.val = _; omega) (by rw [hv]; show 128 * j.val + k.val = _; omega)

/-- Batch tile i's block 1 at time tile j holds the array's rows 8i … 8i+7 at the times 128j … 128j+127. -/
theorem hX1 (c : Dev nD) (i : Fin 2) : ∀ (j : Fin 16) (b : Fin 8) (k : Fin 128) (d : Fin 2048),
    X1 m c i j.val (ix3 b k d) = V m c main_arg3 (ix3 (Accum.row i b) (Accum.tm j k) d) := fun j b k d => by
  have hi := i.isLt
  have hj := j.isLt
  have hv : (pt (16 * i.val + j.val)).val = 16 * i.val + j.val := pt_val (by omega)
  exact iblk1_at m c (pt (16 * i.val + j.val)) b k d (Accum.row i b) (Accum.tm j k)
    (by rw [hv]; show 8 * i.val + b.val = _; omega) (by rw [hv]; show 128 * j.val + k.val = _; omega)

/-- Batch tile i's block 2 at time tile j holds the array's rows 8i … 8i+7 at the times 128j … 128j+127. -/
theorem hX2 (c : Dev nD) (i : Fin 2) : ∀ (j : Fin 16) (b : Fin 8) (k : Fin 128) (d : Fin 100),
    X2 m c i j.val (ix3 b k d) = V m c main_arg5 (ix3 (Accum.row i b) (Accum.tm j k) d) := fun j b k d => by
  have hi := i.isLt
  have hj := j.isLt
  have hv : (pt (16 * i.val + j.val)).val = 16 * i.val + j.val := pt_val (by omega)
  exact iblk2_at m c (pt (16 * i.val + j.val)) b k d (Accum.row i b) (Accum.tm j k)
    (by rw [hv]; show 8 * i.val + b.val = _; omega) (by rw [hv]; show 128 * j.val + k.val = _; omega)

/-- Batch tile i's block 3 at time tile j holds the array's rows 8i … 8i+7 at the times 128j … 128j+127. -/
theorem hX3 (c : Dev nD) (i : Fin 2) : ∀ (j : Fin 16) (b : Fin 8) (k : Fin 128) (d : Fin 100),
    X3 m c i j.val (ix3 b k d) = V m c main_arg6 (ix3 (Accum.row i b) (Accum.tm j k) d) := fun j b k d => by
  have hi := i.isLt
  have hj := j.isLt
  have hv : (pt (16 * i.val + j.val)).val = 16 * i.val + j.val := pt_val (by omega)
  exact iblk3_at m c (pt (16 * i.val + j.val)) b k d (Accum.row i b) (Accum.tm j k)
    (by rw [hv]; show 8 * i.val + b.val = _; omega) (by rw [hv]; show 128 * j.val + k.val = _; omega)

/-- Batch tile i's block 4 at time tile j holds the array's rows 8i … 8i+7 at the times 128j … 128j+127. -/
theorem hX4 (c : Dev nD) (i : Fin 2) : ∀ (j : Fin 16) (b : Fin 8) (k : Fin 128) (d : Fin 100),
    X4 m c i j.val (ix3 b k d) = V m c main_arg7 (ix3 (Accum.row i b) (Accum.tm j k) d) := fun j b k d => by
  have hi := i.isLt
  have hj := j.isLt
  have hv : (pt (16 * i.val + j.val)).val = 16 * i.val + j.val := pt_val (by omega)
  exact iblk4_at m c (pt (16 * i.val + j.val)) b k d (Accum.row i b) (Accum.tm j k)
    (by rw [hv]; show 8 * i.val + b.val = _; omega) (by rw [hv]; show 128 * j.val + k.val = _; omega)

/-- Batch tile i's block 5 at time tile j holds the array's rows 8i … 8i+7 at the times 128j … 128j+127. -/
theorem hX5 (c : Dev nD) (i : Fin 2) : ∀ (j : Fin 16) (b : Fin 8) (k : Fin 128) (d : Fin 100),
    X5 m c i j.val (ix3 b k d) = V m c main_arg8 (ix3 (Accum.row i b) (Accum.tm j k) d) := fun j b k d => by
  have hi := i.isLt
  have hj := j.isLt
  have hv : (pt (16 * i.val + j.val)).val = 16 * i.val + j.val := pt_val (by omega)
  exact iblk5_at m c (pt (16 * i.val + j.val)) b k d (Accum.row i b) (Accum.tm j k)
    (by rw [hv]; show 8 * i.val + b.val = _; omega) (by rw [hv]; show 128 * j.val + k.val = _; omega)

/-! ### Output array 6 -/

/-- Entry b of output array 6, as a function of the whole argument arrays. -/
def out6 (A2 : FVec Ideal S16x2048x2048 .f32) (b : Fin 16) : EReal :=
  Ideal.sqrt (∑ d : Fin 2048, Ideal.div (∑ t : Fin 2048, A2 (ix3 b t d)) (Ideal.ofBits .f32 0x45000000#32) * Ideal.div (∑ t : Fin 2048, A2 (ix3 b t d)) (Ideal.ofBits .f32 0x45000000#32))

/-- Output array 6 as one function of its index. -/
def G6 (A2 : FVec Ideal S16x2048x2048 .f32) : S16x1.Idx → EReal := fun i => out6 A2 (i 0)

/-- Where output window 6's block sits at point t: block ⌊t/16⌋ of the rows, all of the second axis. -/
theorem idxo_facts6 : ∀ t : Fin cfg0.N, win0_6.index t (0 : Fin 2) = t.val / 16 ∧ win0_6.index t (1 : Fin 2) = 0 :=
  (by decide +kernel : ∀ t : Fin grid0.N, _)

/-- What a last time tile writes back is its block of that function of the argument arrays. -/
theorem flushed6_eq (c : Dev nD) (t : Fin cfg0.N) (hf : (cfg0.win 6).flush t = true) :
    (dats m 0 c).flushed 6 t = ((cfg0.win 6).blk t).view.read (Elt Ideal) (G6 (V m c main_arg2)) := by
  have h15 : t.val % 16 = 15 := (flush0_6 t).mp hf
  have hN : t.val < 32 := lt_of_lt_of_eq t.isLt N_0
  obtain ⟨q0, q1⟩ := idxo_facts6 t
  obtain ⟨i, ht⟩ : ∃ i : Fin 2, t.val = 16 * i.val + 15 :=
    ⟨⟨t.val / 16, by omega⟩, by show t.val = 16 * (t.val / 16) + 15; omega⟩
  have hi := i.isLt
  have hacc : (outsAt0 m c t.val t.isLt).s0 = (Accum.accS (X0 m c i) (X1 m c i) (X2 m c i) (X3 m c i) (X4 m c i) (X5 m c i) 15).1 :=
    congrArg (fun a => a.1) (acc_inv m c i 15 (by omega) t ht)
  have ho := (outs_C m c t (by omega) h15).1
  have key : ∀ (b : Fin 8) (r : Fin 16), r.val = 8 * i.val + b.val →
      (outsAt0 m c t.val t.isLt).o6 (ix2 b (0 : Fin 1)) = out6 (V m c main_arg2) r := by
    intro b r hr
    obtain rfl : r = Accum.row i b := Fin.ext hr
    rw [ho, hacc]
    exact Accum.fin_act (X0 m c i) (X1 m c i) (X2 m c i) (X3 m c i) (X4 m c i) (X5 m c i) i (V m c main_arg2) (hX0 m c i) b
  show (cfg0.win 6).cut (grid0.coords t) ((dats m 0 c).after 6 t) = _
  rw [after0_6]
  funext y
  obtain ⟨b, u, rfl⟩ : ∃ (b : Fin 8) (u : Fin 1), y = ix2 b u := ⟨y 0, y 1, eq_ix2 y⟩
  obtain rfl : u = 0 := Subsingleton.elim _ _
  rw [View.read_apply]
  unfold G6
  exact key b _ (by show win0_6.index t (0 : Fin 2) * 8 + 1 * b.val = _; omega)

/-- An index of the array is in point t's block exactly when each coordinate is in the block's range on its axis. -/
theorem mem_blk6 (t : Fin cfg0.N) (i : S16x1.Idx) :
    i ∈ ((cfg0.win 6).blk t).view.set ↔ ∀ a : Fin 2, win0_6.index t a * S8x1.size a ≤ (i a).val
      ∧ (i a).val < win0_6.index t a * S8x1.size a + S8x1.size a := by
  show i ∈ ((View.whole main_v29_0).slice (win0_6.rect t)).set ↔ _
  rw [View.set_slice_whole, Rect.mem_set_unit]
  exact Iff.rfl

/-- Every index of the array is in the block of the last time tile of its batch tile. -/
theorem cover6 (i : S16x1.Idx) :
    ∃ t : Fin cfg0.N, (cfg0.win 6).flush t = true ∧ i ∈ ((cfg0.win 6).blk t).view.set := by
  have h0 : (i 0).val < 16 := idx2_lt0 i
  have h1 : (i 1).val < 1 := idx2_lt1 i
  have hv : (pt (16 * ((i 0).val / 8) + 15)).val = 16 * ((i 0).val / 8) + 15 := pt_val (by omega)
  obtain ⟨q0, q1⟩ := idxo_facts6 (pt (16 * ((i 0).val / 8) + 15))
  rw [hv] at q0
  refine ⟨pt (16 * ((i 0).val / 8) + 15), (flush0_6 _).mpr (by rw [hv]; omega), ?_⟩
  rw [mem_blk6]
  intro a
  match a with
  | ⟨0, _⟩ =>
    show win0_6.index _ (0 : Fin 2) * 8 ≤ (i 0).val ∧ (i 0).val < win0_6.index _ (0 : Fin 2) * 8 + 8
    omega
  | ⟨1, _⟩ =>
    show win0_6.index _ (1 : Fin 2) * 1 ≤ (i 1).val ∧ (i 1).val < win0_6.index _ (1 : Fin 2) * 1 + 1
    omega

/-- Output array 6 after the run, as one function of the argument arrays. -/
theorem final6 (c : Dev nD) : (dats m 0 c).arrAt 6 cfg0.N = G6 (V m c main_arg2) :=
  (dats m 0 c).arrAt_eq_of_cover 6 (G6 (V m c main_arg2)) (flushed6_eq m c) cover6

/-- Output array 6 after the run, entry by entry. -/
theorem final6_at (c : Dev nD) (b : Fin 16) :
    (dats m 0 c).arrAt 6 cfg0.N (ix2 b (0 : Fin 1))
      = (Ideal.sqrt (∑ d : Fin 2048, Ideal.div (∑ t : Fin 2048, arr2 m c (ix3 b t d)) (Ideal.ofBits .f32 0x45000000#32) * Ideal.div (∑ t : Fin 2048, arr2 m c (ix3 b t d)) (Ideal.ofBits .f32 0x45000000#32)) : EReal) := by
  rw [final6]
  rfl

/-! ### Output array 7 -/

/-- Entry b of output array 7, as a function of the whole argument arrays. -/
def out7 (A3 : FVec Ideal S16x2048x2048 .f32) (b : Fin 16) : EReal :=
  Ideal.sqrt (∑ d : Fin 2048, Ideal.div (∑ t : Fin 2048, A3 (ix3 b t d)) (Ideal.ofBits .f32 0x45000000#32) * Ideal.div (∑ t : Fin 2048, A3 (ix3 b t d)) (Ideal.ofBits .f32 0x45000000#32))

/-- Output array 7 as one function of its index. -/
def G7 (A3 : FVec Ideal S16x2048x2048 .f32) : S16x1.Idx → EReal := fun i => out7 A3 (i 0)

/-- Where output window 7's block sits at point t: block ⌊t/16⌋ of the rows, all of the second axis. -/
theorem idxo_facts7 : ∀ t : Fin cfg0.N, win0_7.index t (0 : Fin 2) = t.val / 16 ∧ win0_7.index t (1 : Fin 2) = 0 :=
  (by decide +kernel : ∀ t : Fin grid0.N, _)

/-- What a last time tile writes back is its block of that function of the argument arrays. -/
theorem flushed7_eq (c : Dev nD) (t : Fin cfg0.N) (hf : (cfg0.win 7).flush t = true) :
    (dats m 0 c).flushed 7 t = ((cfg0.win 7).blk t).view.read (Elt Ideal) (G7 (V m c main_arg3)) := by
  have h15 : t.val % 16 = 15 := (flush0_7 t).mp hf
  have hN : t.val < 32 := lt_of_lt_of_eq t.isLt N_0
  obtain ⟨q0, q1⟩ := idxo_facts7 t
  obtain ⟨i, ht⟩ : ∃ i : Fin 2, t.val = 16 * i.val + 15 :=
    ⟨⟨t.val / 16, by omega⟩, by show t.val = 16 * (t.val / 16) + 15; omega⟩
  have hi := i.isLt
  have hacc : (outsAt0 m c t.val t.isLt).s1 = (Accum.accS (X0 m c i) (X1 m c i) (X2 m c i) (X3 m c i) (X4 m c i) (X5 m c i) 15).2.1 :=
    congrArg (fun a => a.2.1) (acc_inv m c i 15 (by omega) t ht)
  have ho := (outs_C m c t (by omega) h15).2.1
  have key : ∀ (b : Fin 8) (r : Fin 16), r.val = 8 * i.val + b.val →
      (outsAt0 m c t.val t.isLt).o7 (ix2 b (0 : Fin 1)) = out7 (V m c main_arg3) r := by
    intro b r hr
    obtain rfl : r = Accum.row i b := Fin.ext hr
    rw [ho, hacc]
    exact Accum.fin_bkg (X0 m c i) (X1 m c i) (X2 m c i) (X3 m c i) (X4 m c i) (X5 m c i) i (V m c main_arg3) (hX1 m c i) b
  show (cfg0.win 7).cut (grid0.coords t) ((dats m 0 c).after 7 t) = _
  rw [after0_7]
  funext y
  obtain ⟨b, u, rfl⟩ : ∃ (b : Fin 8) (u : Fin 1), y = ix2 b u := ⟨y 0, y 1, eq_ix2 y⟩
  obtain rfl : u = 0 := Subsingleton.elim _ _
  rw [View.read_apply]
  unfold G7
  exact key b _ (by show win0_7.index t (0 : Fin 2) * 8 + 1 * b.val = _; omega)

/-- An index of the array is in point t's block exactly when each coordinate is in the block's range on its axis. -/
theorem mem_blk7 (t : Fin cfg0.N) (i : S16x1.Idx) :
    i ∈ ((cfg0.win 7).blk t).view.set ↔ ∀ a : Fin 2, win0_7.index t a * S8x1.size a ≤ (i a).val
      ∧ (i a).val < win0_7.index t a * S8x1.size a + S8x1.size a := by
  show i ∈ ((View.whole main_v29_1).slice (win0_7.rect t)).set ↔ _
  rw [View.set_slice_whole, Rect.mem_set_unit]
  exact Iff.rfl

/-- Every index of the array is in the block of the last time tile of its batch tile. -/
theorem cover7 (i : S16x1.Idx) :
    ∃ t : Fin cfg0.N, (cfg0.win 7).flush t = true ∧ i ∈ ((cfg0.win 7).blk t).view.set := by
  have h0 : (i 0).val < 16 := idx2_lt0 i
  have h1 : (i 1).val < 1 := idx2_lt1 i
  have hv : (pt (16 * ((i 0).val / 8) + 15)).val = 16 * ((i 0).val / 8) + 15 := pt_val (by omega)
  obtain ⟨q0, q1⟩ := idxo_facts7 (pt (16 * ((i 0).val / 8) + 15))
  rw [hv] at q0
  refine ⟨pt (16 * ((i 0).val / 8) + 15), (flush0_7 _).mpr (by rw [hv]; omega), ?_⟩
  rw [mem_blk7]
  intro a
  match a with
  | ⟨0, _⟩ =>
    show win0_7.index _ (0 : Fin 2) * 8 ≤ (i 0).val ∧ (i 0).val < win0_7.index _ (0 : Fin 2) * 8 + 8
    omega
  | ⟨1, _⟩ =>
    show win0_7.index _ (1 : Fin 2) * 1 ≤ (i 1).val ∧ (i 1).val < win0_7.index _ (1 : Fin 2) * 1 + 1
    omega

/-- Output array 7 after the run, as one function of the argument arrays. -/
theorem final7 (c : Dev nD) : (dats m 0 c).arrAt 7 cfg0.N = G7 (V m c main_arg3) :=
  (dats m 0 c).arrAt_eq_of_cover 7 (G7 (V m c main_arg3)) (flushed7_eq m c) cover7

/-- Output array 7 after the run, entry by entry. -/
theorem final7_at (c : Dev nD) (b : Fin 16) :
    (dats m 0 c).arrAt 7 cfg0.N (ix2 b (0 : Fin 1))
      = (Ideal.sqrt (∑ d : Fin 2048, Ideal.div (∑ t : Fin 2048, arr3 m c (ix3 b t d)) (Ideal.ofBits .f32 0x45000000#32) * Ideal.div (∑ t : Fin 2048, arr3 m c (ix3 b t d)) (Ideal.ofBits .f32 0x45000000#32)) : EReal) := by
  rw [final7]
  rfl

/-! ### Output array 8 -/

/-- Entry (b, c') of output array 8, as a function of the whole argument arrays. -/
def out8 (A5 A6 : FVec Ideal S16x2048x100 .f32) (b : Fin 16) (c' : Fin 100) : EReal :=
  Ideal.sqrt (∑ t : Fin 2048, (A6 (ix3 b t c') - Accum.msk (A5 (ix3 b t c'))) * (A6 (ix3 b t c') - Accum.msk (A5 (ix3 b t c'))))

/-- Output array 8 as one function of its index. -/
def G8 (A5 A6 : FVec Ideal S16x2048x100 .f32) : S16x100.Idx → EReal := fun i => out8 A5 A6 (i 0) (i 1)

/-- Where output window 8's block sits at point t: block ⌊t/16⌋ of the rows, all of the second axis. -/
theorem idxo_facts8 : ∀ t : Fin cfg0.N, win0_8.index t (0 : Fin 2) = t.val / 16 ∧ win0_8.index t (1 : Fin 2) = 0 :=
  (by decide +kernel : ∀ t : Fin grid0.N, _)

/-- What a last time tile writes back is its block of that function of the argument arrays. -/
theorem flushed8_eq (c : Dev nD) (t : Fin cfg0.N) (hf : (cfg0.win 8).flush t = true) :
    (dats m 0 c).flushed 8 t = ((cfg0.win 8).blk t).view.read (Elt Ideal) (G8 (V m c main_arg5) (V m c main_arg6)) := by
  have h15 : t.val % 16 = 15 := (flush0_8 t).mp hf
  have hN : t.val < 32 := lt_of_lt_of_eq t.isLt N_0
  obtain ⟨q0, q1⟩ := idxo_facts8 t
  obtain ⟨i, ht⟩ : ∃ i : Fin 2, t.val = 16 * i.val + 15 :=
    ⟨⟨t.val / 16, by omega⟩, by show t.val = 16 * (t.val / 16) + 15; omega⟩
  have hi := i.isLt
  have hacc : (outsAt0 m c t.val t.isLt).s2 = (Accum.accS (X0 m c i) (X1 m c i) (X2 m c i) (X3 m c i) (X4 m c i) (X5 m c i) 15).2.2.1 :=
    congrArg (fun a => a.2.2.1) (acc_inv m c i 15 (by omega) t ht)
  have ho := (outs_C m c t (by omega) h15).2.2.1
  have key : ∀ (b : Fin 8) (c' : Fin 100) (r : Fin 16) (s : Fin 100), r.val = 8 * i.val + b.val → s.val = c'.val →
      (outsAt0 m c t.val t.isLt).o8 (ix2 b c') = out8 (V m c main_arg5) (V m c main_arg6) r s := by
    intro b c' r s hr hs
    obtain rfl : r = Accum.row i b := Fin.ext hr
    obtain rfl : c' = s := Fin.ext hs.symm
    rw [ho, hacc]
    exact Accum.fin_norm (X0 m c i) (X1 m c i) (X2 m c i) (X3 m c i) (X4 m c i) (X5 m c i) i (V m c main_arg5) (V m c main_arg6) (hX2 m c i) (hX3 m c i) b c'
  show (cfg0.win 8).cut (grid0.coords t) ((dats m 0 c).after 8 t) = _
  rw [after0_8]
  funext y
  obtain ⟨b, c', rfl⟩ : ∃ (b : Fin 8) (c' : Fin 100), y = ix2 b c' := ⟨y 0, y 1, eq_ix2 y⟩
  rw [View.read_apply]
  unfold G8
  exact key b c' _ _ (by show win0_8.index t (0 : Fin 2) * 8 + 1 * b.val = _; omega)
    (by show win0_8.index t (1 : Fin 2) * 100 + 1 * c'.val = _; omega)

/-- An index of the array is in point t's block exactly when each coordinate is in the block's range on its axis. -/
theorem mem_blk8 (t : Fin cfg0.N) (i : S16x100.Idx) :
    i ∈ ((cfg0.win 8).blk t).view.set ↔ ∀ a : Fin 2, win0_8.index t a * S8x100.size a ≤ (i a).val
      ∧ (i a).val < win0_8.index t a * S8x100.size a + S8x100.size a := by
  show i ∈ ((View.whole main_v29_2).slice (win0_8.rect t)).set ↔ _
  rw [View.set_slice_whole, Rect.mem_set_unit]
  exact Iff.rfl

/-- Every index of the array is in the block of the last time tile of its batch tile. -/
theorem cover8 (i : S16x100.Idx) :
    ∃ t : Fin cfg0.N, (cfg0.win 8).flush t = true ∧ i ∈ ((cfg0.win 8).blk t).view.set := by
  have h0 : (i 0).val < 16 := idx2_lt0 i
  have h1 : (i 1).val < 100 := idx2_lt1 i
  have hv : (pt (16 * ((i 0).val / 8) + 15)).val = 16 * ((i 0).val / 8) + 15 := pt_val (by omega)
  obtain ⟨q0, q1⟩ := idxo_facts8 (pt (16 * ((i 0).val / 8) + 15))
  rw [hv] at q0
  refine ⟨pt (16 * ((i 0).val / 8) + 15), (flush0_8 _).mpr (by rw [hv]; omega), ?_⟩
  rw [mem_blk8]
  intro a
  match a with
  | ⟨0, _⟩ =>
    show win0_8.index _ (0 : Fin 2) * 8 ≤ (i 0).val ∧ (i 0).val < win0_8.index _ (0 : Fin 2) * 8 + 8
    omega
  | ⟨1, _⟩ =>
    show win0_8.index _ (1 : Fin 2) * 100 ≤ (i 1).val ∧ (i 1).val < win0_8.index _ (1 : Fin 2) * 100 + 100
    omega

/-- Output array 8 after the run, as one function of the argument arrays. -/
theorem final8 (c : Dev nD) : (dats m 0 c).arrAt 8 cfg0.N = G8 (V m c main_arg5) (V m c main_arg6) :=
  (dats m 0 c).arrAt_eq_of_cover 8 (G8 (V m c main_arg5) (V m c main_arg6)) (flushed8_eq m c) cover8

/-- Output array 8 after the run, entry by entry. -/
theorem final8_at (c : Dev nD) (b : Fin 16) (c' : Fin 100) :
    (dats m 0 c).arrAt 8 cfg0.N (ix2 b c')
      = (Ideal.sqrt (∑ t : Fin 2048, (arr6 m c (ix3 b t c') - Accum.msk (arr5 m c (ix3 b t c'))) * (arr6 m c (ix3 b t c') - Accum.msk (arr5 m c (ix3 b t c')))) : EReal) := by
  rw [final8]
  rfl

/-! ### Output array 9 -/

/-- Entry (b, c') of output array 9, as a function of the whole argument arrays. -/
def out9 (A5 : FVec Ideal S16x2048x100 .f32) (b : Fin 16) (c' : Fin 100) : EReal :=
  if (0 : EReal) < ∑ t : Fin 2048, Accum.msk (A5 (ix3 b t c')) then (1 : EReal) else 0

/-- Output array 9 as one function of its index. -/
def G9 (A5 : FVec Ideal S16x2048x100 .f32) : S16x100.Idx → EReal := fun i => out9 A5 (i 0) (i 1)

/-- Where output window 9's block sits at point t: block ⌊t/16⌋ of the rows, all of the second axis. -/
theorem idxo_facts9 : ∀ t : Fin cfg0.N, win0_9.index t (0 : Fin 2) = t.val / 16 ∧ win0_9.index t (1 : Fin 2) = 0 :=
  (by decide +kernel : ∀ t : Fin grid0.N, _)

/-- What a last time tile writes back is its block of that function of the argument arrays. -/
theorem flushed9_eq (c : Dev nD) (t : Fin cfg0.N) (hf : (cfg0.win 9).flush t = true) :
    (dats m 0 c).flushed 9 t = ((cfg0.win 9).blk t).view.read (Elt Ideal) (G9 (V m c main_arg5)) := by
  have h15 : t.val % 16 = 15 := (flush0_9 t).mp hf
  have hN : t.val < 32 := lt_of_lt_of_eq t.isLt N_0
  obtain ⟨q0, q1⟩ := idxo_facts9 t
  obtain ⟨i, ht⟩ : ∃ i : Fin 2, t.val = 16 * i.val + 15 :=
    ⟨⟨t.val / 16, by omega⟩, by show t.val = 16 * (t.val / 16) + 15; omega⟩
  have hi := i.isLt
  have hacc : (outsAt0 m c t.val t.isLt).s3 = (Accum.accS (X0 m c i) (X1 m c i) (X2 m c i) (X3 m c i) (X4 m c i) (X5 m c i) 15).2.2.2.1 :=
    congrArg (fun a => a.2.2.2.1) (acc_inv m c i 15 (by omega) t ht)
  have ho := (outs_C m c t (by omega) h15).2.2.2.1
  have key : ∀ (b : Fin 8) (c' : Fin 100) (r : Fin 16) (s : Fin 100), r.val = 8 * i.val + b.val → s.val = c'.val →
      (outsAt0 m c t.val t.isLt).o9 (ix2 b c') = out9 (V m c main_arg5) r s := by
    intro b c' r s hr hs
    obtain rfl : r = Accum.row i b := Fin.ext hr
    obtain rfl : c' = s := Fin.ext hs.symm
    rw [ho, hacc]
    exact Accum.fin_valid (X0 m c i) (X1 m c i) (X2 m c i) (X3 m c i) (X4 m c i) (X5 m c i) i (V m c main_arg5) (hX2 m c i) b c'
  show (cfg0.win 9).cut (grid0.coords t) ((dats m 0 c).after 9 t) = _
  rw [after0_9]
  funext y
  obtain ⟨b, c', rfl⟩ : ∃ (b : Fin 8) (c' : Fin 100), y = ix2 b c' := ⟨y 0, y 1, eq_ix2 y⟩
  rw [View.read_apply]
  unfold G9
  exact key b c' _ _ (by show win0_9.index t (0 : Fin 2) * 8 + 1 * b.val = _; omega)
    (by show win0_9.index t (1 : Fin 2) * 100 + 1 * c'.val = _; omega)

/-- An index of the array is in point t's block exactly when each coordinate is in the block's range on its axis. -/
theorem mem_blk9 (t : Fin cfg0.N) (i : S16x100.Idx) :
    i ∈ ((cfg0.win 9).blk t).view.set ↔ ∀ a : Fin 2, win0_9.index t a * S8x100.size a ≤ (i a).val
      ∧ (i a).val < win0_9.index t a * S8x100.size a + S8x100.size a := by
  show i ∈ ((View.whole main_v29_3).slice (win0_9.rect t)).set ↔ _
  rw [View.set_slice_whole, Rect.mem_set_unit]
  exact Iff.rfl

/-- Every index of the array is in the block of the last time tile of its batch tile. -/
theorem cover9 (i : S16x100.Idx) :
    ∃ t : Fin cfg0.N, (cfg0.win 9).flush t = true ∧ i ∈ ((cfg0.win 9).blk t).view.set := by
  have h0 : (i 0).val < 16 := idx2_lt0 i
  have h1 : (i 1).val < 100 := idx2_lt1 i
  have hv : (pt (16 * ((i 0).val / 8) + 15)).val = 16 * ((i 0).val / 8) + 15 := pt_val (by omega)
  obtain ⟨q0, q1⟩ := idxo_facts9 (pt (16 * ((i 0).val / 8) + 15))
  rw [hv] at q0
  refine ⟨pt (16 * ((i 0).val / 8) + 15), (flush0_9 _).mpr (by rw [hv]; omega), ?_⟩
  rw [mem_blk9]
  intro a
  match a with
  | ⟨0, _⟩ =>
    show win0_9.index _ (0 : Fin 2) * 8 ≤ (i 0).val ∧ (i 0).val < win0_9.index _ (0 : Fin 2) * 8 + 8
    omega
  | ⟨1, _⟩ =>
    show win0_9.index _ (1 : Fin 2) * 100 ≤ (i 1).val ∧ (i 1).val < win0_9.index _ (1 : Fin 2) * 100 + 100
    omega

/-- Output array 9 after the run, as one function of the argument arrays. -/
theorem final9 (c : Dev nD) : (dats m 0 c).arrAt 9 cfg0.N = G9 (V m c main_arg5) :=
  (dats m 0 c).arrAt_eq_of_cover 9 (G9 (V m c main_arg5)) (flushed9_eq m c) cover9

/-- Output array 9 after the run, entry by entry. -/
theorem final9_at (c : Dev nD) (b : Fin 16) (c' : Fin 100) :
    (dats m 0 c).arrAt 9 cfg0.N (ix2 b c')
      = (if (0 : EReal) < ∑ t : Fin 2048, Accum.msk (arr5 m c (ix3 b t c')) then (1 : EReal) else 0 : EReal) := by
  rw [final9]
  rfl

/-! ### Output array 10 -/

/-- Entry b of output array 10, as a function of the whole argument arrays. -/
def out10 (A7 A8 : FVec Ideal S16x2048x100 .f32) (b : Fin 16) : EReal :=
  ∑ t : Fin 2048, ∑ c' : Fin 100, (A7 (ix3 b t c') - A8 (ix3 b t c')) * (A7 (ix3 b t c') - A8 (ix3 b t c'))

/-- Output array 10 as one function of its index. -/
def G10 (A7 A8 : FVec Ideal S16x2048x100 .f32) : S16x1.Idx → EReal := fun i => out10 A7 A8 (i 0)

/-- Where output window 10's block sits at point t: block ⌊t/16⌋ of the rows, all of the second axis. -/
theorem idxo_facts10 : ∀ t : Fin cfg0.N, win0_10.index t (0 : Fin 2) = t.val / 16 ∧ win0_10.index t (1 : Fin 2) = 0 :=
  (by decide +kernel : ∀ t : Fin grid0.N, _)

/-- What a last time tile writes back is its block of that function of the argument arrays. -/
theorem flushed10_eq (c : Dev nD) (t : Fin cfg0.N) (hf : (cfg0.win 10).flush t = true) :
    (dats m 0 c).flushed 10 t = ((cfg0.win 10).blk t).view.read (Elt Ideal) (G10 (V m c main_arg7) (V m c main_arg8)) := by
  have h15 : t.val % 16 = 15 := (flush0_10 t).mp hf
  have hN : t.val < 32 := lt_of_lt_of_eq t.isLt N_0
  obtain ⟨q0, q1⟩ := idxo_facts10 t
  obtain ⟨i, ht⟩ : ∃ i : Fin 2, t.val = 16 * i.val + 15 :=
    ⟨⟨t.val / 16, by omega⟩, by show t.val = 16 * (t.val / 16) + 15; omega⟩
  have hi := i.isLt
  have hacc : (outsAt0 m c t.val t.isLt).s4 = (Accum.accS (X0 m c i) (X1 m c i) (X2 m c i) (X3 m c i) (X4 m c i) (X5 m c i) 15).2.2.2.2 :=
    congrArg (fun a => a.2.2.2.2) (acc_inv m c i 15 (by omega) t ht)
  have ho := (outs_C m c t (by omega) h15).2.2.2.2
  have key : ∀ (b : Fin 8) (r : Fin 16), r.val = 8 * i.val + b.val →
      (outsAt0 m c t.val t.isLt).o10 (ix2 b (0 : Fin 1)) = out10 (V m c main_arg7) (V m c main_arg8) r := by
    intro b r hr
    obtain rfl : r = Accum.row i b := Fin.ext hr
    rw [ho, hacc]
    exact Accum.fin_cas (X0 m c i) (X1 m c i) (X2 m c i) (X3 m c i) (X4 m c i) (X5 m c i) i (V m c main_arg7) (V m c main_arg8) (hX4 m c i) (hX5 m c i) b
  show (cfg0.win 10).cut (grid0.coords t) ((dats m 0 c).after 10 t) = _
  rw [after0_10]
  funext y
  obtain ⟨b, u, rfl⟩ : ∃ (b : Fin 8) (u : Fin 1), y = ix2 b u := ⟨y 0, y 1, eq_ix2 y⟩
  obtain rfl : u = 0 := Subsingleton.elim _ _
  rw [View.read_apply]
  unfold G10
  exact key b _ (by show win0_10.index t (0 : Fin 2) * 8 + 1 * b.val = _; omega)

/-- An index of the array is in point t's block exactly when each coordinate is in the block's range on its axis. -/
theorem mem_blk10 (t : Fin cfg0.N) (i : S16x1.Idx) :
    i ∈ ((cfg0.win 10).blk t).view.set ↔ ∀ a : Fin 2, win0_10.index t a * S8x1.size a ≤ (i a).val
      ∧ (i a).val < win0_10.index t a * S8x1.size a + S8x1.size a := by
  show i ∈ ((View.whole main_v29_4).slice (win0_10.rect t)).set ↔ _
  rw [View.set_slice_whole, Rect.mem_set_unit]
  exact Iff.rfl

/-- Every index of the array is in the block of the last time tile of its batch tile. -/
theorem cover10 (i : S16x1.Idx) :
    ∃ t : Fin cfg0.N, (cfg0.win 10).flush t = true ∧ i ∈ ((cfg0.win 10).blk t).view.set := by
  have h0 : (i 0).val < 16 := idx2_lt0 i
  have h1 : (i 1).val < 1 := idx2_lt1 i
  have hv : (pt (16 * ((i 0).val / 8) + 15)).val = 16 * ((i 0).val / 8) + 15 := pt_val (by omega)
  obtain ⟨q0, q1⟩ := idxo_facts10 (pt (16 * ((i 0).val / 8) + 15))
  rw [hv] at q0
  refine ⟨pt (16 * ((i 0).val / 8) + 15), (flush0_10 _).mpr (by rw [hv]; omega), ?_⟩
  rw [mem_blk10]
  intro a
  match a with
  | ⟨0, _⟩ =>
    show win0_10.index _ (0 : Fin 2) * 8 ≤ (i 0).val ∧ (i 0).val < win0_10.index _ (0 : Fin 2) * 8 + 8
    omega
  | ⟨1, _⟩ =>
    show win0_10.index _ (1 : Fin 2) * 1 ≤ (i 1).val ∧ (i 1).val < win0_10.index _ (1 : Fin 2) * 1 + 1
    omega

/-- Output array 10 after the run, as one function of the argument arrays. -/
theorem final10 (c : Dev nD) : (dats m 0 c).arrAt 10 cfg0.N = G10 (V m c main_arg7) (V m c main_arg8) :=
  (dats m 0 c).arrAt_eq_of_cover 10 (G10 (V m c main_arg7) (V m c main_arg8)) (flushed10_eq m c) cover10

/-- Output array 10 after the run, entry by entry. -/
theorem final10_at (c : Dev nD) (b : Fin 16) :
    (dats m 0 c).arrAt 10 cfg0.N (ix2 b (0 : Fin 1))
      = (∑ t : Fin 2048, ∑ c' : Fin 100, (arr7 m c (ix3 b t c') - arr8 m c (ix3 b t c')) * (arr7 m c (ix3 b t c') - arr8 m c (ix3 b t c')) : EReal) := by
  rw [final10]
  rfl

end Cert.KernelIdeal.Hand

end
-- ==== Proof.LibReadRw.lean ====
/-
  Reading a fold of host operations at a buffer.

  What a straight line of host operations leaves in a buffer is computed by rewriting, from the last operation
  back: an operation's result at its own buffer is its function applied to its operands' contents, and at any other
  buffer it is what was there before. The tactic below applies these rewrites one at a time wherever they occur
  in the goal, in particular to the operands of a concatenation, which sit inside a list of (shape, array) pairs.
-/
import Idealize.ShloMosaic.Lib.StableHlo.Run

namespace Cert.LibReadRw

open Idealize.ShloMosaic.StableHlo

/-- Read a fold of host operations: every operation's result at its own buffer, or at another one. -/
macro "after_results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

end Cert.LibReadRw
-- ==== Proof.RefAt.lean ====
/-
  The reference's stages read at an index, at the ideal instance (a float is an extended real).

  Each theorem below states one intermediate value of the reference loss at one index, as a plain expression over the
  entries of the argument arrays:
  * the two feature norms: the mean of a feature array over its middle axis (a sum divided by 2048), then the Euclidean
    norm over the last axis;
  * the thresholded ground truth: an entry is 1 where it exceeds 1/2 and 0 elsewhere; its column sums over the middle
    axis, the bit "the column has a positive entry", and the Euclidean norm over the middle axis of the difference
    between the supervision array and the thresholded ground truth;
  * the sum of squared differences of two arrays over all three axes.
  The last theorem is structural: the final vector of six scalars is one fixed function (Tail) of seven of these
  intermediate values.
-/
import proofs.«140918_j52716428591263_2_alg».proof.Proof.RefReadP
import Idealize.ShloMosaic.Lib.ValueIdx
import Idealize.ShloMosaic.PureOps.Ideal.Laws

noncomputable section

open scoped BigOperators

namespace Cert.ReferenceIdeal.RefAt

open Cert.ReferenceIdeal Cert.ReferenceIdeal.Gen Cert.ReferenceIdeal.ReadP
open Idealize.ShloMosaic Idealize.ShloMosaic.ValueIdx Idealize.ShloMosaic.StableHlo

/-! ## A sum over a rank-3 index set is the triple sum over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The threshold at one half -/

/-- The indicator of "greater than one half": 1 where the entry exceeds 1/2, else 0. -/
def msk (x : EReal) : EReal := if Ideal.ofBits .f32 0x3F000000#32 < x then 1 else 0

/-- A strict comparison converted to a float is the indicator of the strict inequality. -/
theorem uitofp_ogt (x h : EReal) :
    FloatOps.uitofp (F := Ideal) .f32 (FloatOps.cmpf (F := Ideal) (φ := .f32) .ogt x h) = if h < x then (1 : EReal) else 0 := by
  show (((BitVec.ofBool (decide (h < x))).toNat : ℝ) : EReal) = _
  by_cases hx : h < x
  · simp [hx]
  · simp [hx]

/-- The thresholded ground truth at an index. -/
theorem thr_at (x5 : FVec Ideal S16x2048x100 .f32) (j : S16x2048x100.Idx) :
    val_main_v47 (F := Ideal) x5 j = msk (x5 j) := by
  rw [val_main_v47_apply, val_main_v46_apply, val_main_v45_apply, val_main_cst_19_apply]
  exact uitofp_ogt _ _

/-! ## The feature norms -/

/-- The norm over the last axis of the mean over the middle axis. -/
theorem act_at (x2 : FVec Ideal S16x2048x2048 .f32) (b : Fin 16) :
    val_main_v32 (F := Ideal) x2 (ix1 b) =
      Ideal.sqrt (∑ d : Fin 2048,
        Ideal.div (∑ t : Fin 2048, x2 (ix3 b t d)) (Ideal.ofBits .f32 0x45000000#32) *
        Ideal.div (∑ t : Fin 2048, x2 (ix3 b t d)) (Ideal.ofBits .f32 0x45000000#32)) := by
  have e : ∀ d t : Fin 2048, idx_main_v29 (idx_main_call2_v1 (ix1 b) d) t = ix3 b t d := fun d t =>
    funext fun a => Fin.ext (by match a with | ⟨0, _⟩ => rfl | ⟨1, _⟩ => rfl | ⟨2, _⟩ => rfl)
  rw [val_main_v32_apply, val_main_call2_v1_apply]
  simp only [val_main_call2_v0_apply, val_main_v31_apply, val_main_v29_apply, val_main_v30_apply,
    val_main_cst_12_apply, val_main_call2_cst_apply, val_main_cst_11_apply, e,
    Ideal.hostUnary_sqrt_def, Ideal.mulf_def, Ideal.hostDivf_def, Ideal.ofBits_def, Ideal.ofBits_zero_f32, zero_add]

/-- The same for the second feature array. -/
theorem bkg_at (x3 : FVec Ideal S16x2048x2048 .f32) (b : Fin 16) :
    val_main_v36 (F := Ideal) x3 (ix1 b) =
      Ideal.sqrt (∑ d : Fin 2048,
        Ideal.div (∑ t : Fin 2048, x3 (ix3 b t d)) (Ideal.ofBits .f32 0x45000000#32) *
        Ideal.div (∑ t : Fin 2048, x3 (ix3 b t d)) (Ideal.ofBits .f32 0x45000000#32)) := by
  have e : ∀ d t : Fin 2048, idx_main_v33 (idx_main_call3_v1 (ix1 b) d) t = ix3 b t d := fun d t =>
    funext fun a => Fin.ext (by match a with | ⟨0, _⟩ => rfl | ⟨1, _⟩ => rfl | ⟨2, _⟩ => rfl)
  rw [val_main_v36_apply, val_main_call3_v1_apply]
  simp only [val_main_call3_v0_apply, val_main_v35_apply, val_main_v33_apply, val_main_v34_apply,
    val_main_cst_14_apply, val_main_call3_cst_apply, val_main_cst_13_apply, e,
    Ideal.hostUnary_sqrt_def, Ideal.mulf_def, Ideal.hostDivf_def, Ideal.ofBits_def, Ideal.ofBits_zero_f32, zero_add]

/-! ## The masked column norm, the column counts and the valid-column bit -/

/-- The norm over the middle axis of the supervision array minus the thresholded ground truth. -/
theorem norm_at (x5 x6 : FVec Ideal S16x2048x100 .f32) (b : Fin 16) (c : Fin 100) :
    val_main_v49 (F := Ideal) x5 x6 (ix2 b c) =
      Ideal.sqrt (∑ t : Fin 2048,
        (x6 (ix3 b t c) - msk (x5 (ix3 b t c))) * (x6 (ix3 b t c) - msk (x5 (ix3 b t c)))) := by
  have e : ∀ t : Fin 2048, idx_main_call4_v1 (ix2 b c) t = ix3 b t c := fun t =>
    funext fun a => Fin.ext (by match a with | ⟨0, _⟩ => rfl | ⟨1, _⟩ => rfl | ⟨2, _⟩ => rfl)
  rw [val_main_v49_apply, val_main_call4_v1_apply]
  simp only [val_main_call4_v0_apply, val_main_v48_apply, thr_at, val_main_call4_cst_apply, e,
    Ideal.hostUnary_sqrt_def, Ideal.mulf_def, Ideal.subf_def, Ideal.ofBits_def, Ideal.ofBits_zero_f32, zero_add]

/-- The number of entries of a column of the ground truth that exceed one half. -/
theorem pos_at (x5 : FVec Ideal S16x2048x100 .f32) (b : Fin 16) (c : Fin 100) :
    val_main_v50 (F := Ideal) x5 (ix2 b c) = ∑ t : Fin 2048, msk (x5 (ix3 b t c)) := by
  have e : ∀ t : Fin 2048, idx_main_v50 (ix2 b c) t = ix3 b t c := fun t =>
    funext fun a => Fin.ext (by match a with | ⟨0, _⟩ => rfl | ⟨1, _⟩ => rfl | ⟨2, _⟩ => rfl)
  rw [val_main_v50_apply]
  simp only [thr_at, val_main_cst_20_apply, e, Ideal.ofBits_def, Ideal.ofBits_zero_f32, zero_add]

/-- The bit "the column has an entry that exceeds one half": the comparison 0 < count. -/
theorem valid_at (x5 : FVec Ideal S16x2048x100 .f32) (b : Fin 16) (c : Fin 100) :
    val_main_v52 (F := Ideal) x5 (ix2 b c) =
      BitVec.ofBool (decide ((0 : EReal) < ∑ t : Fin 2048, msk (x5 (ix3 b t c)))) := by
  rw [val_main_v52_apply, pos_at, val_main_v51_apply, val_main_cst_21_apply, Ideal.ofBits_def, Ideal.ofBits_zero_f32]
  rfl

/-- The same bit as an if-then-else. -/
theorem valid_at_ite (x5 : FVec Ideal S16x2048x100 .f32) (b : Fin 16) (c : Fin 100) :
    val_main_v52 (F := Ideal) x5 (ix2 b c) =
      if (0 : EReal) < ∑ t : Fin 2048, msk (x5 (ix3 b t c)) then 1#1 else 0#1 := by
  rw [valid_at]
  by_cases h : (0 : EReal) < ∑ t : Fin 2048, msk (x5 (ix3 b t c))
  · rw [if_pos h, decide_eq_true h]; rfl
  · rw [if_neg h, decide_eq_false h]; rfl

/-! ## The sum of squared differences over all three axes -/

theorem st_at (x7 x8 : FVec Ideal S16x2048x100 .f32) (i : S_.Idx) :
    val_main_v62 (F := Ideal) x7 x8 i =
      ∑ b : Fin 16, ∑ t : Fin 2048, ∑ c : Fin 100,
        (x7 (ix3 b t c) - x8 (ix3 b t c)) * (x7 (ix3 b t c) - x8 (ix3 b t c)) := by
  rw [val_main_v62_apply, val_main_cst_25_apply, Ideal.ofBits_def, Ideal.ofBits_zero_f32, zero_add, sum_idx3]
  simp only [val_main_v61_apply, val_main_v60_apply, Ideal.mulf_def, Ideal.subf_def]

/-! ## The tail: the six results as one function of seven intermediate values -/

/-- The margin term: the mean over the batch of the squared sum of the clamped margin of the first norm and the
    second norm,  (1/16) ∑_b (max (100 - actn b) 0 + bkgn b)². -/
def Margin (actn bkgn : FVec Ideal S16 .f32) : FVec Ideal S_ .f32 :=
  Host.divf (F := Ideal)
    (Host.reduceAdd (F := Ideal)
      (mulf
        (addf (maximumf (subf (broadcastInDim S16 ![] bcast_S_S16 (constant (F := Ideal) S_ .f32 0x42C80000#32)) actn)
          (broadcastInDim S16 ![] bcast_S_S16 (constant (F := Ideal) S_ .f32 0x00000000#32))) bkgn)
        (addf (maximumf (subf (broadcastInDim S16 ![] bcast_S_S16 (constant (F := Ideal) S_ .f32 0x42C80000#32)) actn)
          (broadcastInDim S16 ![] bcast_S_S16 (constant (F := Ideal) S_ .f32 0x00000000#32))) bkgn))
      (constant (F := Ideal) S_ .f32 0x00000000#32) reducesTo_S16_S_d0 h_S_)
    (constant (F := Ideal) S_ .f32 0x41800000#32)

/-- The column term: the sum of the norms of the valid columns divided by the number of valid columns (at least 1). -/
def ColMean (norms : FVec Ideal S16x100 .f32) (vmask : IVec S16x100 1) : FVec Ideal S_ .f32 :=
  Host.divf (F := Ideal)
    (Host.reduceAdd (F := Ideal)
      (select vmask norms (broadcastInDim S16x100 ![] bcast_S_S16x100 (id (constant (F := Ideal) S_ .f32 0x00000000#32))))
      (constant (F := Ideal) S_ .f32 0x00000000#32) reducesTo_S16x100_S_d0_1 h_S_)
    (sitofp (F := Ideal) .f32
      (maxsi (Host.reduce IntOp.addi (extui 32 vmask natLt_1_32) (constantI S_ 32 0#32) reducesTo_S16x100_S_d0_1 h_S_)
        (constantI S_ 32 1#32)))

/-- The mean squared difference: the sum of squares divided by 16 · 2048 · 100 = 3276800. -/
def MeanSq (sq : FVec Ideal S_ .f32) : FVec Ideal S_ .f32 :=
  Host.divf (F := Ideal) sq (constant (F := Ideal) S_ .f32 0x4A480000#32)

/-- The weighted total  cls + 0.0005 · margin + 1 · be + 1 · colmean + 1 · meansq. -/
def Total (cls be margin colmean meansq : FVec Ideal S_ .f32) : FVec Ideal S_ .f32 :=
  addf
    (addf
      (addf
        (addf cls (mulf (constant (F := Ideal) S_ .f32 0x3A03126F#32) margin))
        (mulf (constant (F := Ideal) S_ .f32 0x3F800000#32) be))
      (mulf (constant (F := Ideal) S_ .f32 0x3F800000#32) colmean))
    (mulf (constant (F := Ideal) S_ .f32 0x3F800000#32) meansq)

/-- The six results (total, the two cross-entropy terms, the margin term, the column term, the mean squared difference)
    as one function of the two cross-entropy terms, the two feature norms, the column norms, the valid-column bits and
    the sum of squared differences. -/
def Tail (cls be : FVec Ideal S_ .f32) (actn bkgn : FVec Ideal S16 .f32) (norms : FVec Ideal S16x100 .f32)
    (vmask : IVec S16x100 1) (sq : FVec Ideal S_ .f32) : FVec Ideal S6 .f32 :=
  concatenate S6 0
    [⟨S1, broadcastInDim S1 ![] bcast_S_S1 (Total cls be (Margin actn bkgn) (ColMean norms vmask) (MeanSq sq))⟩,
     ⟨S1, broadcastInDim S1 ![] bcast_S_S1 cls⟩,
     ⟨S1, broadcastInDim S1 ![] bcast_S_S1 be⟩,
     ⟨S1, broadcastInDim S1 ![] bcast_S_S1 (Margin actn bkgn)⟩,
     ⟨S1, broadcastInDim S1 ![] bcast_S_S1 (ColMean norms vmask)⟩,
     ⟨S1, broadcastInDim S1 ![] bcast_S_S1 (MeanSq sq)⟩]
    concatenates_S1_S1_S1_S1_S1_S1_S6_d0

/-- The reference's result is the tail of its seven intermediate values. -/
theorem tail_eq (x0 x1 : FVec Ideal S16x100 .f32) (x2 x3 : FVec Ideal S16x2048x2048 .f32) (x4 : FVec Ideal S16x100 .f32)
    (x5 x6 x7 x8 : FVec Ideal S16x2048x100 .f32) :
    val_main_v78 (F := Ideal) x0 x1 x2 x3 x4 x5 x6 x7 x8 =
      Tail (val_main_v15 (F := Ideal) x0 x4) (val_main_v28 (F := Ideal) x1) (val_main_v32 (F := Ideal) x2)
        (val_main_v36 (F := Ideal) x3) (val_main_v49 (F := Ideal) x5 x6) (val_main_v52 (F := Ideal) x5)
        (val_main_v62 (F := Ideal) x7 x8) := rfl

end Cert.ReferenceIdeal.RefAt

end
-- ==== Proof.KHost.lean ====
/-
  The kernel program's host operations, read back at the ideal instance.

  Before the region the host computes the same two cross-entropy scalars as the reference (the same operations on the
  same arguments) and leaves the other arguments and the region's result buffers untouched. After the region the host
  turns the region's five results into the six output scalars: the two result columns of feature norms reshaped to
  vectors, the array of column norms, the array of column counts compared with one half, and the column of partial
  sums of squared differences summed to a scalar go through the same tail function as the reference's seven
  intermediate values.
-/
import proofs.«140918_j52716428591263_2_alg».proof.Proof.Gen.KernelIdeal.Launch
import Idealize.ShloMosaic.Lib.StableHlo.Run
import proofs.«140918_j52716428591263_2_alg».proof.Proof.LibReadRw
import proofs.«140918_j52716428591263_2_alg».proof.Proof.RefAt

noncomputable section

namespace Cert.KernelIdeal.KHost

open Cert.KernelIdeal Cert.KernelIdeal.Gen
open Idealize.ShloMosaic Idealize.ShloMosaic.TcCoe Idealize.SL.Sem Idealize.ShloMosaic.StableHlo Cert.LibReadRw

variable (W : Valuation τ sig (Elt Ideal))

/-! ## Before the region -/

/-- The first cross-entropy scalar is the reference's, of the kernel program's arguments. -/
theorem pre_cls :
    StableHlo.after (List.flatten [hostOps0 (F := Ideal), hostOps0_1 (F := Ideal), hostOps0_2 (F := Ideal), hostOps0_3 (F := Ideal), hostOps0_4 (F := Ideal)]) W (Proc.devRef .tc main_v15)
      = Cert.ReferenceIdeal.ReadP.val_main_v15 (F := Ideal) (W (Proc.devRef .tc main_arg0)) (W (Proc.devRef .tc main_arg4)) := by
  simp only [List.flatten_cons, List.flatten_nil, List.append_nil, List.cons_append, List.nil_append, hostOps0, hostOps0_1, hostOps0_2, hostOps0_3, hostOps0_4]
  after_results_simp
  rfl

/-- The second cross-entropy scalar is the reference's, of the kernel program's argument. -/
theorem pre_be :
    StableHlo.after (List.flatten [hostOps0 (F := Ideal), hostOps0_1 (F := Ideal), hostOps0_2 (F := Ideal), hostOps0_3 (F := Ideal), hostOps0_4 (F := Ideal)]) W (Proc.devRef .tc main_v28)
      = Cert.ReferenceIdeal.ReadP.val_main_v28 (F := Ideal) (W (Proc.devRef .tc main_arg1)) := by
  simp only [List.flatten_cons, List.flatten_nil, List.append_nil, List.cons_append, List.nil_append, hostOps0, hostOps0_1, hostOps0_2, hostOps0_3, hostOps0_4]
  after_results_simp
  rfl

/-! No operation before the region writes the other arguments or the region's result buffers. -/

theorem pre_arg2 :
    StableHlo.after (List.flatten [hostOps0 (F := Ideal), hostOps0_1 (F := Ideal), hostOps0_2 (F := Ideal), hostOps0_3 (F := Ideal), hostOps0_4 (F := Ideal)]) W (Proc.devRef .tc main_arg2) = W (Proc.devRef .tc main_arg2) := by
  simp only [List.flatten_cons, List.flatten_nil, List.append_nil, List.cons_append, List.nil_append, hostOps0, hostOps0_1, hostOps0_2, hostOps0_3, hostOps0_4]
  after_results_simp <;> rfl

theorem pre_arg3 :
    StableHlo.after (List.flatten [hostOps0 (F := Ideal), hostOps0_1 (F := Ideal), hostOps0_2 (F := Ideal), hostOps0_3 (F := Ideal), hostOps0_4 (F := Ideal)]) W (Proc.devRef .tc main_arg3) = W (Proc.devRef .tc main_arg3) := by
  simp only [List.flatten_cons, List.flatten_nil, List.append_nil, List.cons_append, List.nil_append, hostOps0, hostOps0_1, hostOps0_2, hostOps0_3, hostOps0_4]
  after_results_simp <;> rfl

theorem pre_arg5 :
    StableHlo.after (List.flatten [hostOps0 (F := Ideal), hostOps0_1 (F := Ideal), hostOps0_2 (F := Ideal), hostOps0_3 (F := Ideal), hostOps0_4 (F := Ideal)]) W (Proc.devRef .tc main_arg5) = W (Proc.devRef .tc main_arg5) := by
  simp only [List.flatten_cons, List.flatten_nil, List.append_nil, List.cons_append, List.nil_append, hostOps0, hostOps0_1, hostOps0_2, hostOps0_3, hostOps0_4]
  after_results_simp <;> rfl

theorem pre_arg6 :
    StableHlo.after (List.flatten [hostOps0 (F := Ideal), hostOps0_1 (F := Ideal), hostOps0_2 (F := Ideal), hostOps0_3 (F := Ideal), hostOps0_4 (F := Ideal)]) W (Proc.devRef .tc main_arg6) = W (Proc.devRef .tc main_arg6) := by
  simp only [List.flatten_cons, List.flatten_nil, List.append_nil, List.cons_append, List.nil_append, hostOps0, hostOps0_1, hostOps0_2, hostOps0_3, hostOps0_4]
  after_results_simp <;> rfl

theorem pre_arg7 :
    StableHlo.after (List.flatten [hostOps0 (F := Ideal), hostOps0_1 (F := Ideal), hostOps0_2 (F := Ideal), hostOps0_3 (F := Ideal), hostOps0_4 (F := Ideal)]) W (Proc.devRef .tc main_arg7) = W (Proc.devRef .tc main_arg7) := by
  simp only [List.flatten_cons, List.flatten_nil, List.append_nil, List.cons_append, List.nil_append, hostOps0, hostOps0_1, hostOps0_2, hostOps0_3, hostOps0_4]
  after_results_simp <;> rfl

theorem pre_arg8 :
    StableHlo.after (List.flatten [hostOps0 (F := Ideal), hostOps0_1 (F := Ideal), hostOps0_2 (F := Ideal), hostOps0_3 (F := Ideal), hostOps0_4 (F := Ideal)]) W (Proc.devRef .tc main_arg8) = W (Proc.devRef .tc main_arg8) := by
  simp only [List.flatten_cons, List.flatten_nil, List.append_nil, List.cons_append, List.nil_append, hostOps0, hostOps0_1, hostOps0_2, hostOps0_3, hostOps0_4]
  after_results_simp <;> rfl

theorem pre_out0 :
    StableHlo.after (List.flatten [hostOps0 (F := Ideal), hostOps0_1 (F := Ideal), hostOps0_2 (F := Ideal), hostOps0_3 (F := Ideal), hostOps0_4 (F := Ideal)]) W (Proc.devRef .tc main_v29_0) = W (Proc.devRef .tc main_v29_0) := by
  simp only [List.flatten_cons, List.flatten_nil, List.append_nil, List.cons_append, List.nil_append, hostOps0, hostOps0_1, hostOps0_2, hostOps0_3, hostOps0_4]
  after_results_simp <;> rfl

theorem pre_out1 :
    StableHlo.after (List.flatten [hostOps0 (F := Ideal), hostOps0_1 (F := Ideal), hostOps0_2 (F := Ideal), hostOps0_3 (F := Ideal), hostOps0_4 (F := Ideal)]) W (Proc.devRef .tc main_v29_1) = W (Proc.devRef .tc main_v29_1) := by
  simp only [List.flatten_cons, List.flatten_nil, List.append_nil, List.cons_append, List.nil_append, hostOps0, hostOps0_1, hostOps0_2, hostOps0_3, hostOps0_4]
  after_results_simp <;> rfl

theorem pre_out2 :
    StableHlo.after (List.flatten [hostOps0 (F := Ideal), hostOps0_1 (F := Ideal), hostOps0_2 (F := Ideal), hostOps0_3 (F := Ideal), hostOps0_4 (F := Ideal)]) W (Proc.devRef .tc main_v29_2) = W (Proc.devRef .tc main_v29_2) := by
  simp only [List.flatten_cons, List.flatten_nil, List.append_nil, List.cons_append, List.nil_append, hostOps0, hostOps0_1, hostOps0_2, hostOps0_3, hostOps0_4]
  after_results_simp <;> rfl

theorem pre_out3 :
    StableHlo.after (List.flatten [hostOps0 (F := Ideal), hostOps0_1 (F := Ideal), hostOps0_2 (F := Ideal), hostOps0_3 (F := Ideal), hostOps0_4 (F := Ideal)]) W (Proc.devRef .tc main_v29_3) = W (Proc.devRef .tc main_v29_3) := by
  simp only [List.flatten_cons, List.flatten_nil, List.append_nil, List.cons_append, List.nil_append, hostOps0, hostOps0_1, hostOps0_2, hostOps0_3, hostOps0_4]
  after_results_simp <;> rfl

theorem pre_out4 :
    StableHlo.after (List.flatten [hostOps0 (F := Ideal), hostOps0_1 (F := Ideal), hostOps0_2 (F := Ideal), hostOps0_3 (F := Ideal), hostOps0_4 (F := Ideal)]) W (Proc.devRef .tc main_v29_4) = W (Proc.devRef .tc main_v29_4) := by
  simp only [List.flatten_cons, List.flatten_nil, List.append_nil, List.cons_append, List.nil_append, hostOps0, hostOps0_1, hostOps0_2, hostOps0_3, hostOps0_4]
  after_results_simp <;> rfl

/-! ## After the region -/

/-- A concatenation of six pieces depends only on the pieces. -/
theorem concat6_congr {α : Type} (t : Shape) (a : Fin t.rank) (s : Shape) {a0 a1 a2 a3 a4 a5 b0 b1 b2 b3 b4 b5 : s.Idx → α}
    (h : Shape.Concatenates [s, s, s, s, s, s] t a)
    (e0 : a0 = b0) (e1 : a1 = b1) (e2 : a2 = b2) (e3 : a3 = b3) (e4 : a4 = b4) (e5 : a5 = b5) :
    concatenate t a [⟨s, a0⟩, ⟨s, a1⟩, ⟨s, a2⟩, ⟨s, a3⟩, ⟨s, a4⟩, ⟨s, a5⟩] h
      = concatenate t a [⟨s, b0⟩, ⟨s, b1⟩, ⟨s, b2⟩, ⟨s, b3⟩, ⟨s, b4⟩, ⟨s, b5⟩] h := by
  subst e0 e1 e2 e3 e4 e5; rfl

set_option maxHeartbeats 8000000 in
/-- The six output scalars are the reference's tail function of: the two cross-entropy scalars; the first two result
    columns as vectors; the third result; the fourth result compared with one half; the sum of the fifth result column. -/
theorem tail_read :
    StableHlo.after (List.flatten [hostOps1 (F := Ideal), hostOps1_1 (F := Ideal), hostOps1_2 (F := Ideal)]) W (Proc.devRef .tc main_v66)
      = Cert.ReferenceIdeal.RefAt.Tail (W (Proc.devRef .tc main_v15)) (W (Proc.devRef .tc main_v28))
          (shapeCast S16 (W (Proc.devRef .tc main_v29_0)) shapeCasts_S16x1_S16)
          (shapeCast S16 (W (Proc.devRef .tc main_v29_1)) shapeCasts_S16x1_S16)
          (W (Proc.devRef .tc main_v29_2))
          (cmpf (F := Ideal) .ogt (W (Proc.devRef .tc main_v29_3))
            (broadcastInDim S16x100 ![] bcast_S_S16x100 (constant (F := Ideal) S_ .f32 0x3F000000#32)))
          (Host.reduceAdd (F := Ideal) (shapeCast S16 (W (Proc.devRef .tc main_v29_4)) shapeCasts_S16x1_S16)
            (constant (F := Ideal) S_ .f32 0x00000000#32) reducesTo_S16_S_d0 h_S_) := by
  simp only [List.flatten_cons, List.flatten_nil, List.append_nil, List.cons_append, List.nil_append, hostOps1, hostOps1_1, hostOps1_2]
  after_results_simp
  dsimp only [Matrix.cons_val]
  refine Eq.trans (concat6_congr S6 0 S1 concatenates_S1_S1_S1_S1_S1_S1_S6_d0
    (b0 := ?b0) (b1 := ?b1) (b2 := ?b2) (b3 := ?b3) (b4 := ?b4) (b5 := ?b5) ?e0 ?e1 ?e2 ?e3 ?e4 ?e5) ?fin
  case e0 => after_results_simp; exact rfl
  case e1 => after_results_simp; exact rfl
  case e2 => after_results_simp; exact rfl
  case e3 => after_results_simp; exact rfl
  case e4 => after_results_simp; exact rfl
  case e5 => after_results_simp; exact rfl
  case fin => rfl

end Cert.KernelIdeal.KHost

end
-- ==== Proof.LibHostRows.lean ====
/-
  A host program's row-wise reduction with kept dimensions, read at an index: the host's `reduce … add` of an
  `[a, b]` matrix along its second axis holds at row `r` the initial value plus the sum of that row's `b` entries; a
  vector `[a]` stretched to a column `[a, 1]` by `broadcast_in_dim` holds at `(p, u)` its entry `p`; a scalar stretched to
  any shape holds the scalar at every index; a column `[a, 1]` stretched over `c` columns holds at `(p, q)` its entry of
  row `p`. (An axis of extent one is the one a `broadcast_in_dim` repeats, so the long axis must not have extent one.)
-/
import Idealize.ShloMosaic.Lib.Pipeline.Value
import Idealize.ShloMosaic.Lib.ValueIdx
import Idealize.ShloMosaic.PureOps.Ideal.Laws

noncomputable section

open scoped BigOperators

namespace Cert.LibHostRows

open Idealize.ShloMosaic Idealize.ShloMosaic.ValueIdx

/-- The host's sum over the second axis of an `[a, b]` matrix, at row `r`: the initial value plus the sum of the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => ?_)
  exact congrArg x (funext fun c => Fin.ext (by
    match c with
    | ⟨0, _⟩ => rfl
    | ⟨1, _⟩ => rfl))

variable {α : Type}

/-- A vector stretched to a column, read at `(p, u)`: its entry `p`. -/
theorem bcast_vec_col_apply {n : ℕ} (hn : n ≠ 1) (d : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h d (ix2 p u) = d (ix1 p) :=
  broadcastInDim_apply ![0] h d (ix2 p u) (ix1 p) (fun a => by
    match a with
    | ⟨0, _⟩ => exact (if_neg hn).symm)

/-- A scalar stretched to any shape holds the scalar at every index. -/
theorem bcast_scalar_apply {t : Shape} (dims : Fin (⟨0, ![]⟩ : Shape).rank → Fin t.rank) (x : (⟨0, ![]⟩ : Shape).Idx → α)
    (h : (⟨0, ![]⟩ : Shape).BroadcastsInDim t dims) (j : t.Idx) :
    broadcastInDim t dims h x j = x ix0 :=
  broadcastInDim_apply dims h x j ix0 (fun a => a.elim0)

/-- A column stretched over `c` columns, read at `(p, q)`: its entry of row `p`. -/
theorem bcast_col_mat_apply {n c : ℕ} (hn : n ≠ 1) (v : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h v (ix2 p q) = v (ix2 p (0 : Fin 1)) :=
  broadcastInDim_apply ![0, 1] h v (ix2 p q) (ix2 p (0 : Fin 1)) (fun a => by
    match a with
    | ⟨0, _⟩ => exact (if_neg hn).symm
    | ⟨1, _⟩ => exact (if_pos rfl).symm)

end Cert.LibHostRows

end
-- ==== Proof.Bridge.lean ====
/-
  The two programs compute one function.

  The kernel program's result is the host tail applied to the five arrays the region leaves and to the two
  cross-entropy scalars computed before it; the reference's result is the same tail applied to its own five
  intermediate values. The scalars are spelt identically in both programs. The arrays agree entry by entry:
  a row's time sum taken tile by tile is the whole sum (addition of extended reals is commutative and associative),
  the product with 1/2048 is the quotient by 2048 on every extended real, an indicator exceeds one half exactly when
  its condition holds, and the sum over the batch of per-row sums is the sum over all entries.
-/
import proofs.«140918_j52716428591263_2_alg».proof.Proof.KiValue
import proofs.«140918_j52716428591263_2_alg».proof.Proof.KHost
import proofs.«140918_j52716428591263_2_alg».proof.Proof.LibHostRows

noncomputable section

open scoped BigOperators

namespace Cert.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A column `[a, 1]` recast as the vector `[a]` reads, at `i`, the column's entry of row `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    omega)

/-- The contents the host operations after the region start from: the region's arrays as it leaves them, every other
    buffer as the region found it. -/
abbrev Wt (c : Dev nD) : Valuation τ sig (Elt Ideal) :=
  Pipeline.withArrays spec0 c (V0 m c) fun w => (dats m 0 c).arrAt w cfg0.N

theorem Wt_out (c : Dev nD) (w : Fin 11) :
    Wt m c (Proc.devRef .tc (Pipeline.arrRef spec0 w)) = (dats m 0 c).arrAt w cfg0.N :=
  Pipeline.withArrays_arr spec0 launch0.win.arr_inj c _ _ w

theorem Wt_cls (c : Dev nD) : Wt m c (Proc.devRef .tc main_v15)
    = Cert.ReferenceIdeal.ReadP.val_main_v15 (F := Ideal) (m ((c : Thread nD τ).loc main_arg0)) (m ((c : Thread nD τ).loc main_arg4)) :=
  (Pipeline.withArrays_of_ne _ c (V0 m c) _ main_v15 (by exact (by decide : ∀ w, Pipeline.arrRef spec0 w ≠ main_v15))).trans
    (Cert.KernelIdeal.KHost.pre_cls (fun b => m (c, b)))

theorem Wt_be (c : Dev nD) : Wt m c (Proc.devRef .tc main_v28)
    = Cert.ReferenceIdeal.ReadP.val_main_v28 (F := Ideal) (m ((c : Thread nD τ).loc main_arg1)) :=
  (Pipeline.withArrays_of_ne _ c (V0 m c) _ main_v28 (by exact (by decide : ∀ w, Pipeline.arrRef spec0 w ≠ main_v28))).trans
    (Cert.KernelIdeal.KHost.pre_be (fun b => m (c, b)))

/-- A sum over the indices of a vector is the sum over its entries. -/
def idxEquiv1 {n : ℕ} : (⟨1, ![n]⟩ : Shape).Idx ≃ Fin n where
  toFun j := ⟨(j 0).val, (j 0).isLt⟩
  invFun b := ix1 b
  left_inv j := (eq_ix1 j).symm
  right_inv b := rfl

theorem sum_idx1 {M : Type*} [AddCommMonoid M] {n : ℕ} (f : (⟨1, ![n]⟩ : Shape).Idx → M) :
    ∑ j, f j = ∑ b : Fin n, f (ix1 b) := by
  rw [← Equiv.sum_comp (idxEquiv1 (n := n)).symm f]
  rfl

/-! ## The five arrays of the region against the reference's five intermediate values -/

/-- The first norm column, recast as a vector, is the reference's first feature norm. -/
theorem leaf_act (c : Dev nD) :
    shapeCast S16 (Wt m c (Proc.devRef .tc main_v29_0)) shapeCasts_S16x1_S16
      = Cert.ReferenceIdeal.ReadP.val_main_v32 (F := Ideal) (m ((c : Thread nD τ).loc main_arg2)) := by
  funext i
  obtain ⟨b, rfl⟩ : ∃ b : Fin 16, i = ix1 b := ⟨i 0, eq_ix1 i⟩
  refine (shapeCast_a1_a_apply _ _ b).trans ?_
  rw [Cert.ReferenceIdeal.RefAt.act_at]
  refine (congrFun (Wt_out m c 6) _).trans ?_
  rw [final6_at m c b]
  dsimp only [arr2]
  rw [V_main_arg2 m c]

/-- The second norm column is the reference's second feature norm. -/
theorem leaf_bkg (c : Dev nD) :
    shapeCast S16 (Wt m c (Proc.devRef .tc main_v29_1)) shapeCasts_S16x1_S16
      = Cert.ReferenceIdeal.ReadP.val_main_v36 (F := Ideal) (m ((c : Thread nD τ).loc main_arg3)) := by
  funext i
  obtain ⟨b, rfl⟩ : ∃ b : Fin 16, i = ix1 b := ⟨i 0, eq_ix1 i⟩
  refine (shapeCast_a1_a_apply _ _ b).trans ?_
  rw [Cert.ReferenceIdeal.RefAt.bkg_at]
  refine (congrFun (Wt_out m c 7) _).trans ?_
  rw [final7_at m c b]
  dsimp only [arr3]
  rw [V_main_arg3 m c]

/-- The block of column norms is the reference's. -/
theorem leaf_norm (c : Dev nD) :
    Wt m c (Proc.devRef .tc main_v29_2)
      = Cert.ReferenceIdeal.ReadP.val_main_v49 (F := Ideal) (m ((c : Thread nD τ).loc main_arg5)) (m ((c : Thread nD τ).loc main_arg6)) := by
  funext i
  obtain ⟨b, c', rfl⟩ : ∃ (b : Fin 16) (c' : Fin 100), i = ix2 b c' := ⟨i 0, i 1, eq_ix2 i⟩
  rw [Cert.ReferenceIdeal.RefAt.norm_at]
  refine (congrFun (Wt_out m c 8) _).trans ?_
  rw [final8_at m c b c']
  dsimp only [arr5, arr6]
  rw [V_main_arg5 m c, V_main_arg6 m c]
  rfl

set_option maxHeartbeats 2000000 in
/-- The kernel's mask block compared with one half is the reference's "some positive entry" bit: an indicator
    exceeds one half exactly when its condition holds. -/
theorem leaf_valid (c : Dev nD) :
    cmpf (F := Ideal) .ogt (Wt m c (Proc.devRef .tc main_v29_3))
        (broadcastInDim S16x100 ![] bcast_S_S16x100 (constant (F := Ideal) S_ .f32 0x3F000000#32))
      = Cert.ReferenceIdeal.ReadP.val_main_v52 (F := Ideal) (m ((c : Thread nD τ).loc main_arg5)) := by
  funext i
  obtain ⟨b, c', rfl⟩ : ∃ (b : Fin 16) (c' : Fin 100), i = ix2 b c' := ⟨i 0, i 1, eq_ix2 i⟩
  rw [Cert.ReferenceIdeal.RefAt.valid_at]
  have hY : (broadcastInDim S16x100 ![] bcast_S_S16x100 (constant (F := Ideal) S_ .f32 0x3F000000#32) (ix2 b c') : EReal)
      = Ideal.ofBits .f32 0x3F000000#32 :=
    Cert.LibHostRows.bcast_scalar_apply _ _ bcast_S_S16x100 (ix2 b c')
  have hX : (Wt m c (Proc.devRef .tc main_v29_3) (ix2 b c') : EReal)
      = (if (0 : EReal) < ∑ t : Fin 2048, Cert.KernelIdeal.Accum.msk (arr5 m c (ix3 b t c')) then (1 : EReal) else 0 : EReal) :=
    (congrFun (Wt_out m c 9) _).trans (final9_at m c b c')
  have e : (∑ t : Fin 2048, Cert.KernelIdeal.Accum.msk (arr5 m c (ix3 b t c')))
      = ∑ t : Fin 2048, Cert.ReferenceIdeal.RefAt.msk ((m ((c : Thread nD τ).loc main_arg5)) (ix3 b t c')) :=
    Finset.sum_congr rfl fun t _ => congrArg Cert.KernelIdeal.Accum.msk (congrFun (V_main_arg5 m c) _)
  show FloatOps.cmpf (F := Ideal) (φ := .f32) .ogt (Wt m c (Proc.devRef .tc main_v29_3) (ix2 b c'))
      (broadcastInDim S16x100 ![] bcast_S_S16x100 (constant (F := Ideal) S_ .f32 0x3F000000#32) (ix2 b c')) = _
  rw [hX, hY]
  show BitVec.ofBool (decide (_ < _)) = _
  refine congrArg BitVec.ofBool (decide_eq_decide.mpr ?_)
  refine (Cert.KernelIdeal.Accum.half_lt_ind _).trans ?_
  rw [e]

/-- The per-row partial sums, added over the batch, are the sum over all entries. -/
theorem leaf_st (c : Dev nD) :
    Host.reduceAdd (F := Ideal) (shapeCast S16 (Wt m c (Proc.devRef .tc main_v29_4)) shapeCasts_S16x1_S16)
        (constant (F := Ideal) S_ .f32 0x00000000#32) reducesTo_S16_S_d0 h_S_
      = Cert.ReferenceIdeal.ReadP.val_main_v62 (F := Ideal) (m ((c : Thread nD τ).loc main_arg7)) (m ((c : Thread nD τ).loc main_arg8)) := by
  funext i
  rw [Cert.ReferenceIdeal.RefAt.st_at]
  simp only [Host.reduceAdd, Ideal.hostReduceAdd_def]
  refine (Ideal.hostReduceAdd_total reducesTo_S16_S_d0 (fun b => b.elim0) _ _ i).trans ?_
  rw [sum_idx1]
  have h0 : (constant (F := Ideal) S_ .f32 0x00000000#32 (Shape.Idx.first h_S_) : EReal) = 0 := Ideal.ofBits_zero_f32
  rw [h0, zero_add]
  refine Finset.sum_congr rfl fun b _ => ?_
  refine (shapeCast_a1_a_apply _ _ b).trans ?_
  refine (congrFun (Wt_out m c 10) _).trans ?_
  rw [final10_at m c b]
  dsimp only [arr7, arr8]
  rw [V_main_arg7 m c, V_main_arg8 m c]

/-! ## The result -/

/-- What the kernel program leaves in its result buffer is the reference's result function of the kernel program's own
    argument arrays. -/
theorem result_eq (c : Dev nD) :
    Pipeline.afterTail₀ cfgs (dats m) 0 (V0 m) [hostOps1, hostOps1_1, hostOps1_2] c main_v66
      = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.ReferenceIdeal.RefAt.tail_eq]
  unfold Pipeline.afterTail₀
  refine (Cert.KernelIdeal.KHost.tail_read (Wt m c)).trans ?_
  rw [Wt_cls m c, Wt_be m c, leaf_act m c, leaf_bkg m c, leaf_norm m c, leaf_valid m c, leaf_st m c]

end Cert.Bridge

end
-- ==== Proof.lean ====
/-
  The certificate of the fused loss kernel against its reference.

  Both programs compute six scalars: a total loss and its five terms (two cross-entropy terms, a feature-margin term,
  a masked column-norm term and a mean squared difference). The kernel program computes the five reductions over the
  time axis inside one gridded kernel — per batch tile, sixteen time tiles are accumulated into scratch buffers and turned
  into norms, a mask and a partial sum at the last tile — and finishes on the host; the reference computes everything with
  whole-array host operations.

  * The frames. Each kernel program (at machine words and over the extended reals) runs to its end without a fault and
    leaves its nine argument arrays unchanged: the body is run symbolically in its three cases (first, middle, last time
    tile), the accumulators are carried by the region's invariant, and the host operations around the region touch no
    argument. The reference has no kernel; its frame is its run with the result dropped.
  * Nothing was rewritten when the kernel was idealized, so there is nothing to preserve.
  * Equal results over the extended reals: the result of the kernel program is the reference's result function applied to
    the kernel program's own arguments (module Bridge), and the two programs start from equal arguments.
-/
import proofs.«140918_j52716428591263_2_alg».proof.Defs
import proofs.«140918_j52716428591263_2_alg».proof.Proof.Gen.Kernel
import proofs.«140918_j52716428591263_2_alg».proof.Proof.Gen.KernelIdeal
import proofs.«140918_j52716428591263_2_alg».proof.Proof.Gen.ReferenceIdeal
import proofs.«140918_j52716428591263_2_alg».proof.Proof.Gen.Pre_finite_inputs
import proofs.«140918_j52716428591263_2_alg».proof.Proof.KbClaim
import proofs.«140918_j52716428591263_2_alg».proof.Proof.KiClaim
import proofs.«140918_j52716428591263_2_alg».proof.Proof.KiResult
import proofs.«140918_j52716428591263_2_alg».proof.Proof.Bridge
import proofs.«140918_j52716428591263_2_alg».proof.Proof.RefRunP
import proofs.«140918_j52716428591263_2_alg».proof.Proof.RefReadP
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's result function of the (equal) arguments. -/
theorem algebraic : Cert.algebraic_KernelIdeal_ReferenceIdeal := by
  intro m ρ m' ρ' _ hagree
  refine ⟨fun c => Cert.ReferenceIdeal.ReadP.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨((h c).1).trans (Cert.Bridge.result_eq m c), (h c).2⟩) (Cert.KernelIdeal.Hand.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v78_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
